-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S128 .f32) (main_arg17 : FVec F S128x10 .f32) (main_arg18 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x10 .f32 := Host.absf main_arg17
  let main_cst_28 : FVec F S_ .f32 := constant S_ .f32 0x7F800000#32
  let main_v75 : FVec F S128x10 .f32 := broadcastInDim S128x10 ![] bcast_S_S128x10 main_cst_28
  let main_v76 : IVec S128x10 1 := cmpf .olt main_v74 main_v75
  let main_c_29 : IVec S_ 1 := constantI S_ 1 1#1
  let main_v77 : IVec S_ 1 := (fun x v => Host.reduce IntOp.andi x v reducesTo_S128x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S512x256 .f32) (main_arg14 : FVec F S256 .f32) (main_arg15 : FVec F S256x128 .f32) (main_arg16 : FVec F S128 .f32) (main_arg17 : FVec F S128x10 .f32) (main_arg18 : FVec F S10 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg13
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_arg17 main_arg18 main_v63 main_v67

def fn_part2 {F : FTy → Type} [FloatOps F] (main_arg9 : FVec F S128x1024 .f32) (main_arg10 : FVec F S1024 .f32) (main_arg11 : FVec F S1024x512 .f32) (main_arg12 : FVec F S512 .f32) (main_arg13 : FVec F S512x256 .f32) (main_arg14 : FVec F S256 .f32) (main_arg15 : FVec F S256x128 .f32) (main_arg16 : FVec F S128 .f32) (main_arg17 : FVec F S128x10 .f32) (main_arg18 : FVec F S10 .f32) (main_v33 : IVec S_ 1) : IVec S_ 1 :=
  let main_v34 : FVec F S128x1024 .f32 := Host.absf main_arg9
  let main_cst_12 : FVec F S_ .f32 := constant S_ .f32 0x7F800000#32
  let main_v35 : FVec F S128x1024 .f32 := broadcastInDim S128x1024 ![] bcast_S_S128x1024 main_cst_12
  let main_v36 : IVec S128x1024 1 := cmpf .olt main_v34 main_v35
  let main_c_13 : IVec S_ 1 := constantI S_ 1 1#1
  let main_v37 : IVec S_ 1 := (fun x v => Host.reduce IntOp.andi x v reducesTo_S128x1024_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x512 .f32 := Host.absf main_arg11
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128x1024 .f32) (main_arg10 : FVec F S1024 .f32) (main_arg11 : FVec F S1024x512 .f32) (main_arg12 : FVec F S512 .f32) (main_arg13 : FVec F S512x256 .f32) (main_arg14 : FVec F S256 .f32) (main_arg15 : FVec F S256x128 .f32) (main_arg16 : FVec F S128 .f32) (main_arg17 : FVec F S128x10 .f32) (main_arg18 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1024 .f32) (main_arg10 : FVec F S1024 .f32) (main_arg11 : FVec F S1024x512 .f32) (main_arg12 : FVec F S512 .f32) (main_arg13 : FVec F S512x256 .f32) (main_arg14 : FVec F S256 .f32) (main_arg15 : FVec F S256x128 .f32) (main_arg16 : FVec F S128 .f32) (main_arg17 : FVec F S128x10 .f32) (main_arg18 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S50000x1 : Shape := ⟨2, ![50000, 1]⟩
abbrev S850000x128 : Shape := ⟨2, ![850000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S64x1024 : Shape := ⟨2, ![64, 1024]⟩
abbrev S1x1024 : Shape := ⟨2, ![1, 1024]⟩
abbrev S64x512 : Shape := ⟨2, ![64, 512]⟩
abbrev S1x512 : Shape := ⟨2, ![1, 512]⟩
abbrev S64x256 : Shape := ⟨2, ![64, 256]⟩
abbrev S1x256 : Shape := ⟨2, ![1, 256]⟩
abbrev S1x10 : Shape := ⟨2, ![1, 10]⟩

abbrev nBuf : Space → Nat
  | .hbm => 129
  | .vmem => 29
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1024, .f32⟩
  | 10 => ⟨S1024, .f32⟩
  | 11 => ⟨S1024x512, .f32⟩
  | 12 => ⟨S512, .f32⟩
  | 13 => ⟨S512x256, .f32⟩
  | 14 => ⟨S256, .f32⟩
  | 15 => ⟨S256x128, .f32⟩
  | 16 => ⟨S128, .f32⟩
  | 17 => ⟨S128x10, .f32⟩
  | 18 => ⟨S10, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S50000x128, .f32⟩
  | 41 => ⟨S50000x1, .f32⟩
  | 42 => ⟨S50000x128, .f32⟩
  | 43 => ⟨S50000x128, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x128, .f32⟩
  | 53 => ⟨S_, .f32⟩
  | 54 => ⟨S50000x128, .f32⟩
  | 55 => ⟨S850000x1, .i32⟩
  | 56 => ⟨S50000x128, .f32⟩
  | 57 => ⟨S50000x1, .f32⟩
  | 58 => ⟨S50000x128, .f32⟩
  | 59 => ⟨S50000x128, .f32⟩
  | 60 => ⟨S50000x128, .f32⟩
  | 61 => ⟨S50000x1, .f32⟩
  | 62 => ⟨S50000x128, .f32⟩
  | 63 => ⟨S50000x128, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S_, .f32⟩
  | 74 => ⟨S50000x128, .f32⟩
  | 75 => ⟨S850000x1, .i32⟩
  | 76 => ⟨S50000x128, .f32⟩
  | 77 => ⟨S50000x1, .f32⟩
  | 78 => ⟨S50000x128, .f32⟩
  | 79 => ⟨S50000x128, .f32⟩
  | 80 => ⟨S50000x128, .f32⟩
  | 81 => ⟨S50000x1, .f32⟩
  | 82 => ⟨S50000x128, .f32⟩
  | 83 => ⟨S50000x128, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S_, .f32⟩
  | 94 => ⟨S50000x128, .f32⟩
  | 95 => ⟨S850000x1, .i32⟩
  | 96 => ⟨S50000x128, .f32⟩
  | 97 => ⟨S50000x1, .f32⟩
  | 98 => ⟨S50000x128, .f32⟩
  | 99 => ⟨S50000x128, .f32⟩
  | 100 => ⟨S_, .f32⟩
  | 101 => ⟨S64x128, .f32⟩
  | 102 => ⟨S50000x1, .i32⟩
  | 103 => ⟨S64x128, .f32⟩
  | 104 => ⟨S_, .f32⟩
  | 105 => ⟨S50000, .f32⟩
  | 106 => ⟨S_, .f32⟩
  | 107 => ⟨S64, .f32⟩
  | 108 => ⟨S50000x1, .i32⟩
  | 109 => ⟨S64, .f32⟩
  | 110 => ⟨S_, .f32⟩
  | 111 => ⟨S64, .f32⟩
  | 112 => ⟨S64, .f32⟩
  | 113 => ⟨S64x1, .f32⟩
  | 114 => ⟨S64x128, .f32⟩
  | 115 => ⟨S64x128, .f32⟩
  | 116 => ⟨S64x1, .f32⟩
  | 117 => ⟨S_, .f32⟩
  | 118 => ⟨S64x1, .f32⟩
  | 119 => ⟨S64x1, .i1⟩
  | 120 => ⟨S1x128, .f32⟩
  | 121 => ⟨S_, .f32⟩
  | 122 => ⟨S_, .f32⟩
  | 123 => ⟨S64x128, .i1⟩
  | 124 => ⟨S64x128, .f32⟩
  | 125 => ⟨S64x128, .f32⟩
  | 126 => ⟨S64x128, .f32⟩
  | 127 => ⟨S64x128, .f32⟩
  | _ => ⟨S50000x128, .f32⟩

abbrev hbmTy0_1 (i : Nat) : BufTy := match i % 128 with
  | 0 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S64x128, .f32⟩
  | .local _ .vmem, ⟨18, _⟩ => ⟨S128x1024, .f32⟩
  | .local _ .vmem, ⟨19, _⟩ => ⟨S1024, .f32⟩
  | .local _ .vmem, ⟨20, _⟩ => ⟨S1024x512, .f32⟩
  | .local _ .vmem, ⟨21, _⟩ => ⟨S512, .f32⟩
  | .local _ .vmem, ⟨22, _⟩ => ⟨S512x256, .f32⟩
  | .local _ .vmem, ⟨23, _⟩ => ⟨S256, .f32⟩
  | .local _ .vmem, ⟨24, _⟩ => ⟨S256x128, .f32⟩
  | .local _ .vmem, ⟨25, _⟩ => ⟨S128, .f32⟩
  | .local _ .vmem, ⟨26, _⟩ => ⟨S128x10, .f32⟩
  | .local _ .vmem, ⟨27, _⟩ => ⟨S10, .f32⟩
  | .local _ .vmem, ⟨28, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_14 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg8_0 : Ref sig .tc := ⟨.vmem, 25, rfl⟩
abbrev cc3_stg9_0 : Ref sig .tc := ⟨.vmem, 26, rfl⟩
abbrev cc3_stg10_0 : Ref sig .tc := ⟨.vmem, 27, rfl⟩
abbrev cc3_stg11_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24
abbrev cc3_sem8_0 : DmaSem sig := 25
abbrev cc3_sem9_0 : DmaSem sig := 26
abbrev cc3_sem10_0 : DmaSem sig := 27
abbrev cc3_sem11_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x10 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S10 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x10 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S_S64x1 : S_.BroadcastsInDim S64x1 (![] : Fin 0 → Fin S64x1.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x1024_S128x1024_0_0 : ∀ a, (![0, 0] : Fin 2 → Nat) a + S128x1024.size a ≤ S128x1024.size a
  h_S128x1024 : 0 < S128x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S256x128_S256x128_0_0 : ∀ a, (![0, 0] : Fin 2 → Nat) a + S256x128.size a ≤ S256x128.size a
  h_S256x128 : 0 < S256x128.numel
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1024_S64x1024_1_0_0_1_n_n_wf : DotDims.WF S64x128 S128x1024 S64x1024 [1] [0] [0] [1] [] []
  dot_S64x1024_S1024x512_S64x512_1_0_0_1_n_n_wf : DotDims.WF S64x1024 S1024x512 S64x512 [1] [0] [0] [1] [] []
  dot_S64x512_S512x256_S64x256_1_0_0_1_n_n_wf : DotDims.WF S64x512 S512x256 S64x256 [1] [0] [0] [1] [] []
  dot_S64x256_S256x128_S64x128_1_0_0_1_n_n_wf : DotDims.WF S64x256 S256x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1024.size a ≤ S128x1024.size a
  hwx3_1 : ∀ i : grid3.Coords, EltTy.bits .f32 = 32 ∨ (Rect.block (s := S128x1024) S128x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S1024x512.size a
  hwx3_3 : ∀ i : grid3.Coords, EltTy.bits .f32 = 32 ∨ (Rect.block (s := S1024x512) S1024x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512.size a ≤ S512.size a
  hwx3_4 : ∀ i : grid3.Coords, EltTy.bits .f32 = 32 ∨ (Rect.block (s := S512) S512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x256.size a ≤ S512x256.size a
  hwx3_5 : ∀ i : grid3.Coords, EltTy.bits .f32 = 32 ∨ (Rect.block (s := S512x256) S512x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .f32 = 32 ∨ (Rect.block (s := S256x128) S256x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x10.size a ≤ S128x10.size a
  hwx3_9 : ∀ i : grid3.Coords, EltTy.bits .f32 = 32 ∨ (Rect.block (s := S128x10) S128x10.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S10.size a ≤ S10.size a
  hwx3_10 : ∀ i : grid3.Coords, EltTy.bits .f32 = 32 ∨ (Rect.block (s := S10) S10.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64x10.size a ≤ S64x10.size a
  hwx3_11 : ∀ i : grid3.Coords, EltTy.bits .f32 = 32 ∨ (Rect.block (s := S64x10) S64x10.size (cc3_transform_11 i) (hinb3_11 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v83) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S1024x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S512x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg14) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg16) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg17) S128x10.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg18) S10.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v84) S64x10.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x1024 : Shape := ⟨2, ![64, 1024]⟩
abbrev S1x1024 : Shape := ⟨2, ![1, 1024]⟩
abbrev S64x512 : Shape := ⟨2, ![64, 512]⟩
abbrev S1x512 : Shape := ⟨2, ![1, 512]⟩
abbrev S64x256 : Shape := ⟨2, ![64, 256]⟩
abbrev S1x256 : Shape := ⟨2, ![1, 256]⟩
abbrev S64x10 : Shape := ⟨2, ![64, 10]⟩
abbrev S1x10 : Shape := ⟨2, ![1, 10]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1024, .f32⟩
  | 10 => ⟨S1024, .f32⟩
  | 11 => ⟨S1024x512, .f32⟩
  | 12 => ⟨S512, .f32⟩
  | 13 => ⟨S512x256, .f32⟩
  | 14 => ⟨S256, .f32⟩
  | 15 => ⟨S256x128, .f32⟩
  | 16 => ⟨S128, .f32⟩
  | 17 => ⟨S128x10, .f32⟩
  | 18 => ⟨S10, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x1, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S850000x1, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S64x128, .f32⟩
  | 127 => ⟨S50000x1, .i32⟩
  | _ => ⟨S50000x128, .f32⟩

abbrev hbmTy0_1 (i : Nat) : BufTy := match i % 128 with
  | 0 => ⟨S64x128, .f32⟩
  | 1 => ⟨S_, .f32⟩
  | 2 => ⟨S50000, .f32⟩
  | 3 => ⟨S_, .f32⟩
  | 4 => ⟨S64, .f32⟩
  | 5 => ⟨S50000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x128, .f32⟩
  | 12 => ⟨S64x128, .f32⟩
  | 13 => ⟨S64x1024, .f32⟩
  | 14 => ⟨S1x1024, .f32⟩
  | 15 => ⟨S64x1024, .f32⟩
  | 16 => ⟨S64x1024, .f32⟩
  | 17 => ⟨S_, .f32⟩
  | 18 => ⟨S64x1024, .f32⟩
  | 19 => ⟨S64x1024, .f32⟩
  | 20 => ⟨S64x512, .f32⟩
  | 21 => ⟨S1x512, .f32⟩
  | 22 => ⟨S64x512, .f32⟩
  | 23 => ⟨S64x512, .f32⟩
  | 24 => ⟨S_, .f32⟩
  | 25 => ⟨S64x512, .f32⟩
  | 26 => ⟨S64x512, .f32⟩
  | 27 => ⟨S64x256, .f32⟩
  | 28 => ⟨S1x256, .f32⟩
  | 29 => ⟨S64x256, .f32⟩
  | 30 => ⟨S64x256, .f32⟩
  | 31 => ⟨S_, .f32⟩
  | 32 => ⟨S64x256, .f32⟩
  | 33 => ⟨S64x256, .f32⟩
  | 34 => ⟨S64x128, .f32⟩
  | 35 => ⟨S1x128, .f32⟩
  | 36 => ⟨S64x128, .f32⟩
  | 37 => ⟨S64x128, .f32⟩
  | 38 => ⟨S_, .f32⟩
  | 39 => ⟨S64x128, .f32⟩
  | 40 => ⟨S64x128, .f32⟩
  | 41 => ⟨S64x10, .f32⟩
  | 42 => ⟨S1x10, .f32⟩
  | 43 => ⟨S64x10, .f32⟩
  | 44 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call1_cst : Ref sig .tc := ⟨.hbm, 79, rfl⟩
abbrev main_call1_v0 : Ref sig .tc := ⟨.hbm, 80, rfl⟩
abbrev main_v47 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_c_10 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call2_cst : Ref sig .tc := ⟨.hbm, 102, rfl⟩
abbrev main_call2_v0 : Ref sig .tc := ⟨.hbm, 103, rfl⟩
abbrev main_v65 : Ref sig .tc := ⟨.hbm, 104, rfl⟩
abbrev main_v66 : Ref sig .tc := ⟨.hbm, 105, rfl⟩
abbrev main_c_12 : Ref sig .tc := ⟨.hbm, 106, rfl⟩
abbrev main_v67 : Ref sig .tc := ⟨.hbm, 107, rfl⟩
abbrev main_v68 : Ref sig .tc := ⟨.hbm, 108, rfl⟩
abbrev main_c_13 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_14 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_16 : Ref sig .tc := ⟨.hbm, 129, rfl⟩
abbrev main_v86 : Ref sig .tc := ⟨.hbm, 130, rfl⟩
abbrev main_cst_17 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_18 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call3_cst : Ref sig .tc := ⟨.hbm, 145, rfl⟩
abbrev main_call3_v0 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_call4_cst : Ref sig .tc := ⟨.hbm, 152, rfl⟩
abbrev main_call4_v0 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call5_cst : Ref sig .tc := ⟨.hbm, 159, rfl⟩
abbrev main_call5_v0 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_call6_cst : Ref sig .tc := ⟨.hbm, 166, rfl⟩
abbrev main_call6_v0 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S1x128_S64x128_0_1 : S1x128.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1024_S64x1024_1_0_0_1_n_n_wf : DotDims.WF S64x128 S128x1024 S64x1024 [1] [0] [0] [1] [] []
  dot_S64x1024_S1024x512_S64x512_1_0_0_1_n_n_wf : DotDims.WF S64x1024 S1024x512 S64x512 [1] [0] [0] [1] [] []
  dot_S64x512_S512x256_S64x256_1_0_0_1_n_n_wf : DotDims.WF S64x512 S512x256 S64x256 [1] [0] [0] [1] [] []
  dot_S64x256_S256x128_S64x128_1_0_0_1_n_n_wf : DotDims.WF S64x256 S256x128 S64x128 [1] [0] [0] [1] [] []
  dot_S64x128_S128x10_S64x10_1_0_0_1_n_n_wf : DotDims.WF S64x128 S128x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KRun.lean ====
/-
  The idealized kernel's run with its two results named.

  The host program is eleven segments: stretches of host operations and four kernel launches.  The buffer contents at
  each segment boundary are a fold from the launch memory (the generated frame's `W0 … W11`); every weakly fair execution
  ends with every unscoped buffer at the last boundary's contents `W11`.  Read at the two result buffers this names the
  results; read at the argument buffers it gives the frame.
-/
import proofs.«130910_j17454747091450_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the host program terminates, nothing faulting, with the two result buffers at the
    last boundary's contents and the argument arrays as launched. -/
theorem run : θ_run defs (onTc (τ := τ) (main (F := F))) ⟨m, fun _ => 0, ρ⟩ (fun r => ∀ c : Dev nD,
      r.2.mem ((c.tc : Thread nD τ).loc main_v83) = W11 m ρ c (Proc.devRef .tc main_v83)
      ∧ r.2.mem ((c.tc : Thread nD τ).loc main_v84) = W11 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v83 (by decide)),
       h c _ (mem_uc main_v84 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c)⟩)

end Cert.KernelIdeal.Results

end
-- ==== Proof.KDefs.lean ====
/-
  The kernel's host-side stages between its launches, as functions of the arrays they read.

  * `srcRawK`, `dstRawK`, `degK`, `dinvK`: the edge list with self-loops, the in-degree and the node factor;
  * `srcCol`, `dstCol`: the edge list's source indices (negative ones wrapped by the node count) and target indices as
    index columns;
  * `dinvB`: the per-node factor broadcast along the feature axis;
  * `propK`: one aggregation — scale the rows by the node factor, gather the source rows, sum them into the target rows,
    scale by the node factor again;
  * `cntK`, `poolK`: the number of nodes of each graph, and the mean pool with the last layer's bias added after the
    mean (only where the graph has a node).
-/
import proofs.«130910_j17454747091450_2_alg».proof.KernelIdeal
import proofs.«130910_j17454747091450_2_alg».proof.Proof.Gen.KernelIdeal
import Idealize.ShloMosaic.PureOps.Ideal

noncomputable section

namespace Cert.KernelIdeal.Net

open Cert.KernelIdeal Cert.KernelIdeal.Facts₀ Idealize.ShloMosaic

/-- The edge list's source indices followed by one self-loop per node. -/
def srcRawK (x1 : (⟨S2x800000, .i32⟩ : BufTy).Contents (Elt Ideal)) : (⟨S850000, .i32⟩ : BufTy).Contents (Elt Ideal) :=
  concatenate S850000 0 [⟨S800000, shapeCast _ (extractStridedSlice S1x800000 ![0, 0] x1 slices_S2x800000_S1x800000_0_0) shapeCasts_S1x800000_S800000⟩,
    ⟨S50000, iotaInDim S50000 32 0⟩] concatenates_S800000_S50000_S850000_d0

/-- The edge list's target indices followed by one self-loop per node. -/
def dstRawK (x1 : (⟨S2x800000, .i32⟩ : BufTy).Contents (Elt Ideal)) : (⟨S850000, .i32⟩ : BufTy).Contents (Elt Ideal) :=
  concatenate S850000 0 [⟨S800000, shapeCast _ (extractStridedSlice S1x800000 ![1, 0] x1 slices_S2x800000_S1x800000_1_0) shapeCasts_S1x800000_S800000⟩,
    ⟨S50000, iotaInDim S50000 32 0⟩] concatenates_S800000_S50000_S850000_d0

/-- The number of entries whose target is each node. -/
def degK (x1 : (⟨S2x800000, .i32⟩ : BufTy).Contents (Elt Ideal)) : (⟨S50000, .f32⟩ : BufTy).Contents (Elt Ideal) :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (dstRawK x1))
    (broadcastInDim S850000 ![] bcast_S_S850000 (constant (F := Ideal) S_ .f32 0x3F800000#32))

/-- The node factor: the reciprocal square root of the count where it is positive, else zero. -/
def dinvK (x1 : (⟨S2x800000, .i32⟩ : BufTy).Contents (Elt Ideal)) : (⟨S50000, .f32⟩ : BufTy).Contents (Elt Ideal) :=
  select (cmpf (F := Ideal) .ogt (degK x1) (broadcastInDim S50000 ![] bcast_S_S50000 (constant (F := Ideal) S_ .f32 0x00000000#32)))
    (Host.rsqrt (F := Ideal) (φ := .f32) (degK x1))
    (broadcastInDim S50000 ![] bcast_S_S50000 (id (constant (F := Ideal) S_ .f32 0x00000000#32)))

/-- The source indices, a negative one wrapped by the node count, as an index column. -/
def srcCol (v3 : (⟨S850000, .i32⟩ : BufTy).Contents (Elt Ideal)) : (⟨S850000x1, .i32⟩ : BufTy).Contents (Elt Ideal) :=
  broadcastInDim S850000x1 ![0] bcast_S850000_S850000x1_0
    (select (cmpi .slt v3 (broadcastInDim S850000 ![] bcast_S_S850000 (constantI S_ 32 0#32)))
      (addi v3 (broadcastInDim S850000 ![] bcast_S_S850000 (constantI S_ 32 50000#32))) v3)

/-- The target indices as an index column. -/
def dstCol (v6 : (⟨S850000, .i32⟩ : BufTy).Contents (Elt Ideal)) : (⟨S850000x1, .i32⟩ : BufTy).Contents (Elt Ideal) :=
  broadcastInDim S850000x1 ![0] bcast_S850000_S850000x1_0 v6

/-- The node factor broadcast along the feature axis. -/
def dinvB (v14 : (⟨S50000, .f32⟩ : BufTy).Contents (Elt Ideal)) : (⟨S50000x128, .f32⟩ : BufTy).Contents (Elt Ideal) :=
  broadcastInDim S50000x128 ![0, 1] bcast_S50000x1_S50000x128_0_1 (broadcastInDim S50000x1 ![0] bcast_S50000_S50000x1_0 v14)

/-- One aggregation of the kernel's host code. -/
def propK (v14 : (⟨S50000, .f32⟩ : BufTy).Contents (Elt Ideal)) (v3 v6 : (⟨S850000, .i32⟩ : BufTy).Contents (Elt Ideal))
    (hw : (⟨S50000x128, .f32⟩ : BufTy).Contents (Elt Ideal)) : (⟨S50000x128, .f32⟩ : BufTy).Contents (Elt Ideal) :=
  mulf (Host.scatterAdd scatter_S50000x128_S850000x1_S850000x128_1_0_0_1
      (broadcastInDim S50000x128 ![] bcast_S_S50000x128 (constant (F := Ideal) S_ .f32 0x00000000#32)) (dstCol v6)
      (Host.gather gather_S50000x128_S850000x1_S850000x128_1_0_n_n_0_1_1128 (mulf hw (dinvB v14)) (srcCol v3)))
    (dinvB v14)

/-- The number of nodes of each graph. -/
def cntK (x2 : (⟨S50000, .i32⟩ : BufTy).Contents (Elt Ideal)) : (⟨S64, .f32⟩ : BufTy).Contents (Elt Ideal) :=
  Host.scatterAdd scatter_S64_S50000x1_S50000_n_0_0_1
    (broadcastInDim S64 ![] bcast_S_S64 (constant (F := Ideal) S_ .f32 0x00000000#32))
    (broadcastInDim S50000x1 ![0] bcast_S50000_S50000x1_0 x2)
    (broadcastInDim S50000 ![] bcast_S_S50000 (constant (F := Ideal) S_ .f32 0x3F800000#32))

/-- The mean pool with the bias added after the mean, where the graph has a node. -/
def poolK (x2 : (⟨S50000, .i32⟩ : BufTy).Contents (Elt Ideal)) (b : (⟨S128, .f32⟩ : BufTy).Contents (Elt Ideal))
    (a : (⟨S50000x128, .f32⟩ : BufTy).Contents (Elt Ideal)) : (⟨S64x128, .f32⟩ : BufTy).Contents (Elt Ideal) :=
  addf
    (Host.divf
      (Host.scatterAdd scatter_S64x128_S50000x1_S50000x128_1_0_0_1
        (broadcastInDim S64x128 ![] bcast_S_S64x128 (constant (F := Ideal) S_ .f32 0x00000000#32))
        (broadcastInDim S50000x1 ![0] bcast_S50000_S50000x1_0 x2) a)
      (broadcastInDim S64x128 ![0, 1] bcast_S64x1_S64x128_0_1 (broadcastInDim S64x1 ![0] bcast_S64_S64x1_0
        (maximumf (cntK x2) (broadcastInDim S64 ![] bcast_S_S64 (constant (F := Ideal) S_ .f32 0x3F800000#32))))))
    (select
      (broadcastInDim S64x128 ![0, 1] bcast_S64x1_S64x128_0_1
        (cmpf (F := Ideal) .ogt (broadcastInDim S64x1 ![0] bcast_S64_S64x1_0 (cntK x2))
          (broadcastInDim S64x1 ![] bcast_S_S64x1 (constant (F := Ideal) S_ .f32 0x00000000#32))))
      (broadcastInDim S64x128 ![0, 1] bcast_S1x128_S64x128_0_1 (broadcastInDim S1x128 ![1] bcast_S128_S1x128_1 b))
      (broadcastInDim S64x128 ![] bcast_S_S64x128 (id (constant (F := Ideal) S_ .f32 0x00000000#32))))

end Cert.KernelIdeal.Net

end
-- ==== Proof.KDefs2.lean ====
/-
  The kernel's node factor and mean pool in their parts: the positivity mask, the reciprocal square root and their
  choice; and the per-graph mean of the rows, the mask of the graphs that have a node, the
  bias as a row, and their combination — the mean plus the bias where the mask holds.
-/
import proofs.«130910_j17454747091450_2_alg».proof.Proof.KDefs

noncomputable section

namespace Cert.KernelIdeal.Net

open Cert.KernelIdeal Cert.KernelIdeal.Facts₀ Idealize.ShloMosaic

/-- The rows of each graph summed and divided by the clamped number of rows. -/
def meanK (x2 : (⟨S50000, .i32⟩ : BufTy).Contents (Elt Ideal)) (a : (⟨S50000x128, .f32⟩ : BufTy).Contents (Elt Ideal)) :
    (⟨S64x128, .f32⟩ : BufTy).Contents (Elt Ideal) :=
  Host.divf (F := Ideal) (φ := .f32)
    (Host.scatterAdd scatter_S64x128_S50000x1_S50000x128_1_0_0_1
      (broadcastInDim S64x128 ![] bcast_S_S64x128 (constant (F := Ideal) S_ .f32 0x00000000#32))
      (broadcastInDim S50000x1 ![0] bcast_S50000_S50000x1_0 x2) a)
    (broadcastInDim S64x128 ![0, 1] bcast_S64x1_S64x128_0_1 (broadcastInDim S64x1 ![0] bcast_S64_S64x1_0
      (maximumf (cntK x2) (broadcastInDim S64 ![] bcast_S_S64 (constant (F := Ideal) S_ .f32 0x3F800000#32)))))

/-- Which graphs have a node, as a one-column mask. -/
def maskK (x2 : (⟨S50000, .i32⟩ : BufTy).Contents (Elt Ideal)) : (⟨S64x1, .i1⟩ : BufTy).Contents (Elt Ideal) :=
  cmpf (F := Ideal) .ogt (broadcastInDim S64x1 ![0] bcast_S64_S64x1_0 (cntK x2))
    (broadcastInDim S64x1 ![] bcast_S_S64x1 (constant (F := Ideal) S_ .f32 0x00000000#32))

/-- The bias as a one-row array. -/
def biasRowK (b : (⟨S128, .f32⟩ : BufTy).Contents (Elt Ideal)) : (⟨S1x128, .f32⟩ : BufTy).Contents (Elt Ideal) :=
  broadcastInDim S1x128 ![1] bcast_S128_S1x128_1 b

/-- The mean plus, where the mask holds, the bias row (else the given scalar). -/
def tailK (v77 : (⟨S64x128, .f32⟩ : BufTy).Contents (Elt Ideal)) (v80 : (⟨S64x1, .i1⟩ : BufTy).Contents (Elt Ideal))
    (v81 : (⟨S1x128, .f32⟩ : BufTy).Contents (Elt Ideal)) (z : (⟨S_, .f32⟩ : BufTy).Contents (Elt Ideal)) :
    (⟨S64x128, .f32⟩ : BufTy).Contents (Elt Ideal) :=
  addf (F := Ideal) (φ := .f32) v77
    (select (broadcastInDim S64x128 ![0, 1] bcast_S64x1_S64x128_0_1 v80)
      (broadcastInDim S64x128 ![0, 1] bcast_S1x128_S64x128_0_1 v81)
      (broadcastInDim S64x128 ![] bcast_S_S64x128 (id z)))

/-- Which nodes have a positive count. -/
def posK (x1 : (⟨S2x800000, .i32⟩ : BufTy).Contents (Elt Ideal)) : (⟨S50000, .i1⟩ : BufTy).Contents (Elt Ideal) :=
  cmpf (F := Ideal) .ogt (degK x1) (broadcastInDim S50000 ![] bcast_S_S50000 (constant (F := Ideal) S_ .f32 0x00000000#32))

/-- The reciprocal square root of the count. -/
def rsqrtDegK (x1 : (⟨S2x800000, .i32⟩ : BufTy).Contents (Elt Ideal)) : (⟨S50000, .f32⟩ : BufTy).Contents (Elt Ideal) :=
  Host.rsqrt (F := Ideal) (φ := .f32) (degK x1)

/-- The choice between a vector and a broadcast scalar by a mask. -/
def chooseK (p : (⟨S50000, .i1⟩ : BufTy).Contents (Elt Ideal)) (v : (⟨S50000, .f32⟩ : BufTy).Contents (Elt Ideal))
    (z : (⟨S_, .f32⟩ : BufTy).Contents (Elt Ideal)) : (⟨S50000, .f32⟩ : BufTy).Contents (Elt Ideal) :=
  select p v (broadcastInDim S50000 ![] bcast_S_S50000 (id z))

/-- The node factor is the choice between the reciprocal square root and zero by the positivity mask. -/
theorem dinvK_parts (x1 : (⟨S2x800000, .i32⟩ : BufTy).Contents (Elt Ideal)) :
    dinvK x1 = chooseK (posK x1) (rsqrtDegK x1) (constant (F := Ideal) S_ .f32 0x00000000#32) := rfl

/-- The pool is the combination of its parts. -/
theorem poolK_parts (x2 : (⟨S50000, .i32⟩ : BufTy).Contents (Elt Ideal)) (b : (⟨S128, .f32⟩ : BufTy).Contents (Elt Ideal))
    (a : (⟨S50000x128, .f32⟩ : BufTy).Contents (Elt Ideal)) :
    poolK x2 b a = tailK (meanK x2 a) (maskK x2) (biasRowK b) (constant (F := Ideal) S_ .f32 0x00000000#32) := rfl

end Cert.KernelIdeal.Net

end
-- ==== Proof.KStages.lean ====
/-
  Each stretch of the kernel's host code, from any buffer contents W, as a function of the buffers it reads.

  The first two stretches build the edge list with self-loops and the node factor from the edge-index argument; the
  stretch after each of the first two launches is one aggregation of that launch's output; the stretches after the third
  launch are a last aggregation followed by the mean pool.  Each equation is the host operations' results composed.
-/
import proofs.«130910_j17454747091450_2_alg».proof.Proof.Gen.KernelIdeal.Launch
import proofs.«130910_j17454747091450_2_alg».proof.Proof.KDefs2
import Idealize.ShloMosaic.Lib.StableHlo.Run

set_option maxRecDepth 16384

noncomputable section

namespace Cert.KernelIdeal.Stages

open Cert.KernelIdeal Cert.KernelIdeal.Gen Cert.KernelIdeal.Net
open Idealize.ShloMosaic Idealize.ShloMosaic.TcCoe Idealize.ShloMosaic.StableHlo
open Idealize.SL Idealize.SL.Sem

variable (W : Valuation τ sig (Elt Ideal))

set_option maxHeartbeats 2000000 in
/-- The source indices with self-loops, after the first two stretches. -/
theorem head_v3 : StableHlo.after (hostOps0_1 (F := Ideal)) (StableHlo.after (hostOps0 (F := Ideal)) W) (Proc.devRef .tc main_v3)
    = srcRawK (W (Proc.devRef .tc main_arg1)) := by
  dsimp only [hostOps0_1]
  after_results
  all_goals rfl

set_option maxHeartbeats 2000000 in
/-- The target indices with self-loops, after the first two stretches. -/
theorem head_v6 : StableHlo.after (hostOps0_1 (F := Ideal)) (StableHlo.after (hostOps0 (F := Ideal)) W) (Proc.devRef .tc main_v6)
    = dstRawK (W (Proc.devRef .tc main_arg1)) := by
  dsimp only [hostOps0_1]
  after_results
  all_goals rfl

set_option maxHeartbeats 2000000 in
/-- After the first stretch: which nodes have a positive count. -/
theorem head_pos : StableHlo.after (hostOps0 (F := Ideal)) W (Proc.devRef .tc main_v12) = posK (W (Proc.devRef .tc main_arg1)) := by
  dsimp only [hostOps0]
  after_results_simp
  all_goals rfl

set_option maxHeartbeats 2000000 in
/-- After the first stretch: the reciprocal square root of the count. -/
theorem head_rsqrt : StableHlo.after (hostOps0 (F := Ideal)) W (Proc.devRef .tc main_v13) = rsqrtDegK (W (Proc.devRef .tc main_arg1)) := by
  dsimp only [hostOps0]
  after_results_simp
  all_goals rfl

set_option maxHeartbeats 2000000 in
/-- After the first stretch: the scalar zero of the other branch. -/
theorem head_zero : StableHlo.after (hostOps0 (F := Ideal)) W (Proc.devRef .tc main_cst_2) = constant (F := Ideal) S_ .f32 0x00000000#32 := by
  dsimp only [hostOps0]
  after_results_simp
  all_goals rfl

set_option maxHeartbeats 2000000 in
/-- The second stretch chooses between the two by the mask. -/
theorem head_choose : StableHlo.after (hostOps0_1 (F := Ideal)) W (Proc.devRef .tc main_v14)
    = chooseK (W (Proc.devRef .tc main_v12)) (W (Proc.devRef .tc main_v13)) (W (Proc.devRef .tc main_cst_2)) := by
  dsimp only [hostOps0_1]
  after_results
  all_goals rfl

/-- The node factor, after the first two stretches. -/
theorem head_v14 : StableHlo.after (hostOps0_1 (F := Ideal)) (StableHlo.after (hostOps0 (F := Ideal)) W) (Proc.devRef .tc main_v14)
    = dinvK (W (Proc.devRef .tc main_arg1)) := by
  refine (head_choose (StableHlo.after (hostOps0 (F := Ideal)) W)).trans ?_
  rw [head_pos, head_rsqrt, head_zero, dinvK_parts]

set_option maxHeartbeats 2000000 in
/-- The stretch after the first launch: one aggregation of the launch's output. -/
theorem stage1 : StableHlo.after (hostOps1 (F := Ideal)) W (Proc.devRef .tc main_v31)
    = propK (W (Proc.devRef .tc main_v14)) (W (Proc.devRef .tc main_v3)) (W (Proc.devRef .tc main_v6)) (W (Proc.devRef .tc main_v15)) := by
  dsimp only [hostOps1]
  after_results_simp
  all_goals rfl

set_option maxHeartbeats 2000000 in
/-- The stretch after the second launch: one aggregation of the launch's output. -/
theorem stage2 : StableHlo.after (hostOps2 (F := Ideal)) W (Proc.devRef .tc main_v48)
    = propK (W (Proc.devRef .tc main_v14)) (W (Proc.devRef .tc main_v3)) (W (Proc.devRef .tc main_v6)) (W (Proc.devRef .tc main_v32)) := by
  dsimp only [hostOps2]
  after_results_simp
  all_goals rfl

set_option maxHeartbeats 2000000 in
/-- After the third launch: the per-graph mean of the last aggregation. -/
theorem tail_mean : StableHlo.after (hostOps3 (F := Ideal)) W (Proc.devRef .tc main_v77)
    = meanK (W (Proc.devRef .tc main_arg2))
        (propK (W (Proc.devRef .tc main_v14)) (W (Proc.devRef .tc main_v3)) (W (Proc.devRef .tc main_v6)) (W (Proc.devRef .tc main_v49))) := by
  dsimp only [hostOps3]
  after_results_simp
  all_goals rfl

set_option maxHeartbeats 2000000 in
/-- After the third launch: the mask of the graphs that have a node. -/
theorem tail_mask : StableHlo.after (hostOps3 (F := Ideal)) W (Proc.devRef .tc main_v80) = maskK (W (Proc.devRef .tc main_arg2)) := by
  dsimp only [hostOps3]
  after_results_simp
  all_goals rfl

set_option maxHeartbeats 2000000 in
/-- After the third launch: the last layer's bias as a row. -/
theorem tail_bias : StableHlo.after (hostOps3 (F := Ideal)) W (Proc.devRef .tc main_v81) = biasRowK (W (Proc.devRef .tc main_arg8)) := by
  dsimp only [hostOps3]
  after_results_simp
  all_goals rfl

set_option maxHeartbeats 2000000 in
/-- After the third launch: the scalar zero the mask's other branch broadcasts. -/
theorem tail_zero : StableHlo.after (hostOps3 (F := Ideal)) W (Proc.devRef .tc main_cst_16) = constant (F := Ideal) S_ .f32 0x00000000#32 := by
  dsimp only [hostOps3]
  after_results_simp
  all_goals rfl

set_option maxHeartbeats 2000000 in
/-- The last two stretches combine the four. -/
theorem tail_combine : StableHlo.after (hostOps3_2 (F := Ideal)) (StableHlo.after (hostOps3_1 (F := Ideal)) W) (Proc.devRef .tc main_v83)
    = tailK (W (Proc.devRef .tc main_v77)) (W (Proc.devRef .tc main_v80)) (W (Proc.devRef .tc main_v81)) (W (Proc.devRef .tc main_cst_16)) := by
  dsimp only [hostOps3_2, hostOps3_1]
  after_results
  all_goals rfl

/-- The stretches after the third launch: a last aggregation, then the mean pool with the bias added after it. -/
theorem stage3 : StableHlo.after (hostOps3_2 (F := Ideal)) (StableHlo.after (hostOps3_1 (F := Ideal)) (StableHlo.after (hostOps3 (F := Ideal)) W)) (Proc.devRef .tc main_v83)
    = poolK (W (Proc.devRef .tc main_arg2)) (W (Proc.devRef .tc main_arg8))
        (propK (W (Proc.devRef .tc main_v14)) (W (Proc.devRef .tc main_v3)) (W (Proc.devRef .tc main_v6)) (W (Proc.devRef .tc main_v49))) := by
  refine (tail_combine (StableHlo.after (hostOps3 (F := Ideal)) W)).trans ?_
  rw [tail_mean, tail_mask, tail_bias, tail_zero, poolK_parts]

end Cert.KernelIdeal.Stages

end
-- ==== Proof.Spec.lean ====
/-
  The vocabulary in which both programs' results are written: arrays are functions from an index to an extended real.

  * `mm a b`       — the matrix product: entry (r, c) is the sum over k of a(r,k) · b(k,c);
  * `addBias a b`  — a row vector b added to every row of a: entry (r, c) is a(r,c) + b(c);
  * `reluBias a b` — the same followed by the positive part: entry (r, c) is max (a(r,c) + b(c)) 0.

  A graph-convolution layer's dense half is `mm (reluBias h b) w` (or `mm x w` for the first layer); the five-layer
  head is four `reluBias (mm · w) b` stages and a last `addBias (mm · w) b`.
-/
import Idealize.ShloMosaic.Lib.ValueIdx
import Idealize.ShloMosaic.PureOps.Ideal.Laws

noncomputable section

open scoped BigOperators

namespace Cert.Spec

open Idealize.ShloMosaic Idealize.ShloMosaic.ValueIdx

variable {M K N : Nat}

/-- The matrix product of an M×K and a K×N array of extended reals. -/
def mm (a : (⟨2, ![M, K]⟩ : Shape).Idx → EReal) (b : (⟨2, ![K, N]⟩ : Shape).Idx → EReal) :
    (⟨2, ![M, N]⟩ : Shape).Idx → EReal :=
  fun i => ∑ k : Fin K, a (ix2 ⟨(i 0).val, idx2_lt0 i⟩ k) * b (ix2 k ⟨(i 1).val, idx2_lt1 i⟩)

theorem mm_apply (a : (⟨2, ![M, K]⟩ : Shape).Idx → EReal) (b : (⟨2, ![K, N]⟩ : Shape).Idx → EReal) (r : Fin M) (c : Fin N) :
    mm a b (ix2 r c) = ∑ k : Fin K, a (ix2 r k) * b (ix2 k c) := rfl

/-- A row vector added to every row. -/
def addBias (a : (⟨2, ![M, N]⟩ : Shape).Idx → EReal) (b : (⟨1, ![N]⟩ : Shape).Idx → EReal) :
    (⟨2, ![M, N]⟩ : Shape).Idx → EReal :=
  fun i => a i + b (ix1 ⟨(i 1).val, idx2_lt1 i⟩)

theorem addBias_apply (a : (⟨2, ![M, N]⟩ : Shape).Idx → EReal) (b : (⟨1, ![N]⟩ : Shape).Idx → EReal) (r : Fin M) (c : Fin N) :
    addBias a b (ix2 r c) = a (ix2 r c) + b (ix1 c) := rfl

/-- A row vector added to every row, then the positive part. -/
def reluBias (a : (⟨2, ![M, N]⟩ : Shape).Idx → EReal) (b : (⟨1, ![N]⟩ : Shape).Idx → EReal) :
    (⟨2, ![M, N]⟩ : Shape).Idx → EReal :=
  fun i => max (a i + b (ix1 ⟨(i 1).val, idx2_lt1 i⟩)) 0

theorem reluBias_apply (a : (⟨2, ![M, N]⟩ : Shape).Idx → EReal) (b : (⟨1, ![N]⟩ : Shape).Idx → EReal) (r : Fin M) (c : Fin N) :
    reluBias a b (ix2 r c) = max (a (ix2 r c) + b (ix1 c)) 0 := rfl

/-- Two arrays over a two-axis shape are equal when they agree at every (r, c). -/
theorem ext2 {α : Type} {f g : (⟨2, ![M, N]⟩ : Shape).Idx → α} (h : ∀ (r : Fin M) (c : Fin N), f (ix2 r c) = g (ix2 r c)) : f = g := by
  funext i
  obtain ⟨r, c, rfl⟩ : ∃ (r : Fin M) (c : Fin N), i = ix2 r c := ⟨⟨(i 0).val, idx2_lt0 i⟩, ⟨(i 1).val, idx2_lt1 i⟩, eq_ix2 i⟩
  exact h r c

end Cert.Spec

end
-- ==== Proof.LibPlainDot.lean ====
/-
  A plain matrix product read at an element, over the extended reals.

  For the dimension numbers "contract the left operand's axis 1 with the right operand's axis 0, no batch axis"
  (`DotDims.plain M K N`: an M×K array times a K×N array), the contraction position is one coordinate k < K, the left
  operand is read at (r, k) and the right at (k, c).  So the element (r, c) of the product — whether computed by the
  matrix unit into an accumulator of zeros or by the host's dot_general — is the finite sum  Σ_{k < K} lhs(r,k) · rhs(k,c).
  Nothing here depends on the extents, so the statement is for all M, K, N.
-/
import Idealize.ShloMosaic.Lib.ValueIdx
import Idealize.ShloMosaic.PureOps.Ideal.Laws

noncomputable section

open scoped BigOperators

namespace Cert.PlainDot

open Idealize.ShloMosaic Idealize.ShloMosaic.ValueIdx

variable {M K N : Nat}

/-- The left operand's row coordinate is the output's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- The right operand's column coordinate is the output's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The contraction sum of a plain product, re-indexed by the inner coordinate. -/
theorem sum_plain {φ₁ φ₂ : FTy} (lhs : FVec Ideal ⟨2, ![M, K]⟩ φ₁) (rhs : FVec Ideal ⟨2, ![K, N]⟩ φ₂) (r : Fin M) (c : Fin N) :
    ∑ q : (DotDims.plain M K N).contr.Idx,
        lhs ((DotDims.plain M K N).lhsIdx (ix2 r c) q) * rhs ((DotDims.plain M K N).rhsIdx (ix2 r c) q)
      = ∑ k : Fin K, lhs (ix2 r k) * rhs (ix2 k c) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx (ix2 r c) ((contrEquiv1 (DotDims.plain M K N) K hr hs).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K hr hs).symm k) = ix2 k c :=
    funext fun a => Fin.ext (by
      match a with
      | ⟨0, _⟩ => exact ((DotDims.plain M K N).rhsIdx_val_of_single rfl _ _).trans hk
      | ⟨1, _⟩ => exact rhs_col _ _)
  rw [el, er]

/-- A plain product accumulated by the matrix unit into zeros, at the element (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_plain lhs rhs r c)

/-- A plain product computed by the host's dot_general, at the element (r, c). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (sum_plain lhs rhs r c)

end Cert.PlainDot

end
-- ==== Proof.RegionsLinear.lean ====
/-
  The first three regions of the idealized program, each as one closed formula of the arrays it finds on entry.

  Every one of these regions walks the ten blocks of 5000 rows of a 50000×128 array.  At block i it reads rows
  5000·i … 5000·i + 4999 of its input, the whole 128×128 weight (and, in the second and third regions, the whole
  bias row), and writes the same rows of its output.  What it writes at row r, column c is

    region 0:       Σ_{k<128} x(r,k) · w(k,c)
    regions 1, 2:   Σ_{k<128} max (x(r,k) + b(k)) 0 · w(k,c)

  (over the extended reals a change of float format is the identity, and the matrix unit accumulating into zeros
  gives the plain sum).  A row of the product depends on the same row of the input only, so the block written at
  point i is the block i of the product of the WHOLE input array; the ten blocks tile the 50000 rows (row r lies in
  block r / 5000), so after the last point the output array is the whole product.

  Per region: the relations between the windows' block index maps, decided over the ten grid points; the body's
  result at an element; what a point writes back, as a block of the closed formula; membership in a block as
  inequalities; every index is covered; the array.
-/
import proofs.«130910_j17454747091450_2_alg».proof.Proof.Gen.KernelIdeal.Frame
import proofs.«130910_j17454747091450_2_alg».proof.Proof.Spec
import proofs.«130910_j17454747091450_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

-- the buffer contents a region finds on entry
variable (V : (c : Dev nD) → (b : Ref sig .tc) → Buf (Elt Ideal) ((c : Thread nD τ).loc b))

/-- The zero offsets of a whole-buffer access, as a constant function. -/
theorem zero_offsets2 : (![0, 0] : Fin 2 → Nat) = fun _ => 0 := funext fun a => by fin_cases a <;> rfl

/-- The zero offset of a whole-row access, as a constant function. -/
theorem zero_offsets1 : (![0] : Fin 1 → Nat) = fun _ => 0 := funext fun a => by fin_cases a; rfl

/-- The printed dimension numbers are those of a plain 5000×128 by 128×128 product. -/
theorem dot_plain : dot_S5000x128_S128x128_S5000x128_1_0_0_1_n_n = DotDims.plain 5000 128 128 := rfl

/-! ## Region 0: x · w -/

/-- The index maps over the ten points: the input's row block moves with the output's, the weight's block stays at
    the origin, the output's row block index is at most 9 and its column block index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- The body's result at an element: the sum over the inner coordinate of the products of the two blocks' entries. -/
theorem pay0_point (x0 : Vec Ideal S5000x128 .f32) (x1 : Vec Ideal S128x128 .f32) (j : S5000x128.Idx) :
    k0_pay1 x0 x1 j = ∑ k : Fin 128, x0 (ix2 ⟨(j 0).val, idx2_lt0 j⟩ k) * x1 (ix2 k ⟨(j 1).val, idx2_lt1 j⟩) := by
  have hj : j = ix2 ⟨(j 0).val, idx2_lt0 j⟩ ⟨(j 1).val, idx2_lt1 j⟩ := eq_ix2 j
  exact (congrArg (k0_pay1 x0 x1) hj).trans
    (Cert.PlainDot.matmul_zero_apply (M := 5000) (K := 128) (N := 128) none
      (truncf .bf16 x0 bitsLt_bf16_f32 : FVec Ideal S5000x128 .bf16) (truncf .bf16 x1 bitsLt_bf16_f32 : FVec Ideal S128x128 .bf16)
      ⟨(j 0).val, idx2_lt0 j⟩ ⟨(j 1).val, idx2_lt1 j⟩)

/-- What point t writes back is block t of the product of the whole arrays: row r of the block is row
    5000·(block index) + r of the input, and the weight's block is the whole weight. -/
theorem flushed0_eq (c : Dev nD) (t : Fin cfg0.N) :
    (dat0 (F := Ideal) V c).flushed 2 t
      = ((cfg0.win 2).blk t).view.read (Elt Ideal) (Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets2]
  simp only [View.ld_unit_zero (S := S5000x128) zero_offsets2, View.ld_unit_zero (S := S128x128) zero_offsets2]
  obtain ⟨e0, e1, e2, e3, e4, e5⟩ := idx_facts0 t
  funext j
  show k0_pay1 (iblk0 V c 0 t) (iblk0 V c 1 t) j
    = Spec.mm (V c (Pipeline.arrRef spec0 0)) (V c (Pipeline.arrRef spec0 1)) (((cfg0.win 2).blk t).view.emb j)
  refine (pay0_point _ _ j).trans ?_
  unfold Spec.mm
  refine Finset.sum_congr rfl fun k _ => ?_
  have h0 : iblk0 V c 0 t (ix2 ⟨(j 0).val, idx2_lt0 j⟩ k)
      = V c (Pipeline.arrRef spec0 0) (ix2 ⟨((((cfg0.win 2).blk t).view.emb j) 0).val, idx2_lt0 _⟩ k) := by
    show V c (Pipeline.arrRef spec0 0) (((cfg0.win 0).blk t).view.emb (ix2 ⟨(j 0).val, idx2_lt0 j⟩ k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (ix2 k ⟨(j 1).val, idx2_lt1 j⟩)
      = V c (Pipeline.arrRef spec0 1) (ix2 k ⟨((((cfg0.win 2).blk t).view.emb j) 1).val, idx2_lt1 _⟩) := by
    show V c (Pipeline.arrRef spec0 1) (((cfg0.win 1).blk t).view.emb (ix2 k ⟨(j 1).val, idx2_lt1 j⟩)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Every index of the output array is in the block of the point whose row block is (row / 5000). -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- REGION 0's output array after its last point: the product of the input array and the weight as the region
    finds them. -/
theorem region0_array (c : Dev nD) :
    (dat0 (F := Ideal) V c).arrAt 2 cfg0.N = Spec.mm (V c (Pipeline.arrRef spec0 0)) (V c (Pipeline.arrRef spec0 1)) :=
  (dat0 V c).arrAt_eq_of_cover 2 (Spec.mm (V c (Pipeline.arrRef spec0 0)) (V c (Pipeline.arrRef spec0 1)))
    (fun t _ => flushed0_eq V c t) cover0

/-! ## Region 1: max (x + b) 0 · w -/

/-- The index maps over the ten points: the input's row block moves with the output's, the bias's and the weight's
    blocks stay at the origin, the output's row block index is at most 9 and its column block index is 0. -/
theorem idx_facts1 : ∀ t : Fin cfg1.N, win1_0.index t (0 : Fin 2) = win1_3.index t (0 : Fin 2)
    ∧ win1_0.index t (1 : Fin 2) = 0
    ∧ win1_1.index t (0 : Fin 1) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every one of the ten row blocks is some point's. -/
theorem idx_onto1 : ∀ (q0 : Fin 10), ∃ t : Fin cfg1.N, win1_3.index t = ![q0.val, 0] :=
  (by decide +kernel : ∀ (q0 : Fin 10), ∃ t : Fin grid1.N, win1_3.index t = ![q0.val, 0])

/-- The body's result at an element: the bias row is added to every row of the block, the positive part is taken, and
    the result is multiplied into the weight — the sum over the inner coordinate. -/
theorem pay1_point (x0 : Vec Ideal S5000x128 .f32) (x1 : Vec Ideal S128 .f32) (x2 : Vec Ideal S128x128 .f32) (j : S5000x128.Idx) :
    k1_pay1 x0 x1 x2 j
      = ∑ k : Fin 128, max (x0 (ix2 ⟨(j 0).val, idx2_lt0 j⟩ k) + x1 (ix1 k)) 0 * x2 (ix2 k ⟨(j 1).val, idx2_lt1 j⟩) := by
  have hj : j = ix2 ⟨(j 0).val, idx2_lt0 j⟩ ⟨(j 1).val, idx2_lt1 j⟩ := eq_ix2 j
  refine ((congrArg (k1_pay1 x0 x1 x2) hj).trans
    (Cert.PlainDot.matmul_zero_apply (M := 5000) (K := 128) (N := 128) none
      (truncf .bf16 (maximumf (addf (shapeCast S5000x128 x0 shapeCasts_S5000x128_S5000x128)
          (broadcastTo S5000x128 (shapeCast S1x128 x1 shapeCasts_S128_S1x128) broadcasts_S1x128_S5000x128))
        (broadcast S5000x128 (Scalar.ofBits (F := Ideal) .f32 0x00000000#32))) bitsLt_bf16_f32 : FVec Ideal S5000x128 .bf16)
      (truncf .bf16 x2 bitsLt_bf16_f32 : FVec Ideal S128x128 .bf16)
      ⟨(j 0).val, idx2_lt0 j⟩ ⟨(j 1).val, idx2_lt1 j⟩)).trans ?_
  refine Finset.sum_congr rfl fun k _ => ?_
  refine congrArg (· * x2 (ix2 k ⟨(j 1).val, idx2_lt1 j⟩)) ?_
  show max (shapeCast S5000x128 x0 shapeCasts_S5000x128_S5000x128 (ix2 ⟨(j 0).val, idx2_lt0 j⟩ k)
        + broadcastTo S5000x128 (shapeCast S1x128 x1 shapeCasts_S128_S1x128) broadcasts_S1x128_S5000x128 (ix2 ⟨(j 0).val, idx2_lt0 j⟩ k))
      (Ideal.ofBits .f32 0x00000000#32)
    = max (x0 (ix2 ⟨(j 0).val, idx2_lt0 j⟩ k) + x1 (ix1 k)) 0
  rw [shapeCast_self, broadcastTo_1b_ab_apply, shapeCast_a_1a_apply, Ideal.ofBits_zero_f32]

/-- What point t writes back is block t of the closed formula of the whole arrays: row r of the block is row
    5000·(block index) + r of the input, and the bias's and the weight's blocks are the whole bias and weight. -/
theorem flushed1_eq (c : Dev nD) (t : Fin cfg1.N) :
    (dat1 (F := Ideal) V c).flushed 3 t
      = ((cfg1.win 3).blk t).view.read (Elt Ideal)
          (Spec.mm (Spec.reluBias (V c (Pipeline.arrRef spec1 0)) (V c (Pipeline.arrRef spec1 1))) (V c (Pipeline.arrRef spec1 2))) := by
  show (cfg1.win 3).cut (grid1.coords t) ((dat1 V c).after 3 t) = _
  rw [after1_3]
  unfold out1_3
  rw [View.canon_unit_zero zero_offsets2]
  simp only [View.ld_unit_zero (S := S5000x128) zero_offsets2, View.ld_unit_zero (S := S128x128) zero_offsets2,
    View.ld_unit_zero (S := S128) zero_offsets1]
  obtain ⟨e0, e1, e2, e3, e4, e5, e6⟩ := idx_facts1 t
  funext j
  show k1_pay1 (iblk1 V c 0 t) (iblk1 V c 1 t) (iblk1 V c 2 t) j
    = Spec.mm (Spec.reluBias (V c (Pipeline.arrRef spec1 0)) (V c (Pipeline.arrRef spec1 1))) (V c (Pipeline.arrRef spec1 2))
        (((cfg1.win 3).blk t).view.emb j)
  refine (pay1_point _ _ _ j).trans ?_
  unfold Spec.mm
  refine Finset.sum_congr rfl fun k _ => ?_
  have h0 : iblk1 V c 0 t (ix2 ⟨(j 0).val, idx2_lt0 j⟩ k)
      = V c (Pipeline.arrRef spec1 0) (ix2 ⟨((((cfg1.win 3).blk t).view.emb j) 0).val, idx2_lt0 _⟩ k) := by
    show V c (Pipeline.arrRef spec1 0) (((cfg1.win 0).blk t).view.emb (ix2 ⟨(j 0).val, idx2_lt0 j⟩ k)) = _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : iblk1 V c 1 t (ix1 k) = V c (Pipeline.arrRef spec1 1) (ix1 k) := by
    show V c (Pipeline.arrRef spec1 1) (((cfg1.win 1).blk t).view.emb (ix1 k)) = _
    refine congrArg _ (funext fun a => Fin.ext ?_)
    match a with
    | ⟨0, _⟩ => show win1_1.index t (0 : Fin 1) * 128 + 1 * k.val = k.val; omega
  have h2 : iblk1 V c 2 t (ix2 k ⟨(j 1).val, idx2_lt1 j⟩)
      = V c (Pipeline.arrRef spec1 2) (ix2 k ⟨((((cfg1.win 3).blk t).view.emb j) 1).val, idx2_lt1 _⟩) := by
    show V c (Pipeline.arrRef spec1 2) (((cfg1.win 2).blk t).view.emb (ix2 k ⟨(j 1).val, idx2_lt1 j⟩)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [h0, h1, h2]
  rfl

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v32).slice (win1_3.rect t)).set ↔ _
  rw [View.set_slice_whole, Rect.mem_set_unit]
  exact Iff.rfl

/-- Every index of the output array is in the block of the point whose row block is (row / 5000). -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- REGION 1's output array after its last point: the input array with the bias added to every row and the
    positive part taken, multiplied into the weight — all as the region finds them. -/
theorem region1_array (c : Dev nD) :
    (dat1 (F := Ideal) V c).arrAt 3 cfg1.N
      = Spec.mm (Spec.reluBias (V c (Pipeline.arrRef spec1 0)) (V c (Pipeline.arrRef spec1 1))) (V c (Pipeline.arrRef spec1 2)) :=
  (dat1 V c).arrAt_eq_of_cover 3
    (Spec.mm (Spec.reluBias (V c (Pipeline.arrRef spec1 0)) (V c (Pipeline.arrRef spec1 1))) (V c (Pipeline.arrRef spec1 2)))
    (fun t _ => flushed1_eq V c t) cover1

/-! ## Region 2: max (x + b) 0 · w -/

/-- The index maps over the ten points: the input's row block moves with the output's, the bias's and the weight's
    blocks stay at the origin, the output's row block index is at most 9 and its column block index is 0. -/
theorem idx_facts2 : ∀ t : Fin cfg2.N, win2_0.index t (0 : Fin 2) = win2_3.index t (0 : Fin 2)
    ∧ win2_0.index t (1 : Fin 2) = 0
    ∧ win2_1.index t (0 : Fin 1) = 0
    ∧ win2_2.index t (0 : Fin 2) = 0
    ∧ win2_2.index t (1 : Fin 2) = 0
    ∧ win2_3.index t (0 : Fin 2) ≤ 9
    ∧ win2_3.index t (1 : Fin 2) = 0 :=
  (by decide +kernel : ∀ t : Fin grid2.N, _)

/-- Every one of the ten row blocks is some point's. -/
theorem idx_onto2 : ∀ (q0 : Fin 10), ∃ t : Fin cfg2.N, win2_3.index t = ![q0.val, 0] :=
  (by decide +kernel : ∀ (q0 : Fin 10), ∃ t : Fin grid2.N, win2_3.index t = ![q0.val, 0])

/-- The body's result at an element: the bias row is added to every row of the block, the positive part is taken, and
    the result is multiplied into the weight — the sum over the inner coordinate. -/
theorem pay2_point (x0 : Vec Ideal S5000x128 .f32) (x1 : Vec Ideal S128 .f32) (x2 : Vec Ideal S128x128 .f32) (j : S5000x128.Idx) :
    k2_pay1 x0 x1 x2 j
      = ∑ k : Fin 128, max (x0 (ix2 ⟨(j 0).val, idx2_lt0 j⟩ k) + x1 (ix1 k)) 0 * x2 (ix2 k ⟨(j 1).val, idx2_lt1 j⟩) := by
  have hj : j = ix2 ⟨(j 0).val, idx2_lt0 j⟩ ⟨(j 1).val, idx2_lt1 j⟩ := eq_ix2 j
  refine ((congrArg (k2_pay1 x0 x1 x2) hj).trans
    (Cert.PlainDot.matmul_zero_apply (M := 5000) (K := 128) (N := 128) none
      (truncf .bf16 (maximumf (addf (shapeCast S5000x128 x0 shapeCasts_S5000x128_S5000x128)
          (broadcastTo S5000x128 (shapeCast S1x128 x1 shapeCasts_S128_S1x128) broadcasts_S1x128_S5000x128))
        (broadcast S5000x128 (Scalar.ofBits (F := Ideal) .f32 0x00000000#32))) bitsLt_bf16_f32 : FVec Ideal S5000x128 .bf16)
      (truncf .bf16 x2 bitsLt_bf16_f32 : FVec Ideal S128x128 .bf16)
      ⟨(j 0).val, idx2_lt0 j⟩ ⟨(j 1).val, idx2_lt1 j⟩)).trans ?_
  refine Finset.sum_congr rfl fun k _ => ?_
  refine congrArg (· * x2 (ix2 k ⟨(j 1).val, idx2_lt1 j⟩)) ?_
  show max (shapeCast S5000x128 x0 shapeCasts_S5000x128_S5000x128 (ix2 ⟨(j 0).val, idx2_lt0 j⟩ k)
        + broadcastTo S5000x128 (shapeCast S1x128 x1 shapeCasts_S128_S1x128) broadcasts_S1x128_S5000x128 (ix2 ⟨(j 0).val, idx2_lt0 j⟩ k))
      (Ideal.ofBits .f32 0x00000000#32)
    = max (x0 (ix2 ⟨(j 0).val, idx2_lt0 j⟩ k) + x1 (ix1 k)) 0
  rw [shapeCast_self, broadcastTo_1b_ab_apply, shapeCast_a_1a_apply, Ideal.ofBits_zero_f32]

/-- What point t writes back is block t of the closed formula of the whole arrays: row r of the block is row
    5000·(block index) + r of the input, and the bias's and the weight's blocks are the whole bias and weight. -/
theorem flushed2_eq (c : Dev nD) (t : Fin cfg2.N) :
    (dat2 (F := Ideal) V c).flushed 3 t
      = ((cfg2.win 3).blk t).view.read (Elt Ideal)
          (Spec.mm (Spec.reluBias (V c (Pipeline.arrRef spec2 0)) (V c (Pipeline.arrRef spec2 1))) (V c (Pipeline.arrRef spec2 2))) := by
  show (cfg2.win 3).cut (grid2.coords t) ((dat2 V c).after 3 t) = _
  rw [after2_3]
  unfold out2_3
  rw [View.canon_unit_zero zero_offsets2]
  simp only [View.ld_unit_zero (S := S5000x128) zero_offsets2, View.ld_unit_zero (S := S128x128) zero_offsets2,
    View.ld_unit_zero (S := S128) zero_offsets1]
  obtain ⟨e0, e1, e2, e3, e4, e5, e6⟩ := idx_facts2 t
  funext j
  show k2_pay1 (iblk2 V c 0 t) (iblk2 V c 1 t) (iblk2 V c 2 t) j
    = Spec.mm (Spec.reluBias (V c (Pipeline.arrRef spec2 0)) (V c (Pipeline.arrRef spec2 1))) (V c (Pipeline.arrRef spec2 2))
        (((cfg2.win 3).blk t).view.emb j)
  refine (pay2_point _ _ _ j).trans ?_
  unfold Spec.mm
  refine Finset.sum_congr rfl fun k _ => ?_
  have h0 : iblk2 V c 0 t (ix2 ⟨(j 0).val, idx2_lt0 j⟩ k)
      = V c (Pipeline.arrRef spec2 0) (ix2 ⟨((((cfg2.win 3).blk t).view.emb j) 0).val, idx2_lt0 _⟩ k) := by
    show V c (Pipeline.arrRef spec2 0) (((cfg2.win 0).blk t).view.emb (ix2 ⟨(j 0).val, idx2_lt0 j⟩ k)) = _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : iblk2 V c 1 t (ix1 k) = V c (Pipeline.arrRef spec2 1) (ix1 k) := by
    show V c (Pipeline.arrRef spec2 1) (((cfg2.win 1).blk t).view.emb (ix1 k)) = _
    refine congrArg _ (funext fun a => Fin.ext ?_)
    match a with
    | ⟨0, _⟩ => show win2_1.index t (0 : Fin 1) * 128 + 1 * k.val = k.val; omega
  have h2 : iblk2 V c 2 t (ix2 k ⟨(j 1).val, idx2_lt1 j⟩)
      = V c (Pipeline.arrRef spec2 2) (ix2 k ⟨((((cfg2.win 3).blk t).view.emb j) 1).val, idx2_lt1 _⟩) := by
    show V c (Pipeline.arrRef spec2 2) (((cfg2.win 2).blk t).view.emb (ix2 k ⟨(j 1).val, idx2_lt1 j⟩)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega
  rw [h0, h1, h2]
  rfl

/-- An index of the output array is in point t's block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v49).slice (win2_3.rect t)).set ↔ _
  rw [View.set_slice_whole, Rect.mem_set_unit]
  exact Iff.rfl

/-- Every index of the output array is in the block of the point whose row block is (row / 5000). -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- REGION 2's output array after its last point: the input array with the bias added to every row and the
    positive part taken, multiplied into the weight — all as the region finds them. -/
theorem region2_array (c : Dev nD) :
    (dat2 (F := Ideal) V c).arrAt 3 cfg2.N
      = Spec.mm (Spec.reluBias (V c (Pipeline.arrRef spec2 0)) (V c (Pipeline.arrRef spec2 1))) (V c (Pipeline.arrRef spec2 2)) :=
  (dat2 V c).arrAt_eq_of_cover 3
    (Spec.mm (Spec.reluBias (V c (Pipeline.arrRef spec2 0)) (V c (Pipeline.arrRef spec2 1))) (V c (Pipeline.arrRef spec2 2)))
    (fun t _ => flushed2_eq V c t) cover2

end Cert.KernelIdeal.RegionValue

end
-- ==== Proof.RegionHead.lean ====
/-
  REGION 3 (the five-layer head) in closed form.

  The region has ONE grid point and every window is as large as its array, so each input block is the whole input array
  and the one block written back is the whole output array.  The body computes, from the eleven arrays
  f (64×128), w1 (128×1024), b1 (1024), w2 (1024×512), b2 (512), w3 (512×256), b3 (256), w4 (256×128), b4 (128),
  w5 (128×10), b5 (10):

      h1 = max (f·w1 + b1) 0,  h2 = max (h1·w2 + b2) 0,  h3 = max (h2·w3 + b3) 0,  h4 = max (h3·w4 + b4) 0,
      out = h4·w5 + b5,

  every product taken after narrowing both factors to bf16 and accumulated into zeros, every bias a row vector added to
  every row.  Over the extended reals a change of float format is the identity, a product accumulated into zeros at
  (r, c) is Σ_k a(r,k)·b(k,c), and the bias broadcast reads b(c) at (r, c); so each layer is `Spec.reluBias (Spec.mm · w) b`
  and the last `Spec.addBias (Spec.mm · w) b`, as functions.

  Order of the file: the layers as functions (`dense_eq`, `bias_row_apply`, `reluBias_eq`, `addBias_eq`); the body's two
  payload terms as compositions of layers (`pay2_eq`, `pay1_eq`); each input block is its array (`index_zero`, `block_0` …
  `block_10`); what the one point writes back (`flushed_eq`), its block covers the output array (`mem_block`), and the
  array after the region (`region3_array`); an input array is left as found (`region3_input0`).
-/
import proofs.«130910_j17454747091450_2_alg».proof.Proof.Gen.KernelIdeal.Frame
import proofs.«130910_j17454747091450_2_alg».proof.Proof.LibPlainDot
import proofs.«130910_j17454747091450_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

section Layers
variable {M K N : Nat}

/-- A product of two arrays, each narrowed to bf16 on the way in, accumulated into zeros: the matrix product. -/
theorem dense_eq (x : FVec Ideal ⟨2, ![M, K]⟩ .f32) (w : FVec Ideal ⟨2, ![K, N]⟩ .f32) (h : FTy.bits .bf16 < FTy.bits .f32) :
    matmul (DotDims.plain M K N) none (truncf .bf16 x h) (truncf .bf16 w h) (constant (F := Ideal) ⟨2, ![M, N]⟩ .f32 0x00000000#32)
      = Spec.mm x w :=
  Spec.ext2 fun r c => Cert.PlainDot.matmul_zero_apply none (truncf .bf16 x h) (truncf .bf16 w h) r c

/-- A row vector viewed as a one-row array and repeated over M rows reads, at (r, c), its entry c. -/
theorem bias_row_apply (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- Adding the repeated row and taking the maximum with the zero array: the bias then the positive part. -/
theorem reluBias_eq (a : FVec Ideal ⟨2, ![M, N]⟩ .f32) (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) :
    maximumf (addf a (broadcastTo ⟨2, ![M, N]⟩ (shapeCast ⟨2, ![1, N]⟩ b h1) h2)) (broadcast ⟨2, ![M, N]⟩ (Scalar.ofBits .f32 0x00000000#32))
      = Spec.reluBias a b :=
  Spec.ext2 fun r c => by
    show max (a (ix2 r c) + broadcastTo ⟨2, ![M, N]⟩ (shapeCast ⟨2, ![1, N]⟩ b h1) h2 (ix2 r c)) (Ideal.ofBits .f32 0x00000000#32) = max (a (ix2 r c) + b (ix1 c)) 0
    rw [bias_row_apply, Ideal.ofBits_zero_f32]

/-- Adding the repeated row: the bias. -/
theorem addBias_eq (a : FVec Ideal ⟨2, ![M, N]⟩ .f32) (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) :
    addf a (broadcastTo ⟨2, ![M, N]⟩ (shapeCast ⟨2, ![1, N]⟩ b h1) h2) = Spec.addBias a b :=
  Spec.ext2 fun r c => by
    show a (ix2 r c) + broadcastTo ⟨2, ![M, N]⟩ (shapeCast ⟨2, ![1, N]⟩ b h1) h2 (ix2 r c) = a (ix2 r c) + b (ix1 c)
    rw [bias_row_apply]

end Layers

/-- Each contraction record of the program is the plain one: contract the left array's axis 1 with the right array's axis 0. -/
theorem dot1_eq : dot_S64x128_S128x1024_S64x1024_1_0_0_1_n_n = DotDims.plain 64 128 1024 := rfl
theorem dot2_eq : dot_S64x1024_S1024x512_S64x512_1_0_0_1_n_n = DotDims.plain 64 1024 512 := rfl
theorem dot3_eq : dot_S64x512_S512x256_S64x256_1_0_0_1_n_n = DotDims.plain 64 512 256 := rfl
theorem dot4_eq : dot_S64x256_S256x128_S64x128_1_0_0_1_n_n = DotDims.plain 64 256 128 := rfl
theorem dot5_eq : dot_S64x128_S128x10_S64x10_1_0_0_1_n_n = DotDims.plain 64 128 10 := rfl

/-- Layers 1 to 3 and the product of layer 4, as functions of the arrays read. -/
theorem pay2_eq (v0 : Vec Ideal S64x128 .f32) (v3 : Vec Ideal S128x1024 .f32) (v6 : Vec Ideal S1024 .f32) (v13 : Vec Ideal S1024x512 .f32)
    (v16 : Vec Ideal S512 .f32) (v23 : Vec Ideal S512x256 .f32) (v26 : Vec Ideal S256 .f32) (v33 : Vec Ideal S256x128 .f32) :
    k3_pay2 v0 v3 v6 v13 v16 v23 v26 v33
      = Spec.mm (Spec.reluBias (Spec.mm (Spec.reluBias (Spec.mm (Spec.reluBias (Spec.mm v0 v3) v6) v13) v16) v23) v26) v33 := by
  unfold k3_pay2
  simp only [shapeCast_self, dot1_eq, dot2_eq, dot3_eq, dot4_eq, dense_eq, reluBias_eq]

/-- The bias and positive part of layer 4, then layer 5. -/
theorem pay1_eq (v35 : FVec Ideal S64x128 .f32) (v36 : Vec Ideal S128 .f32) (v43 : Vec Ideal S128x10 .f32) (v46 : Vec Ideal S10 .f32) :
    k3_pay1 v35 (k3_pay3 v36) v43 v46 = Spec.addBias (Spec.mm (Spec.reluBias v35 v36) v43) v46 := by
  unfold k3_pay1 k3_pay3
  simp only [dot5_eq, dense_eq, reluBias_eq]
  simp only [addBias_eq]

section Region
variable (V : (c : Dev nD) → (b : Ref sig .tc) → Buf (Elt Ideal) ((c : Thread nD τ).loc b)) (c : Dev nD)

/-- The zero offsets of a whole-array access, at rank 2 and at rank 1. -/
theorem zeros2 : (![0, 0] : Fin 2 → Nat) = fun _ => 0 := funext fun a => by fin_cases a <;> rfl
theorem zeros1 : (![0] : Fin 1 → Nat) = fun _ => 0 := funext fun a => by fin_cases a <;> rfl

/-- Every window's index map is constantly zero on the one-point grid (decided over the grid). -/
theorem index_zero : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 1) = 0
    ∧ win3_3.index t (0 : Fin 2) = 0
    ∧ win3_3.index t (1 : Fin 2) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 2) = 0
    ∧ win3_7.index t (1 : Fin 2) = 0
    ∧ win3_8.index t (0 : Fin 1) = 0
    ∧ win3_9.index t (0 : Fin 2) = 0
    ∧ win3_9.index t (1 : Fin 2) = 0
    ∧ win3_10.index t (0 : Fin 1) = 0
    ∧ win3_11.index t (0 : Fin 2) = 0
    ∧ win3_11.index t (1 : Fin 2) = 0 :=
  (by decide +kernel : ∀ t : Fin grid3.N, _)

/-- With one grid point and a window as large as its array, window 0's block is the array. -/
theorem block_0 (t : Fin cfg3.N) : (iblk3 V c 0 t : Vec Ideal S64x128 .f32) = (V c (Pipeline.arrRef spec3 0) : S64x128.Idx → EReal) := by
  funext j
  show (V c (Pipeline.arrRef spec3 0) : S64x128.Idx → EReal) (((cfg3.win 0).blk t).view.emb j) = (V c (Pipeline.arrRef spec3 0) : S64x128.Idx → EReal) j
  refine congrArg (V c (Pipeline.arrRef spec3 0) : S64x128.Idx → EReal) (funext fun a => Fin.ext ?_)
  match a with
  | ⟨0, _⟩ => show win3_0.index t (0 : Fin 2) * 64 + 1 * (j 0).val = (j 0).val; rw [(index_zero t).1]; omega
  | ⟨1, _⟩ => show win3_0.index t (1 : Fin 2) * 128 + 1 * (j 1).val = (j 1).val; rw [(index_zero t).2.1]; omega

/-- With one grid point and a window as large as its array, window 1's block is the array. -/
theorem block_1 (t : Fin cfg3.N) : (iblk3 V c 1 t : Vec Ideal S128x1024 .f32) = (V c (Pipeline.arrRef spec3 1) : S128x1024.Idx → EReal) := by
  funext j
  show (V c (Pipeline.arrRef spec3 1) : S128x1024.Idx → EReal) (((cfg3.win 1).blk t).view.emb j) = (V c (Pipeline.arrRef spec3 1) : S128x1024.Idx → EReal) j
  refine congrArg (V c (Pipeline.arrRef spec3 1) : S128x1024.Idx → EReal) (funext fun a => Fin.ext ?_)
  match a with
  | ⟨0, _⟩ => show win3_1.index t (0 : Fin 2) * 128 + 1 * (j 0).val = (j 0).val; rw [(index_zero t).2.2.1]; omega
  | ⟨1, _⟩ => show win3_1.index t (1 : Fin 2) * 1024 + 1 * (j 1).val = (j 1).val; rw [(index_zero t).2.2.2.1]; omega

/-- With one grid point and a window as large as its array, window 2's block is the array. -/
theorem block_2 (t : Fin cfg3.N) : (iblk3 V c 2 t : Vec Ideal S1024 .f32) = (V c (Pipeline.arrRef spec3 2) : S1024.Idx → EReal) := by
  funext j
  show (V c (Pipeline.arrRef spec3 2) : S1024.Idx → EReal) (((cfg3.win 2).blk t).view.emb j) = (V c (Pipeline.arrRef spec3 2) : S1024.Idx → EReal) j
  refine congrArg (V c (Pipeline.arrRef spec3 2) : S1024.Idx → EReal) (funext fun a => Fin.ext ?_)
  match a with
  | ⟨0, _⟩ => show win3_2.index t (0 : Fin 1) * 1024 + 1 * (j 0).val = (j 0).val; rw [(index_zero t).2.2.2.2.1]; omega

/-- With one grid point and a window as large as its array, window 3's block is the array. -/
theorem block_3 (t : Fin cfg3.N) : (iblk3 V c 3 t : Vec Ideal S1024x512 .f32) = (V c (Pipeline.arrRef spec3 3) : S1024x512.Idx → EReal) := by
  funext j
  show (V c (Pipeline.arrRef spec3 3) : S1024x512.Idx → EReal) (((cfg3.win 3).blk t).view.emb j) = (V c (Pipeline.arrRef spec3 3) : S1024x512.Idx → EReal) j
  refine congrArg (V c (Pipeline.arrRef spec3 3) : S1024x512.Idx → EReal) (funext fun a => Fin.ext ?_)
  match a with
  | ⟨0, _⟩ => show win3_3.index t (0 : Fin 2) * 1024 + 1 * (j 0).val = (j 0).val; rw [(index_zero t).2.2.2.2.2.1]; omega
  | ⟨1, _⟩ => show win3_3.index t (1 : Fin 2) * 512 + 1 * (j 1).val = (j 1).val; rw [(index_zero t).2.2.2.2.2.2.1]; omega

/-- With one grid point and a window as large as its array, window 4's block is the array. -/
theorem block_4 (t : Fin cfg3.N) : (iblk3 V c 4 t : Vec Ideal S512 .f32) = (V c (Pipeline.arrRef spec3 4) : S512.Idx → EReal) := by
  funext j
  show (V c (Pipeline.arrRef spec3 4) : S512.Idx → EReal) (((cfg3.win 4).blk t).view.emb j) = (V c (Pipeline.arrRef spec3 4) : S512.Idx → EReal) j
  refine congrArg (V c (Pipeline.arrRef spec3 4) : S512.Idx → EReal) (funext fun a => Fin.ext ?_)
  match a with
  | ⟨0, _⟩ => show win3_4.index t (0 : Fin 1) * 512 + 1 * (j 0).val = (j 0).val; rw [(index_zero t).2.2.2.2.2.2.2.1]; omega

/-- With one grid point and a window as large as its array, window 5's block is the array. -/
theorem block_5 (t : Fin cfg3.N) : (iblk3 V c 5 t : Vec Ideal S512x256 .f32) = (V c (Pipeline.arrRef spec3 5) : S512x256.Idx → EReal) := by
  funext j
  show (V c (Pipeline.arrRef spec3 5) : S512x256.Idx → EReal) (((cfg3.win 5).blk t).view.emb j) = (V c (Pipeline.arrRef spec3 5) : S512x256.Idx → EReal) j
  refine congrArg (V c (Pipeline.arrRef spec3 5) : S512x256.Idx → EReal) (funext fun a => Fin.ext ?_)
  match a with
  | ⟨0, _⟩ => show win3_5.index t (0 : Fin 2) * 512 + 1 * (j 0).val = (j 0).val; rw [(index_zero t).2.2.2.2.2.2.2.2.1]; omega
  | ⟨1, _⟩ => show win3_5.index t (1 : Fin 2) * 256 + 1 * (j 1).val = (j 1).val; rw [(index_zero t).2.2.2.2.2.2.2.2.2.1]; omega

/-- With one grid point and a window as large as its array, window 6's block is the array. -/
theorem block_6 (t : Fin cfg3.N) : (iblk3 V c 6 t : Vec Ideal S256 .f32) = (V c (Pipeline.arrRef spec3 6) : S256.Idx → EReal) := by
  funext j
  show (V c (Pipeline.arrRef spec3 6) : S256.Idx → EReal) (((cfg3.win 6).blk t).view.emb j) = (V c (Pipeline.arrRef spec3 6) : S256.Idx → EReal) j
  refine congrArg (V c (Pipeline.arrRef spec3 6) : S256.Idx → EReal) (funext fun a => Fin.ext ?_)
  match a with
  | ⟨0, _⟩ => show win3_6.index t (0 : Fin 1) * 256 + 1 * (j 0).val = (j 0).val; rw [(index_zero t).2.2.2.2.2.2.2.2.2.2.1]; omega

/-- With one grid point and a window as large as its array, window 7's block is the array. -/
theorem block_7 (t : Fin cfg3.N) : (iblk3 V c 7 t : Vec Ideal S256x128 .f32) = (V c (Pipeline.arrRef spec3 7) : S256x128.Idx → EReal) := by
  funext j
  show (V c (Pipeline.arrRef spec3 7) : S256x128.Idx → EReal) (((cfg3.win 7).blk t).view.emb j) = (V c (Pipeline.arrRef spec3 7) : S256x128.Idx → EReal) j
  refine congrArg (V c (Pipeline.arrRef spec3 7) : S256x128.Idx → EReal) (funext fun a => Fin.ext ?_)
  match a with
  | ⟨0, _⟩ => show win3_7.index t (0 : Fin 2) * 256 + 1 * (j 0).val = (j 0).val; rw [(index_zero t).2.2.2.2.2.2.2.2.2.2.2.1]; omega
  | ⟨1, _⟩ => show win3_7.index t (1 : Fin 2) * 128 + 1 * (j 1).val = (j 1).val; rw [(index_zero t).2.2.2.2.2.2.2.2.2.2.2.2.1]; omega

/-- With one grid point and a window as large as its array, window 8's block is the array. -/
theorem block_8 (t : Fin cfg3.N) : (iblk3 V c 8 t : Vec Ideal S128 .f32) = (V c (Pipeline.arrRef spec3 8) : S128.Idx → EReal) := by
  funext j
  show (V c (Pipeline.arrRef spec3 8) : S128.Idx → EReal) (((cfg3.win 8).blk t).view.emb j) = (V c (Pipeline.arrRef spec3 8) : S128.Idx → EReal) j
  refine congrArg (V c (Pipeline.arrRef spec3 8) : S128.Idx → EReal) (funext fun a => Fin.ext ?_)
  match a with
  | ⟨0, _⟩ => show win3_8.index t (0 : Fin 1) * 128 + 1 * (j 0).val = (j 0).val; rw [(index_zero t).2.2.2.2.2.2.2.2.2.2.2.2.2.1]; omega

/-- With one grid point and a window as large as its array, window 9's block is the array. -/
theorem block_9 (t : Fin cfg3.N) : (iblk3 V c 9 t : Vec Ideal S128x10 .f32) = (V c (Pipeline.arrRef spec3 9) : S128x10.Idx → EReal) := by
  funext j
  show (V c (Pipeline.arrRef spec3 9) : S128x10.Idx → EReal) (((cfg3.win 9).blk t).view.emb j) = (V c (Pipeline.arrRef spec3 9) : S128x10.Idx → EReal) j
  refine congrArg (V c (Pipeline.arrRef spec3 9) : S128x10.Idx → EReal) (funext fun a => Fin.ext ?_)
  match a with
  | ⟨0, _⟩ => show win3_9.index t (0 : Fin 2) * 128 + 1 * (j 0).val = (j 0).val; rw [(index_zero t).2.2.2.2.2.2.2.2.2.2.2.2.2.2.1]; omega
  | ⟨1, _⟩ => show win3_9.index t (1 : Fin 2) * 10 + 1 * (j 1).val = (j 1).val; rw [(index_zero t).2.2.2.2.2.2.2.2.2.2.2.2.2.2.2.1]; omega

/-- With one grid point and a window as large as its array, window 10's block is the array. -/
theorem block_10 (t : Fin cfg3.N) : (iblk3 V c 10 t : Vec Ideal S10 .f32) = (V c (Pipeline.arrRef spec3 10) : S10.Idx → EReal) := by
  funext j
  show (V c (Pipeline.arrRef spec3 10) : S10.Idx → EReal) (((cfg3.win 10).blk t).view.emb j) = (V c (Pipeline.arrRef spec3 10) : S10.Idx → EReal) j
  refine congrArg (V c (Pipeline.arrRef spec3 10) : S10.Idx → EReal) (funext fun a => Fin.ext ?_)
  match a with
  | ⟨0, _⟩ => show win3_10.index t (0 : Fin 1) * 10 + 1 * (j 0).val = (j 0).val; rw [(index_zero t).2.2.2.2.2.2.2.2.2.2.2.2.2.2.2.2.1]; omega

/-- The head's result: four layers "product, bias, positive part" and a last "product, bias", of the eleven arrays as the region finds them. -/
def result : S64x10.Idx → EReal :=
  Spec.addBias (Spec.mm (Spec.reluBias (Spec.mm (Spec.reluBias (Spec.mm (Spec.reluBias (Spec.mm (Spec.reluBias (Spec.mm (V c (Pipeline.arrRef spec3 0) : S64x128.Idx → EReal) (V c (Pipeline.arrRef spec3 1) : S128x1024.Idx → EReal)) (V c (Pipeline.arrRef spec3 2) : S1024.Idx → EReal)) (V c (Pipeline.arrRef spec3 3) : S1024x512.Idx → EReal)) (V c (Pipeline.arrRef spec3 4) : S512.Idx → EReal)) (V c (Pipeline.arrRef spec3 5) : S512x256.Idx → EReal)) (V c (Pipeline.arrRef spec3 6) : S256.Idx → EReal)) (V c (Pipeline.arrRef spec3 7) : S256x128.Idx → EReal)) (V c (Pipeline.arrRef spec3 8) : S128.Idx → EReal)) (V c (Pipeline.arrRef spec3 9) : S128x10.Idx → EReal)) (V c (Pipeline.arrRef spec3 10) : S10.Idx → EReal)

/-- The body's arithmetic on the whole arrays is the head's result. -/
theorem payload_eq :
    k3_pay1 (k3_pay2 (V c (Pipeline.arrRef spec3 0) : S64x128.Idx → EReal) (V c (Pipeline.arrRef spec3 1) : S128x1024.Idx → EReal) (V c (Pipeline.arrRef spec3 2) : S1024.Idx → EReal) (V c (Pipeline.arrRef spec3 3) : S1024x512.Idx → EReal) (V c (Pipeline.arrRef spec3 4) : S512.Idx → EReal) (V c (Pipeline.arrRef spec3 5) : S512x256.Idx → EReal) (V c (Pipeline.arrRef spec3 6) : S256.Idx → EReal) (V c (Pipeline.arrRef spec3 7) : S256x128.Idx → EReal)) (k3_pay3 (V c (Pipeline.arrRef spec3 8) : S128.Idx → EReal)) (V c (Pipeline.arrRef spec3 9) : S128x10.Idx → EReal) (V c (Pipeline.arrRef spec3 10) : S10.Idx → EReal) = result V c := by
  rw [pay2_eq, pay1_eq]; rfl

/-- What the one grid point writes back is the head's result, read through the output window's block. -/
theorem flushed_eq (t : Fin cfg3.N) :
    (dat3 (F := Ideal) V c).flushed 11 t = ((cfg3.win 11).blk t).view.read (Elt Ideal) (result V c) := by
  show (cfg3.win 11).cut (grid3.coords t) ((dat3 (F := Ideal) V c).after 11 t) = _
  rw [after3_11]
  unfold out3_11
  rw [View.canon_unit_zero zeros2]
  simp only [View.ld_unit_zero (S := S64x128) zeros2, View.ld_unit_zero (S := S128x1024) zeros2, View.ld_unit_zero (S := S1024) zeros1, View.ld_unit_zero (S := S1024x512) zeros2, View.ld_unit_zero (S := S512) zeros1, View.ld_unit_zero (S := S512x256) zeros2, View.ld_unit_zero (S := S256) zeros1, View.ld_unit_zero (S := S256x128) zeros2, View.ld_unit_zero (S := S128) zeros1, View.ld_unit_zero (S := S128x10) zeros2, View.ld_unit_zero (S := S10) zeros1]
  rw [block_0 V c t, block_1 V c t, block_2 V c t, block_3 V c t, block_4 V c t, block_5 V c t, block_6 V c t, block_7 V c t, block_8 V c t, block_9 V c t, block_10 V c t]
  rw [payload_eq]
  funext j
  show result V c ((cfg3.win 11).xinj (grid3.coords t) j) = result V c (((cfg3.win 11).blk t).view.emb j)
  refine congrArg (result V c) (funext fun a => Fin.ext ?_)
  match a with
  | ⟨0, _⟩ => show (j 0).val = win3_11.index t (0 : Fin 2) * 64 + 1 * (j 0).val; rw [(index_zero t).2.2.2.2.2.2.2.2.2.2.2.2.2.2.2.2.2.1]; omega
  | ⟨1, _⟩ => show (j 1).val = win3_11.index t (1 : Fin 2) * 10 + 1 * (j 1).val; rw [(index_zero t).2.2.2.2.2.2.2.2.2.2.2.2.2.2.2.2.2.2]; omega

/-- Every index of the output array is in the one point's block. -/
theorem mem_block (t : Fin cfg3.N) (i : S64x10.Idx) : i ∈ ((cfg3.win 11).blk t).view.set := by
  show i ∈ ((View.whole main_v84).slice (win3_11.rect t)).set
  rw [View.set_slice_whole, Rect.mem_set_unit]
  intro a
  have h0 : (i 0).val < 64 := (i 0).isLt
  have h1 : (i 1).val < 10 := (i 1).isLt
  match a with
  | ⟨0, _⟩ => show win3_11.index t (0 : Fin 2) * 64 ≤ (i 0).val ∧ (i 0).val < win3_11.index t (0 : Fin 2) * 64 + 64; rw [(index_zero t).2.2.2.2.2.2.2.2.2.2.2.2.2.2.2.2.2.1]; omega
  | ⟨1, _⟩ => show win3_11.index t (1 : Fin 2) * 10 ≤ (i 1).val ∧ (i 1).val < win3_11.index t (1 : Fin 2) * 10 + 10; rw [(index_zero t).2.2.2.2.2.2.2.2.2.2.2.2.2.2.2.2.2.2]; omega

/-- REGION 3's output array after the region: the five-layer head of the arrays the region finds. -/
theorem region3_array : (dat3 (F := Ideal) V c).arrAt 11 cfg3.N
    = Spec.addBias (Spec.mm (Spec.reluBias (Spec.mm (Spec.reluBias (Spec.mm (Spec.reluBias (Spec.mm (Spec.reluBias (Spec.mm (V c (Pipeline.arrRef spec3 0) : S64x128.Idx → EReal) (V c (Pipeline.arrRef spec3 1) : S128x1024.Idx → EReal)) (V c (Pipeline.arrRef spec3 2) : S1024.Idx → EReal)) (V c (Pipeline.arrRef spec3 3) : S1024x512.Idx → EReal)) (V c (Pipeline.arrRef spec3 4) : S512.Idx → EReal)) (V c (Pipeline.arrRef spec3 5) : S512x256.Idx → EReal)) (V c (Pipeline.arrRef spec3 6) : S256.Idx → EReal)) (V c (Pipeline.arrRef spec3 7) : S256x128.Idx → EReal)) (V c (Pipeline.arrRef spec3 8) : S128.Idx → EReal)) (V c (Pipeline.arrRef spec3 9) : S128x10.Idx → EReal)) (V c (Pipeline.arrRef spec3 10) : S10.Idx → EReal) :=
  (dat3 (F := Ideal) V c).arrAt_eq_of_cover 11 (result V c) (fun t _ => flushed_eq V c t) fun i => ⟨t3_0, flush3_11 t3_0, mem_block t3_0 i⟩

/-- An input window's array is never written: region 3 leaves its first operand as it found it. -/
theorem region3_input0 : (dat3 (F := Ideal) V c).arrAt 0 cfg3.N = V c (Pipeline.arrRef spec3 0) :=
  ((dat3 (F := Ideal) V c).arrAt_in 0 rfl _).trans (A_eq3 V c 0)

end Region

end Cert.KernelIdeal.RegionValue

end
-- ==== Proof.KKeep.lean ====
/-
  WHICH BUFFERS THE HOST STRETCHES AND THE LAUNCHES OF THE IDEALIZED KERNEL'S @main LEAVE ALONE.

  The generated frame module folds core c's buffer contents through @main's eleven segments from the launch memory m:
  W0 = m, W1 / W2 after the first two stretches of host operations, W3 at the first launch's exit, W4 after the next
  stretch, W5 at the second launch's exit, W6 after the next stretch, W7 at the third launch's exit, W8 / W9 / W10 after
  the last three stretches, W11 at the fourth launch's exit. Two facts move a buffer's contents across a segment
  unchanged: a stretch of host operations changes only the buffers its operations write, and a launch changes only its
  output windows' arrays (an input window's array, and every buffer that is no window array, leaves as it entered).

  • Three buffers are written once, by the first two stretches, and by nothing after: main_v3, main_v6, main_v14. At the
    first, second and third launch's exit (W3, W5, W7) each still holds what it held at the first launch's entry (W2).
  • Each argument array, where it is read, still holds the launch memory: main_arg0, main_arg3 at W2; main_arg4,
    main_arg5 at W4; main_arg6, main_arg7 at W6; main_arg2, main_arg8 at W7; main_arg9 … main_arg18 at W10 (these ten
    from the generated walk of the argument back from W11, less its first step); main_arg1 at W0.
-/
import proofs.«130910_j17454747091450_2_alg».proof.Proof.Gen.KernelIdeal.Frame

noncomputable section

namespace Cert.KernelIdeal.Keep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (c : Dev nD)

/-- A stretch of host operations leaves a buffer as it was when none of its operations writes that buffer: the list of
    operations is unfolded, each operation's written buffer read off, and the buffer at hand told apart from each. -/
macro "host_keeps " l:ident : tactic => `(tactic|
  exact StableHlo.after_of_forall_not_mem _ _ (List.forall_iff_forall_mem.mp (by
    simp only [$l:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Written once, before the first launch: main_v3, main_v6, main_v14 -/

/-- The first launch does not touch `main_v3` (it is none of its window arrays). -/
theorem W3_main_v3 : W3 m ρ c (Proc.devRef .tc main_v3) = W2 m ρ c (Proc.devRef .tc main_v3) :=
  W3_of_ne m ρ c main_v3 (by decide)
/-- Nor do the next stretch and the second launch. -/
theorem W5_main_v3 : W5 m ρ c (Proc.devRef .tc main_v3) = W2 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := by host_keeps hostOps1
    _ = W2 m ρ c (Proc.devRef .tc main_v3) := W3_main_v3 m ρ c
/-- Nor the stretch after it and the third launch. -/
theorem W7_main_v3 : W7 m ρ c (Proc.devRef .tc main_v3) = W2 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by host_keeps hostOps2
    _ = W2 m ρ c (Proc.devRef .tc main_v3) := W5_main_v3 m ρ c

/-- The first launch does not touch `main_v6` (it is none of its window arrays). -/
theorem W3_main_v6 : W3 m ρ c (Proc.devRef .tc main_v6) = W2 m ρ c (Proc.devRef .tc main_v6) :=
  W3_of_ne m ρ c main_v6 (by decide)
/-- Nor do the next stretch and the second launch. -/
theorem W5_main_v6 : W5 m ρ c (Proc.devRef .tc main_v6) = W2 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := by host_keeps hostOps1
    _ = W2 m ρ c (Proc.devRef .tc main_v6) := W3_main_v6 m ρ c
/-- Nor the stretch after it and the third launch. -/
theorem W7_main_v6 : W7 m ρ c (Proc.devRef .tc main_v6) = W2 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by host_keeps hostOps2
    _ = W2 m ρ c (Proc.devRef .tc main_v6) := W5_main_v6 m ρ c

/-- The first launch does not touch `main_v14` (it is none of its window arrays). -/
theorem W3_main_v14 : W3 m ρ c (Proc.devRef .tc main_v14) = W2 m ρ c (Proc.devRef .tc main_v14) :=
  W3_of_ne m ρ c main_v14 (by decide)
/-- Nor do the next stretch and the second launch. -/
theorem W5_main_v14 : W5 m ρ c (Proc.devRef .tc main_v14) = W2 m ρ c (Proc.devRef .tc main_v14) :=
  calc W5 m ρ c (Proc.devRef .tc main_v14)
    _ = W4 m ρ c (Proc.devRef .tc main_v14) := W5_of_ne m ρ c main_v14 (by decide)
    _ = W3 m ρ c (Proc.devRef .tc main_v14) := by host_keeps hostOps1
    _ = W2 m ρ c (Proc.devRef .tc main_v14) := W3_main_v14 m ρ c
/-- Nor the stretch after it and the third launch. -/
theorem W7_main_v14 : W7 m ρ c (Proc.devRef .tc main_v14) = W2 m ρ c (Proc.devRef .tc main_v14) :=
  calc W7 m ρ c (Proc.devRef .tc main_v14)
    _ = W6 m ρ c (Proc.devRef .tc main_v14) := W7_of_ne m ρ c main_v14 (by decide)
    _ = W5 m ρ c (Proc.devRef .tc main_v14) := by host_keeps hostOps2
    _ = W2 m ρ c (Proc.devRef .tc main_v14) := W5_main_v14 m ρ c

/-! ## The argument arrays hold the launch memory where they are read -/

/-- `main_arg1` at launch. -/
theorem W0_main_arg1 : W0 m ρ c (Proc.devRef .tc main_arg1) = m ((c : Thread nD τ).loc main_arg1) := rfl

/-- The first two stretches write no argument: `main_arg0` at the first launch's entry is as launched. -/
theorem W2_main_arg0 : W2 m ρ c (Proc.devRef .tc main_arg0) = m ((c : Thread nD τ).loc main_arg0) :=
  calc W2 m ρ c (Proc.devRef .tc main_arg0)
    _ = W1 m ρ c (Proc.devRef .tc main_arg0) := by host_keeps hostOps0_1
    _ = W0 m ρ c (Proc.devRef .tc main_arg0) := by host_keeps hostOps0
    _ = m ((c : Thread nD τ).loc main_arg0) := rfl

/-- The first two stretches write no argument: `main_arg3` at the first launch's entry is as launched. -/
theorem W2_main_arg3 : W2 m ρ c (Proc.devRef .tc main_arg3) = m ((c : Thread nD τ).loc main_arg3) :=
  calc W2 m ρ c (Proc.devRef .tc main_arg3)
    _ = W1 m ρ c (Proc.devRef .tc main_arg3) := by host_keeps hostOps0_1
    _ = W0 m ρ c (Proc.devRef .tc main_arg3) := by host_keeps hostOps0
    _ = m ((c : Thread nD τ).loc main_arg3) := rfl

/-- The first two stretches write no argument: `main_arg4` at the first launch's entry is as launched. -/
theorem W2_main_arg4 : W2 m ρ c (Proc.devRef .tc main_arg4) = m ((c : Thread nD τ).loc main_arg4) :=
  calc W2 m ρ c (Proc.devRef .tc main_arg4)
    _ = W1 m ρ c (Proc.devRef .tc main_arg4) := by host_keeps hostOps0_1
    _ = W0 m ρ c (Proc.devRef .tc main_arg4) := by host_keeps hostOps0
    _ = m ((c : Thread nD τ).loc main_arg4) := rfl

/-- `main_arg4` at the second launch's entry: the first launch (it is none of its window arrays) and the stretch after it
    leave it alone. -/
theorem W4_main_arg4 : W4 m ρ c (Proc.devRef .tc main_arg4) = m ((c : Thread nD τ).loc main_arg4) :=
  calc W4 m ρ c (Proc.devRef .tc main_arg4)
    _ = W3 m ρ c (Proc.devRef .tc main_arg4) := by host_keeps hostOps1
    _ = W2 m ρ c (Proc.devRef .tc main_arg4) := W3_of_ne m ρ c main_arg4 (by decide)
    _ = m ((c : Thread nD τ).loc main_arg4) := W2_main_arg4 m ρ c

/-- The first two stretches write no argument: `main_arg5` at the first launch's entry is as launched. -/
theorem W2_main_arg5 : W2 m ρ c (Proc.devRef .tc main_arg5) = m ((c : Thread nD τ).loc main_arg5) :=
  calc W2 m ρ c (Proc.devRef .tc main_arg5)
    _ = W1 m ρ c (Proc.devRef .tc main_arg5) := by host_keeps hostOps0_1
    _ = W0 m ρ c (Proc.devRef .tc main_arg5) := by host_keeps hostOps0
    _ = m ((c : Thread nD τ).loc main_arg5) := rfl

/-- `main_arg5` at the second launch's entry: the first launch (it is none of its window arrays) and the stretch after it
    leave it alone. -/
theorem W4_main_arg5 : W4 m ρ c (Proc.devRef .tc main_arg5) = m ((c : Thread nD τ).loc main_arg5) :=
  calc W4 m ρ c (Proc.devRef .tc main_arg5)
    _ = W3 m ρ c (Proc.devRef .tc main_arg5) := by host_keeps hostOps1
    _ = W2 m ρ c (Proc.devRef .tc main_arg5) := W3_of_ne m ρ c main_arg5 (by decide)
    _ = m ((c : Thread nD τ).loc main_arg5) := W2_main_arg5 m ρ c

/-- The first two stretches write no argument: `main_arg6` at the first launch's entry is as launched. -/
theorem W2_main_arg6 : W2 m ρ c (Proc.devRef .tc main_arg6) = m ((c : Thread nD τ).loc main_arg6) :=
  calc W2 m ρ c (Proc.devRef .tc main_arg6)
    _ = W1 m ρ c (Proc.devRef .tc main_arg6) := by host_keeps hostOps0_1
    _ = W0 m ρ c (Proc.devRef .tc main_arg6) := by host_keeps hostOps0
    _ = m ((c : Thread nD τ).loc main_arg6) := rfl

/-- `main_arg6` at the second launch's entry: the first launch (it is none of its window arrays) and the stretch after it
    leave it alone. -/
theorem W4_main_arg6 : W4 m ρ c (Proc.devRef .tc main_arg6) = m ((c : Thread nD τ).loc main_arg6) :=
  calc W4 m ρ c (Proc.devRef .tc main_arg6)
    _ = W3 m ρ c (Proc.devRef .tc main_arg6) := by host_keeps hostOps1
    _ = W2 m ρ c (Proc.devRef .tc main_arg6) := W3_of_ne m ρ c main_arg6 (by decide)
    _ = m ((c : Thread nD τ).loc main_arg6) := W2_main_arg6 m ρ c

/-- `main_arg6` at the third launch's entry: the second launch (it is none of its window arrays) and the stretch after it
    leave it alone. -/
theorem W6_main_arg6 : W6 m ρ c (Proc.devRef .tc main_arg6) = m ((c : Thread nD τ).loc main_arg6) :=
  calc W6 m ρ c (Proc.devRef .tc main_arg6)
    _ = W5 m ρ c (Proc.devRef .tc main_arg6) := by host_keeps hostOps2
    _ = W4 m ρ c (Proc.devRef .tc main_arg6) := W5_of_ne m ρ c main_arg6 (by decide)
    _ = m ((c : Thread nD τ).loc main_arg6) := W4_main_arg6 m ρ c

/-- The first two stretches write no argument: `main_arg7` at the first launch's entry is as launched. -/
theorem W2_main_arg7 : W2 m ρ c (Proc.devRef .tc main_arg7) = m ((c : Thread nD τ).loc main_arg7) :=
  calc W2 m ρ c (Proc.devRef .tc main_arg7)
    _ = W1 m ρ c (Proc.devRef .tc main_arg7) := by host_keeps hostOps0_1
    _ = W0 m ρ c (Proc.devRef .tc main_arg7) := by host_keeps hostOps0
    _ = m ((c : Thread nD τ).loc main_arg7) := rfl

/-- `main_arg7` at the second launch's entry: the first launch (it is none of its window arrays) and the stretch after it
    leave it alone. -/
theorem W4_main_arg7 : W4 m ρ c (Proc.devRef .tc main_arg7) = m ((c : Thread nD τ).loc main_arg7) :=
  calc W4 m ρ c (Proc.devRef .tc main_arg7)
    _ = W3 m ρ c (Proc.devRef .tc main_arg7) := by host_keeps hostOps1
    _ = W2 m ρ c (Proc.devRef .tc main_arg7) := W3_of_ne m ρ c main_arg7 (by decide)
    _ = m ((c : Thread nD τ).loc main_arg7) := W2_main_arg7 m ρ c

/-- `main_arg7` at the third launch's entry: the second launch (it is none of its window arrays) and the stretch after it
    leave it alone. -/
theorem W6_main_arg7 : W6 m ρ c (Proc.devRef .tc main_arg7) = m ((c : Thread nD τ).loc main_arg7) :=
  calc W6 m ρ c (Proc.devRef .tc main_arg7)
    _ = W5 m ρ c (Proc.devRef .tc main_arg7) := by host_keeps hostOps2
    _ = W4 m ρ c (Proc.devRef .tc main_arg7) := W5_of_ne m ρ c main_arg7 (by decide)
    _ = m ((c : Thread nD τ).loc main_arg7) := W4_main_arg7 m ρ c

/-- The first two stretches write no argument: `main_arg2` at the first launch's entry is as launched. -/
theorem W2_main_arg2 : W2 m ρ c (Proc.devRef .tc main_arg2) = m ((c : Thread nD τ).loc main_arg2) :=
  calc W2 m ρ c (Proc.devRef .tc main_arg2)
    _ = W1 m ρ c (Proc.devRef .tc main_arg2) := by host_keeps hostOps0_1
    _ = W0 m ρ c (Proc.devRef .tc main_arg2) := by host_keeps hostOps0
    _ = m ((c : Thread nD τ).loc main_arg2) := rfl

/-- `main_arg2` at the second launch's entry: the first launch (it is none of its window arrays) and the stretch after it
    leave it alone. -/
theorem W4_main_arg2 : W4 m ρ c (Proc.devRef .tc main_arg2) = m ((c : Thread nD τ).loc main_arg2) :=
  calc W4 m ρ c (Proc.devRef .tc main_arg2)
    _ = W3 m ρ c (Proc.devRef .tc main_arg2) := by host_keeps hostOps1
    _ = W2 m ρ c (Proc.devRef .tc main_arg2) := W3_of_ne m ρ c main_arg2 (by decide)
    _ = m ((c : Thread nD τ).loc main_arg2) := W2_main_arg2 m ρ c

/-- `main_arg2` at the third launch's entry: the second launch (it is none of its window arrays) and the stretch after it
    leave it alone. -/
theorem W6_main_arg2 : W6 m ρ c (Proc.devRef .tc main_arg2) = m ((c : Thread nD τ).loc main_arg2) :=
  calc W6 m ρ c (Proc.devRef .tc main_arg2)
    _ = W5 m ρ c (Proc.devRef .tc main_arg2) := by host_keeps hostOps2
    _ = W4 m ρ c (Proc.devRef .tc main_arg2) := W5_of_ne m ρ c main_arg2 (by decide)
    _ = m ((c : Thread nD τ).loc main_arg2) := W4_main_arg2 m ρ c

/-- `main_arg2` at the third launch's exit: it is none of that launch's window arrays. -/
theorem W7_main_arg2 : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = m ((c : Thread nD τ).loc main_arg2) := W6_main_arg2 m ρ c

/-- The first two stretches write no argument: `main_arg8` at the first launch's entry is as launched. -/
theorem W2_main_arg8 : W2 m ρ c (Proc.devRef .tc main_arg8) = m ((c : Thread nD τ).loc main_arg8) :=
  calc W2 m ρ c (Proc.devRef .tc main_arg8)
    _ = W1 m ρ c (Proc.devRef .tc main_arg8) := by host_keeps hostOps0_1
    _ = W0 m ρ c (Proc.devRef .tc main_arg8) := by host_keeps hostOps0
    _ = m ((c : Thread nD τ).loc main_arg8) := rfl

/-- `main_arg8` at the second launch's entry: the first launch (it is none of its window arrays) and the stretch after it
    leave it alone. -/
theorem W4_main_arg8 : W4 m ρ c (Proc.devRef .tc main_arg8) = m ((c : Thread nD τ).loc main_arg8) :=
  calc W4 m ρ c (Proc.devRef .tc main_arg8)
    _ = W3 m ρ c (Proc.devRef .tc main_arg8) := by host_keeps hostOps1
    _ = W2 m ρ c (Proc.devRef .tc main_arg8) := W3_of_ne m ρ c main_arg8 (by decide)
    _ = m ((c : Thread nD τ).loc main_arg8) := W2_main_arg8 m ρ c

/-- `main_arg8` at the third launch's entry: the second launch (it is none of its window arrays) and the stretch after it
    leave it alone. -/
theorem W6_main_arg8 : W6 m ρ c (Proc.devRef .tc main_arg8) = m ((c : Thread nD τ).loc main_arg8) :=
  calc W6 m ρ c (Proc.devRef .tc main_arg8)
    _ = W5 m ρ c (Proc.devRef .tc main_arg8) := by host_keeps hostOps2
    _ = W4 m ρ c (Proc.devRef .tc main_arg8) := W5_of_ne m ρ c main_arg8 (by decide)
    _ = m ((c : Thread nD τ).loc main_arg8) := W4_main_arg8 m ρ c

/-- `main_arg8` at the third launch's exit: it is none of that launch's window arrays. -/
theorem W7_main_arg8 : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = m ((c : Thread nD τ).loc main_arg8) := W6_main_arg8 m ρ c

/-! ### The fourth launch's input arrays at its entry

The generated walk of such an argument back from the fourth launch's exit begins with "an input window's array leaves the
launch as it entered"; taking that step off leaves the argument at the launch's entry. -/

/-- `main_arg9` (the fourth launch's input window 1) at that launch's entry is as launched. -/
theorem W10_main_arg9 : W10 m ρ c (Proc.devRef .tc main_arg9) = m ((c : Thread nD τ).loc main_arg9) :=
  ((W11_arr m ρ c 1).trans (((dat3 (V10 m ρ) c).arrAt_in 1 rfl _).trans (A_eq3 (V10 m ρ) c 1))).symm.trans
    (W11_main_arg9 m ρ c)

/-- `main_arg10` (the fourth launch's input window 2) at that launch's entry is as launched. -/
theorem W10_main_arg10 : W10 m ρ c (Proc.devRef .tc main_arg10) = m ((c : Thread nD τ).loc main_arg10) :=
  ((W11_arr m ρ c 2).trans (((dat3 (V10 m ρ) c).arrAt_in 2 rfl _).trans (A_eq3 (V10 m ρ) c 2))).symm.trans
    (W11_main_arg10 m ρ c)

/-- `main_arg11` (the fourth launch's input window 3) at that launch's entry is as launched. -/
theorem W10_main_arg11 : W10 m ρ c (Proc.devRef .tc main_arg11) = m ((c : Thread nD τ).loc main_arg11) :=
  ((W11_arr m ρ c 3).trans (((dat3 (V10 m ρ) c).arrAt_in 3 rfl _).trans (A_eq3 (V10 m ρ) c 3))).symm.trans
    (W11_main_arg11 m ρ c)

/-- `main_arg12` (the fourth launch's input window 4) at that launch's entry is as launched. -/
theorem W10_main_arg12 : W10 m ρ c (Proc.devRef .tc main_arg12) = m ((c : Thread nD τ).loc main_arg12) :=
  ((W11_arr m ρ c 4).trans (((dat3 (V10 m ρ) c).arrAt_in 4 rfl _).trans (A_eq3 (V10 m ρ) c 4))).symm.trans
    (W11_main_arg12 m ρ c)

/-- `main_arg13` (the fourth launch's input window 5) at that launch's entry is as launched. -/
theorem W10_main_arg13 : W10 m ρ c (Proc.devRef .tc main_arg13) = m ((c : Thread nD τ).loc main_arg13) :=
  ((W11_arr m ρ c 5).trans (((dat3 (V10 m ρ) c).arrAt_in 5 rfl _).trans (A_eq3 (V10 m ρ) c 5))).symm.trans
    (W11_main_arg13 m ρ c)

/-- `main_arg14` (the fourth launch's input window 6) at that launch's entry is as launched. -/
theorem W10_main_arg14 : W10 m ρ c (Proc.devRef .tc main_arg14) = m ((c : Thread nD τ).loc main_arg14) :=
  ((W11_arr m ρ c 6).trans (((dat3 (V10 m ρ) c).arrAt_in 6 rfl _).trans (A_eq3 (V10 m ρ) c 6))).symm.trans
    (W11_main_arg14 m ρ c)

/-- `main_arg15` (the fourth launch's input window 7) at that launch's entry is as launched. -/
theorem W10_main_arg15 : W10 m ρ c (Proc.devRef .tc main_arg15) = m ((c : Thread nD τ).loc main_arg15) :=
  ((W11_arr m ρ c 7).trans (((dat3 (V10 m ρ) c).arrAt_in 7 rfl _).trans (A_eq3 (V10 m ρ) c 7))).symm.trans
    (W11_main_arg15 m ρ c)

/-- `main_arg16` (the fourth launch's input window 8) at that launch's entry is as launched. -/
theorem W10_main_arg16 : W10 m ρ c (Proc.devRef .tc main_arg16) = m ((c : Thread nD τ).loc main_arg16) :=
  ((W11_arr m ρ c 8).trans (((dat3 (V10 m ρ) c).arrAt_in 8 rfl _).trans (A_eq3 (V10 m ρ) c 8))).symm.trans
    (W11_main_arg16 m ρ c)

/-- `main_arg17` (the fourth launch's input window 9) at that launch's entry is as launched. -/
theorem W10_main_arg17 : W10 m ρ c (Proc.devRef .tc main_arg17) = m ((c : Thread nD τ).loc main_arg17) :=
  ((W11_arr m ρ c 9).trans (((dat3 (V10 m ρ) c).arrAt_in 9 rfl _).trans (A_eq3 (V10 m ρ) c 9))).symm.trans
    (W11_main_arg17 m ρ c)

/-- `main_arg18` (the fourth launch's input window 10) at that launch's entry is as launched. -/
theorem W10_main_arg18 : W10 m ρ c (Proc.devRef .tc main_arg18) = m ((c : Thread nD τ).loc main_arg18) :=
  ((W11_arr m ρ c 10).trans (((dat3 (V10 m ρ) c).arrAt_in 10 rfl _).trans (A_eq3 (V10 m ρ) c 10))).symm.trans
    (W11_main_arg18 m ρ c)

end Cert.KernelIdeal.Keep

end
-- ==== Proof.KValue.lean ====
/-
  The idealized kernel's two results as functions of its arguments.

  The buffer contents at the eleven segment boundaries are folded from the launch memory.  Read in order: the edge list
  with self-loops and the node factor come from the edge-index argument and are never rewritten; each launch's output
  array is the matrix product its blocks compute (of the rectified, biased input for the second and third launch); each
  stretch between launches is one aggregation of that product; after the third launch comes the last aggregation and the
  mean pool; the fourth launch is the five-layer head of the pooled array, which it leaves in place.
-/
import proofs.«130910_j17454747091450_2_alg».proof.Proof.KRun
import proofs.«130910_j17454747091450_2_alg».proof.Proof.KStages
import proofs.«130910_j17454747091450_2_alg».proof.Proof.RegionsLinear
import proofs.«130910_j17454747091450_2_alg».proof.Proof.RegionHead
import proofs.«130910_j17454747091450_2_alg».proof.Proof.KKeep

set_option maxRecDepth 16384

noncomputable section

namespace Cert.KernelIdeal.HostValue

open Cert.KernelIdeal Cert.KernelIdeal.Gen Cert.KernelIdeal.Net Cert.Spec
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## The edge list and the node factor -/

theorem w2_v3 : W2 (F := Ideal) m ρ c (Proc.devRef .tc main_v3) = srcRawK (m ((c : Thread nD τ).loc main_arg1)) := Stages.head_v3 (W0 m ρ c)
theorem w2_v6 : W2 (F := Ideal) m ρ c (Proc.devRef .tc main_v6) = dstRawK (m ((c : Thread nD τ).loc main_arg1)) := Stages.head_v6 (W0 m ρ c)
theorem w2_v14 : W2 (F := Ideal) m ρ c (Proc.devRef .tc main_v14) = dinvK (m ((c : Thread nD τ).loc main_arg1)) := Stages.head_v14 (W0 m ρ c)

/-! ## The three layers -/

theorem w3_v15 : W3 (F := Ideal) m ρ c (Proc.devRef .tc main_v15) = mm (m ((c : Thread nD τ).loc main_arg0)) (m ((c : Thread nD τ).loc main_arg3)) := by
  refine (W3_arr m ρ c 2).trans ((RegionValue.region0_array (V2 m ρ) c).trans ?_)
  show mm (W2 (F := Ideal) m ρ c (Proc.devRef .tc main_arg0)) (W2 (F := Ideal) m ρ c (Proc.devRef .tc main_arg3)) = _
  rw [Keep.W2_main_arg0, Keep.W2_main_arg3]

theorem w4_v31 : W4 (F := Ideal) m ρ c (Proc.devRef .tc main_v31) = propK (dinvK (m ((c : Thread nD τ).loc main_arg1))) (srcRawK (m ((c : Thread nD τ).loc main_arg1))) (dstRawK (m ((c : Thread nD τ).loc main_arg1))) (mm (m ((c : Thread nD τ).loc main_arg0)) (m ((c : Thread nD τ).loc main_arg3))) := by
  refine (Stages.stage1 (W3 m ρ c)).trans ?_
  rw [Keep.W3_main_v14, Keep.W3_main_v3, Keep.W3_main_v6, w2_v14, w2_v3, w2_v6, w3_v15]

theorem w5_v32 : W5 (F := Ideal) m ρ c (Proc.devRef .tc main_v32) = mm (reluBias (propK (dinvK (m ((c : Thread nD τ).loc main_arg1))) (srcRawK (m ((c : Thread nD τ).loc main_arg1))) (dstRawK (m ((c : Thread nD τ).loc main_arg1))) (mm (m ((c : Thread nD τ).loc main_arg0)) (m ((c : Thread nD τ).loc main_arg3)))) (m ((c : Thread nD τ).loc main_arg4))) (m ((c : Thread nD τ).loc main_arg5)) := by
  refine (W5_arr m ρ c 3).trans ((RegionValue.region1_array (V4 m ρ) c).trans ?_)
  show mm (reluBias (W4 (F := Ideal) m ρ c (Proc.devRef .tc main_v31)) (W4 (F := Ideal) m ρ c (Proc.devRef .tc main_arg4))) (W4 (F := Ideal) m ρ c (Proc.devRef .tc main_arg5)) = _
  rw [w4_v31, Keep.W4_main_arg4, Keep.W4_main_arg5]

theorem w6_v48 : W6 (F := Ideal) m ρ c (Proc.devRef .tc main_v48) = propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (m ((c : Thread nD τ).loc main_arg0)) (m ((c : Thread nD τ).loc main_arg3)))) (m ((c : Thread nD τ).loc main_arg4))) (m ((c : Thread nD τ).loc main_arg5))) := by
  refine (Stages.stage2 (W5 m ρ c)).trans ?_
  rw [Keep.W5_main_v14, Keep.W5_main_v3, Keep.W5_main_v6, w2_v14, w2_v3, w2_v6, w5_v32]

theorem w7_v49 : W7 (F := Ideal) m ρ c (Proc.devRef .tc main_v49) = mm (reluBias (propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)) := by
  refine (W7_arr m ρ c 3).trans ((RegionValue.region2_array (V6 m ρ) c).trans ?_)
  show mm (reluBias (W6 (F := Ideal) m ρ c (Proc.devRef .tc main_v48)) (W6 (F := Ideal) m ρ c (Proc.devRef .tc main_arg6))) (W6 (F := Ideal) m ρ c (Proc.devRef .tc main_arg7)) = _
  rw [w6_v48, Keep.W6_main_arg6, Keep.W6_main_arg7]

/-! ## The pool and the head -/

theorem w10_v83 : W10 (F := Ideal) m ρ c (Proc.devRef .tc main_v83) = poolK (m ((c : Thread nD τ).loc main_arg2)) (m ((c : Thread nD τ).loc main_arg8)) (propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)))) := by
  refine (Stages.stage3 (W7 m ρ c)).trans ?_
  rw [Keep.W7_main_arg2, Keep.W7_main_arg8, Keep.W7_main_v14, Keep.W7_main_v3, Keep.W7_main_v6, w2_v14, w2_v3, w2_v6, w7_v49]

/-- The first result: the pooled array, which the last launch reads and leaves in place. -/
theorem kernel_f : W11 (F := Ideal) m ρ c (Proc.devRef .tc main_v83) = poolK (m ((c : Thread nD τ).loc main_arg2)) (m ((c : Thread nD τ).loc main_arg8)) (propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)))) :=
  ((W11_arr m ρ c 0).trans (RegionValue.region3_input0 (V10 m ρ) c)).trans (w10_v83 m ρ c)

/-- The second result: the five-layer head of the first. -/
theorem kernel_y : W11 (F := Ideal) m ρ c (Proc.devRef .tc main_v84) = addBias (mm (reluBias (mm (reluBias (mm (reluBias (mm (reluBias (mm (poolK (m ((c : Thread nD τ).loc main_arg2)) (m ((c : Thread nD τ).loc main_arg8)) (propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (reluBias (propK (dinvK (m ((c : Thread nD τ).loc main_arg1))) (srcRawK (m ((c : Thread nD τ).loc main_arg1))) (dstRawK (m ((c : Thread nD τ).loc main_arg1))) (mm (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7))))) (m ((c : Thread nD τ).loc main_arg9))) (m ((c : Thread nD τ).loc main_arg10))) (m ((c : Thread nD τ).loc main_arg11))) (m ((c : Thread nD τ).loc main_arg12))) (m ((c : Thread nD τ).loc main_arg13))) (m ((c : Thread nD τ).loc main_arg14))) (m ((c : Thread nD τ).loc main_arg15))) (m ((c : Thread nD τ).loc main_arg16))) (m ((c : Thread nD τ).loc main_arg17))) (m ((c : Thread nD τ).loc main_arg18)) := by
  refine (W11_arr m ρ c 11).trans ((RegionValue.region3_array (V10 m ρ) c).trans ?_)
  show addBias (mm (reluBias (mm (reluBias (mm (reluBias (mm (reluBias (mm (W10 (F := Ideal) m ρ c (Proc.devRef .tc main_v83)) (W10 (F := Ideal) m ρ c (Proc.devRef .tc main_arg9))) (W10 (F := Ideal) m ρ c (Proc.devRef .tc main_arg10))) (W10 (F := Ideal) m ρ c (Proc.devRef .tc main_arg11))) (W10 (F := Ideal) m ρ c (Proc.devRef .tc main_arg12))) (W10 (F := Ideal) m ρ c (Proc.devRef .tc main_arg13))) (W10 (F := Ideal) m ρ c (Proc.devRef .tc main_arg14))) (W10 (F := Ideal) m ρ c (Proc.devRef .tc main_arg15))) (W10 (F := Ideal) m ρ c (Proc.devRef .tc main_arg16))) (W10 (F := Ideal) m ρ c (Proc.devRef .tc main_arg17))) (W10 (F := Ideal) m ρ c (Proc.devRef .tc main_arg18)) = _
  rw [w10_v83, Keep.W10_main_arg9, Keep.W10_main_arg10, Keep.W10_main_arg11, Keep.W10_main_arg12, Keep.W10_main_arg13, Keep.W10_main_arg14,
    Keep.W10_main_arg15, Keep.W10_main_arg16, Keep.W10_main_arg17, Keep.W10_main_arg18]

end Cert.KernelIdeal.HostValue

end
-- ==== Proof.Bcast.lean ====
/-
  Broadcasts of small arrays read at an index.

  A row vector b : [N] broadcast to [1, N] and then to [M, N] reads b(c) at (r, c); a column vector v : [N] broadcast to
  [N, 1] and then to [N, C] reads v(r) at (r, c); a vector broadcast to a one-column array reads v(e) at (e, 0); a scalar
  broadcast to any shape reads the scalar everywhere.  An axis of extent one is read at 0, which is the only index it has.
-/
import Idealize.ShloMosaic.Lib.Pipeline.Value
import Idealize.ShloMosaic.Lib.ValueIdx

noncomputable section

namespace Cert.Bcast

open Idealize.ShloMosaic Idealize.ShloMosaic.ValueIdx

variable {α : Type} {M N C E : Nat}

/-- A coordinate below N is what the broadcast rule reads on an axis of extent N (0 when N = 1). -/
theorem coord_rule (c : Fin N) : c.val = if N = 1 then 0 else c.val := by
  by_cases h : N = 1
  · rw [if_pos h]; have := c.isLt; omega
  · rw [if_neg h]

/-- [N] → [1, N] → [M, N]: entry (r, c) is b(c). -/
theorem rows_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) (r : Fin M) (c : Fin N) :
    broadcastInDim ⟨2, ![M, N]⟩ ![0, 1] h2 (broadcastInDim ⟨2, ![1, N]⟩ ![1] h1 b) (ix2 r c) = b (ix1 c) := by
  rw [broadcastInDim_apply _ h2 _ (ix2 r c) (ix2 (⟨0, Nat.one_pos⟩ : Fin 1) c) (fun a => match a with
      | ⟨0, _⟩ => by show (0 : Nat) = if (1 : Nat) = 1 then 0 else r.val; rw [if_pos rfl]
      | ⟨1, _⟩ => coord_rule c),
    broadcastInDim_apply _ h1 b (ix2 (⟨0, Nat.one_pos⟩ : Fin 1) c) (ix1 c) (fun a => match a with
      | ⟨0, _⟩ => coord_rule c)]

/-- [N] → [N, 1] → [N, C]: entry (r, c) is v(r). -/
theorem cols_apply (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (v : (⟨1, ![N]⟩ : Shape).Idx → α) (r : Fin N) (c : Fin C) :
    broadcastInDim ⟨2, ![N, C]⟩ ![0, 1] h2 (broadcastInDim ⟨2, ![N, 1]⟩ ![0] h1 v) (ix2 r c) = v (ix1 r) := by
  rw [broadcastInDim_apply _ h2 _ (ix2 r c) (ix2 r (⟨0, Nat.one_pos⟩ : Fin 1)) (fun a => match a with
      | ⟨0, _⟩ => coord_rule r
      | ⟨1, _⟩ => by show (0 : Nat) = if (1 : Nat) = 1 then 0 else c.val; rw [if_pos rfl]),
    broadcastInDim_apply _ h1 v (ix2 r (⟨0, Nat.one_pos⟩ : Fin 1)) (ix1 r) (fun a => match a with
      | ⟨0, _⟩ => coord_rule r)]

/-- [E] → [E, 1]: entry (e, 0) is v(e). -/
theorem col_apply (h : (⟨1, ![E]⟩ : Shape).BroadcastsInDim ⟨2, ![E, 1]⟩ (![0] : Fin 1 → Fin 2))
    (v : (⟨1, ![E]⟩ : Shape).Idx → α) (e : Fin E) (z : Fin 1) :
    broadcastInDim ⟨2, ![E, 1]⟩ ![0] h v (ix2 e z) = v (ix1 e) :=
  broadcastInDim_apply _ h v (ix2 e z) (ix1 e) (fun a => match a with
    | ⟨0, _⟩ => coord_rule e)

/-- A scalar broadcast to any shape reads the scalar everywhere. -/
theorem scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply _ h x j ix0 (fun a => a.elim0)

end Cert.Bcast

end
-- ==== Proof.RefValue.lean ====
/-
  The reference's two results as functions of its arguments, in the shared vocabulary.

  The reference is three graph-convolution layers, a mean pool and a five-layer head.  One layer is: the dense product
  `mm h w`; every edge's message is the source row scaled by the edge's normalisation (the product of the two
  endpoint factors); messages are summed into their target rows (`propR`); the bias is added and, for the first two
  layers, the positive part taken.  The pool sums the rows of each graph and divides by the clamped row count (`poolR`).
  Each stage of the generated reading of the reference is identified with its vocabulary form, one at a time.
-/
import proofs.«130910_j17454747091450_2_alg».proof.Proof.ReadP
import proofs.«130910_j17454747091450_2_alg».proof.Proof.Spec
import proofs.«130910_j17454747091450_2_alg».proof.Proof.LibPlainDot
import proofs.«130910_j17454747091450_2_alg».proof.Proof.Bcast

set_option maxRecDepth 16384

noncomputable section

namespace Cert.RefValue

open Cert.ReferenceIdeal Cert.ReferenceIdeal.Facts₀ Cert.ReferenceIdeal.ReadP Idealize.ShloMosaic Idealize.ShloMosaic.ValueIdx Cert.Spec

/-! ## The host operations in the vocabulary -/

section Generic
variable {M K N : Nat}

/-- The host's plain dot_general is the matrix product. -/
theorem dot_eq_mm (a : FVec Ideal ⟨2, ![M, K]⟩ .f32) (b : FVec Ideal ⟨2, ![K, N]⟩ .f32) :
    Host.dotGeneral (DotDims.plain M K N) none a b = mm a b :=
  ext2 fun r c => (Cert.PlainDot.dotGeneral_apply none .single a b r c).trans (mm_apply a b r c).symm

/-- Adding a row vector broadcast over the rows, then the maximum with a zero array, is `reluBias`. -/
theorem reluBias_of_ops (h0 : (⟨0, ![]⟩ : Shape).BroadcastsInDim ⟨2, ![M, N]⟩ (![] : Fin 0 → Fin 2))
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (a : FVec Ideal ⟨2, ![M, N]⟩ .f32) (b : FVec Ideal ⟨1, ![N]⟩ .f32) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias a b := by
  refine ext2 fun r c => ?_
  rw [reluBias_apply]
  show max (a (ix2 r c) + broadcastInDim ⟨2, ![M, N]⟩ ![0, 1] h2 (broadcastInDim ⟨2, ![1, N]⟩ ![1] h1 b) (ix2 r c))
      (broadcastInDim ⟨2, ![M, N]⟩ ![] h0 (constant (F := Ideal) ⟨0, ![]⟩ .f32 0x00000000#32) (ix2 r c)) = _
  rw [Cert.Bcast.rows_apply, Cert.Bcast.scalar_apply]
  show max _ (Ideal.ofBits .f32 0x00000000#32) = _
  rw [Ideal.ofBits_zero_f32]

/-- Adding a row vector broadcast over the rows is `addBias`. -/
theorem addBias_of_ops (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (a : FVec Ideal ⟨2, ![M, N]⟩ .f32) (b : FVec Ideal ⟨1, ![N]⟩ .f32) :
    addf a (broadcastInDim ⟨2, ![M, N]⟩ ![0, 1] h2 (broadcastInDim ⟨2, ![1, N]⟩ ![1] h1 b)) = addBias a b := by
  refine ext2 fun r c => ?_
  rw [addBias_apply]
  show a (ix2 r c) + broadcastInDim ⟨2, ![M, N]⟩ ![0, 1] h2 (broadcastInDim ⟨2, ![1, N]⟩ ![1] h1 b) (ix2 r c) = _
  rw [Cert.Bcast.rows_apply]

end Generic

/-! ## The reference's aggregation and pool -/

/-- One aggregation of the reference: gather the source rows, scale each by its edge's normalisation, sum into the
    target rows. -/
def propR (x1 : (⟨S2x800000, .i32⟩ : BufTy).Contents (Elt Ideal)) (hw : FVec Ideal S50000x128 .f32) :
    FVec Ideal S50000x128 .f32 :=
  Host.scatterAdd (F := Ideal) scatter_S50000x128_S850000x1_S850000x128_1_0_0_1 (val_main_v41 (F := Ideal)) (val_main_v42 (F := Ideal) x1)
    (mulf (F := Ideal) (Host.gather gather_S50000x128_S850000x1_S850000x128_1_0_n_n_0_1_1128 hw (val_main_v36 (F := Ideal) x1)) (val_main_v39 (F := Ideal) x1))

/-- The reference's mean pool: the rows of each graph summed, divided by the clamped number of rows. -/
def poolR (x2 : (⟨S50000, .i32⟩ : BufTy).Contents (Elt Ideal)) (h : FVec Ideal S50000x128 .f32) :
    FVec Ideal S64x128 .f32 :=
  Host.divf (F := Ideal) (Host.scatterAdd (F := Ideal) scatter_S64x128_S50000x1_S50000x128_1_0_0_1 (val_main_v83 (F := Ideal)) (val_main_v84 (F := Ideal) x2) h) (val_main_v93 (F := Ideal) x2)

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1024, .f32⟩ : BufTy).Contents (Elt Ideal)) (x10 : (⟨S1024, .f32⟩ : BufTy).Contents (Elt Ideal)) (x11 : (⟨S1024x512, .f32⟩ : BufTy).Contents (Elt Ideal)) (x12 : (⟨S512, .f32⟩ : BufTy).Contents (Elt Ideal)) (x13 : (⟨S512x256, .f32⟩ : BufTy).Contents (Elt Ideal)) (x14 : (⟨S256, .f32⟩ : BufTy).Contents (Elt Ideal)) (x15 : (⟨S256x128, .f32⟩ : BufTy).Contents (Elt Ideal)) (x16 : (⟨S128, .f32⟩ : BufTy).Contents (Elt Ideal)) (x17 : (⟨S128x10, .f32⟩ : BufTy).Contents (Elt Ideal)) (x18 : (⟨S10, .f32⟩ : BufTy).Contents (Elt Ideal))

/-! ## The stages, one at a time -/

theorem v30_eq : val_main_v30 (F := Ideal) x0 x3 = mm x0 x3 := dot_eq_mm x0 x3
theorem v43_eq : val_main_v43 (F := Ideal) x0 x1 x3 = propR x1 (val_main_v30 (F := Ideal) x0 x3) := rfl
theorem v47_eq : val_main_v47 (F := Ideal) x0 x1 x3 x4 = reluBias (val_main_v43 (F := Ideal) x0 x1 x3) x4 :=
  reluBias_of_ops bcast_S_S50000x128 bcast_S128_S1x128_1 bcast_S1x128_S50000x128_0_1 (val_main_v43 (F := Ideal) x0 x1 x3) x4
theorem v48_eq : val_main_v48 (F := Ideal) x0 x1 x3 x4 x5 = mm (val_main_v47 (F := Ideal) x0 x1 x3 x4) x5 := dot_eq_mm _ x5
theorem v61_eq : val_main_v61 (F := Ideal) x0 x1 x3 x4 x5 = propR x1 (val_main_v48 (F := Ideal) x0 x1 x3 x4 x5) := rfl
theorem v65_eq : val_main_v65 (F := Ideal) x0 x1 x3 x4 x5 x6 = reluBias (val_main_v61 (F := Ideal) x0 x1 x3 x4 x5) x6 :=
  reluBias_of_ops bcast_S_S50000x128 bcast_S128_S1x128_1 bcast_S1x128_S50000x128_0_1 (val_main_v61 (F := Ideal) x0 x1 x3 x4 x5) x6
theorem v66_eq : val_main_v66 (F := Ideal) x0 x1 x3 x4 x5 x6 x7 = mm (val_main_v65 (F := Ideal) x0 x1 x3 x4 x5 x6) x7 := dot_eq_mm _ x7
theorem v79_eq : val_main_v79 (F := Ideal) x0 x1 x3 x4 x5 x6 x7 = propR x1 (val_main_v66 (F := Ideal) x0 x1 x3 x4 x5 x6 x7) := rfl
theorem v82_eq : val_main_v82 (F := Ideal) x0 x1 x3 x4 x5 x6 x7 x8 = addBias (val_main_v79 (F := Ideal) x0 x1 x3 x4 x5 x6 x7) x8 :=
  addBias_of_ops bcast_S128_S1x128_1 bcast_S1x128_S50000x128_0_1 (val_main_v79 (F := Ideal) x0 x1 x3 x4 x5 x6 x7) x8
theorem v94_eq : val_main_v94 (F := Ideal) x0 x1 x2 x3 x4 x5 x6 x7 x8 = poolR x2 (val_main_v82 (F := Ideal) x0 x1 x3 x4 x5 x6 x7 x8) := rfl

/-- The reference's first result: the pooled output of the three layers. -/
theorem ref_f : val_main_v94 (F := Ideal) x0 x1 x2 x3 x4 x5 x6 x7 x8
    = poolR x2 (addBias (propR x1 (mm (reluBias (propR x1 (mm (reluBias (propR x1 (mm x0 x3)) x4) x5)) x6) x7)) x8) := by
  rw [v94_eq, v82_eq, v79_eq, v66_eq, v65_eq, v61_eq, v48_eq, v47_eq, v43_eq, v30_eq]

theorem v99_eq : val_main_v99 (F := Ideal) x0 x1 x2 x3 x4 x5 x6 x7 x8 x9 x10 = reluBias (mm (val_main_v94 (F := Ideal) x0 x1 x2 x3 x4 x5 x6 x7 x8) x9) x10 :=
  (reluBias_of_ops bcast_S_S64x1024 bcast_S1024_S1x1024_1 bcast_S1x1024_S64x1024_0_1 (val_main_v95 (F := Ideal) x0 x1 x2 x3 x4 x5 x6 x7 x8 x9) x10).trans
    (congrArg (reluBias · x10) (dot_eq_mm _ x9))
theorem v104_eq : val_main_v104 (F := Ideal) x0 x1 x2 x3 x4 x5 x6 x7 x8 x9 x10 x11 x12 = reluBias (mm (val_main_v99 (F := Ideal) x0 x1 x2 x3 x4 x5 x6 x7 x8 x9 x10) x11) x12 :=
  (reluBias_of_ops bcast_S_S64x512 bcast_S512_S1x512_1 bcast_S1x512_S64x512_0_1 (val_main_v100 (F := Ideal) x0 x1 x2 x3 x4 x5 x6 x7 x8 x9 x10 x11) x12).trans
    (congrArg (reluBias · x12) (dot_eq_mm _ x11))
theorem v109_eq : val_main_v109 (F := Ideal) x0 x1 x2 x3 x4 x5 x6 x7 x8 x9 x10 x11 x12 x13 x14 = reluBias (mm (val_main_v104 (F := Ideal) x0 x1 x2 x3 x4 x5 x6 x7 x8 x9 x10 x11 x12) x13) x14 :=
  (reluBias_of_ops bcast_S_S64x256 bcast_S256_S1x256_1 bcast_S1x256_S64x256_0_1 (val_main_v105 (F := Ideal) x0 x1 x2 x3 x4 x5 x6 x7 x8 x9 x10 x11 x12 x13) x14).trans
    (congrArg (reluBias · x14) (dot_eq_mm _ x13))
theorem v114_eq : val_main_v114 (F := Ideal) x0 x1 x2 x3 x4 x5 x6 x7 x8 x9 x10 x11 x12 x13 x14 x15 x16 = reluBias (mm (val_main_v109 (F := Ideal) x0 x1 x2 x3 x4 x5 x6 x7 x8 x9 x10 x11 x12 x13 x14) x15) x16 :=
  (reluBias_of_ops bcast_S_S64x128 bcast_S128_S1x128_1 bcast_S1x128_S64x128_0_1 (val_main_v110 (F := Ideal) x0 x1 x2 x3 x4 x5 x6 x7 x8 x9 x10 x11 x12 x13 x14 x15) x16).trans
    (congrArg (reluBias · x16) (dot_eq_mm _ x15))
theorem v118_eq : val_main_v118 (F := Ideal) x0 x1 x2 x3 x4 x5 x6 x7 x8 x9 x10 x11 x12 x13 x14 x15 x16 x17 x18 = addBias (mm (val_main_v114 (F := Ideal) x0 x1 x2 x3 x4 x5 x6 x7 x8 x9 x10 x11 x12 x13 x14 x15 x16) x17) x18 :=
  (addBias_of_ops bcast_S10_S1x10_1 bcast_S1x10_S64x10_0_1 (val_main_v115 (F := Ideal) x0 x1 x2 x3 x4 x5 x6 x7 x8 x9 x10 x11 x12 x13 x14 x15 x16 x17) x18).trans
    (congrArg (addBias · x18) (dot_eq_mm _ x17))

/-- The reference's second result: the five-layer head applied to the first. -/
theorem ref_y : val_main_v118 (F := Ideal) x0 x1 x2 x3 x4 x5 x6 x7 x8 x9 x10 x11 x12 x13 x14 x15 x16 x17 x18
    = addBias (mm (reluBias (mm (reluBias (mm (reluBias (mm (reluBias (mm (val_main_v94 (F := Ideal) x0 x1 x2 x3 x4 x5 x6 x7 x8) x9) x10) x11) x12) x13) x14) x15) x16) x17) x18 := by
  rw [v118_eq, v114_eq, v109_eq, v104_eq, v99_eq]

end Cert.RefValue

end
-- ==== Proof.LibRowGatherScatter.lean ====
/-
  STABLEHLO'S GATHER AND SCATTER FOR "WHOLE ROWS BY AN INDEX COLUMN", READ AT AN INDEX. General lemmas, for all extents.

  An operand with N rows (a matrix [N, C], or a vector [N]) is addressed through an integer column idx : [E, 1], one row
  number per entry e < E.

  • The GATHER with collapsed_slice_dims [0], start_index_map [0], index_vector_dim 1 and a slice of one whole row
    (offset_dims [1], slice sizes [1, C] for a matrix; offset_dims [], slice sizes [1] for a vector) reads, at result
    element (e, c) (or e), the operand at row idx[e, 0] — the row number read as a SIGNED integer and CLAMPED into
    [0, N − 1], as StableHLO clamps every start index so that the slice fits — and column c:
    gather_rows2_apply, gather_rows1_apply.
  • The SCATTER with inserted_window_dims [0], scatter_dims_to_operand_dims [0], index_vector_dim 1 (update_window_dims
    [1] for a matrix, [] for a vector) sends update element (e, c) (or e) to operand element (idx[e, 0], c) (or idx[e, 0]),
    the row number read signed and NOT clamped: the update lands at (n, c') exactly when idx[e, 0] = n as integers and
    c = c', and is dropped when idx[e, 0] is no row number: scatterRows2_resultIdx?_eq_some_iff,
    scatterRows1_resultIdx?_eq_some_iff.
  • Hence, over the extended reals, the accumulating scatter (its body an addition) is, at element (n, c), the operand's
    element plus the sum of the updates upd[e, c] over the entries e whose row number idx[e, 0] is n:
    scatterAdd_rows2_apply, scatterAdd_rows1_apply.

  The dimension numbers are the records gatherRows2 / gatherRows1 / scatterRows2 / scatterRows1, their well-formedness
  conditions a hypothesis (they are decided on literal extents). Indices are built from coordinates with the library's
  ix1 / ix2.
-/
import Idealize.ShloMosaic.Lib.ValueIdx
import Idealize.ShloMosaic.PureOps.Ideal.Laws

noncomputable section

open scoped BigOperators

namespace Cert.RowTake

open Idealize.ShloMosaic Idealize.ShloMosaic.ValueIdx

/-! ## Sums over a rank-1 index set -/

section Index1

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Index1

/-! ## The scatter of whole rows into a matrix: where update `(e, c)` lands

Operand `[N, C]`, row numbers `idx : [E, 1]`, updates `[E, C]`; update_window_dims `[1]`, inserted_window_dims `[0]`,
scatter_dims_to_operand_dims `[0]`, index_vector_dim `1`. -/

section ScatterRows2
variable {N E C w : Nat}

/-- Those dimension numbers; their conditions `wf` are decided on literal extents. -/
abbrev scatterRows2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update `(e, c)` starts at the row number `idx[e, 0]`, read signed … -/
theorem scatterRows2_start_row (idx : IVec ⟨2, ![E, 1]⟩ w) (e : Fin E) (c : Fin C) :
    (scatterRows2 N E C wf).start (ix2 e c) idx 0 = (idx (ix2 e ⟨0, Nat.one_pos⟩)).toInt := by
  unfold ScatterDims.start
  rw [dif_pos (show (0 : Fin 2) ∈ (scatterRows2 N E C wf).scatterDimsToOperandDims from List.mem_singleton.mpr rfl)]
  have hsi : (scatterRows2 N E C wf).siIdx (ix2 e c) ⟨List.idxOf (0 : Fin 2) (scatterRows2 N E C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- … and on the column axis, which the map does not name, at `0`. -/
theorem scatterRows2_start_col (idx : IVec ⟨2, ![E, 1]⟩ w) (e : Fin E) (c : Fin C) :
    (scatterRows2 N E C wf).start (ix2 e c) idx 1 = 0 := rfl

/-- The window coordinate of update `(e, c)` is `0` on the row axis (an inserted axis) … -/
theorem scatterRows2_window_row (e : Fin E) (c : Fin C) :
    (scatterRows2 N E C wf).window (ix2 e c) 0 = 0 := rfl

/-- … and `c` on the column axis. -/
theorem scatterRows2_window_col (e : Fin E) (c : Fin C) :
    (scatterRows2 N E C wf).window (ix2 e c) 1 = c.val := rfl

/-- WHERE UPDATE `(e, c)` LANDS: at operand element `(n, c')` exactly when its row number `idx[e, 0]`, read signed, is
    `n`, and `c = c'`. (A row number outside `[0, N)` lands nowhere: the update is dropped.) -/
theorem scatterRows2_resultIdx?_eq_some_iff (idx : IVec ⟨2, ![E, 1]⟩ w) (e : Fin E) (c : Fin C) (n : Fin N) (c' : Fin C) :
    (scatterRows2 N E C wf).resultIdx? (ix2 e c) idx = some (ix2 n c')
      ↔ (idx (ix2 e ⟨0, Nat.one_pos⟩)).toInt = (n.val : Int) ∧ c = c' := by
  have s0 := scatterRows2_start_row wf idx e c
  have s1 := scatterRows2_start_col wf idx e c
  have w0 := scatterRows2_window_row wf e c
  have w1 := scatterRows2_window_col wf e c
  unfold ScatterDims.resultIdx?
  constructor
  · intro h
    split at h
    · rename_i hall
      have hfun := Option.some.inj h
      have h0 : ((scatterRows2 N E C wf).start (ix2 e c) idx 0 + ((scatterRows2 N E C wf).window (ix2 e c) 0 : Nat)).toNat = n.val :=
        congrArg Fin.val (congrFun hfun 0)
      have h1 : ((scatterRows2 N E C wf).start (ix2 e c) idx 1 + ((scatterRows2 N E C wf).window (ix2 e c) 1 : Nat)).toNat = c'.val :=
        congrArg Fin.val (congrFun hfun 1)
      have p0 := (hall 0).1
      rw [s0, w0] at h0 p0
      rw [s1, w1] at h1
      refine ⟨by omega, Fin.ext (by omega)⟩
    · exact absurd h (by simp)
  · rintro ⟨hi, rfl⟩
    have hall : ∀ a, 0 ≤ (scatterRows2 N E C wf).start (ix2 e c) idx a + ((scatterRows2 N E C wf).window (ix2 e c) a : Nat)
        ∧ (scatterRows2 N E C wf).start (ix2 e c) idx a + ((scatterRows2 N E C wf).window (ix2 e c) a : Nat)
          < ((⟨2, ![N, C]⟩ : Shape).size a : Nat) := by
      intro a
      match a with
      | ⟨0, _⟩ =>
        show 0 ≤ (scatterRows2 N E C wf).start (ix2 e c) idx 0 + ((scatterRows2 N E C wf).window (ix2 e c) 0 : Nat)
          ∧ (scatterRows2 N E C wf).start (ix2 e c) idx 0 + ((scatterRows2 N E C wf).window (ix2 e c) 0 : Nat) < (N : Int)
        rw [s0, w0, hi]; have := n.isLt; omega
      | ⟨1, _⟩ =>
        show 0 ≤ (scatterRows2 N E C wf).start (ix2 e c) idx 1 + ((scatterRows2 N E C wf).window (ix2 e c) 1 : Nat)
          ∧ (scatterRows2 N E C wf).start (ix2 e c) idx 1 + ((scatterRows2 N E C wf).window (ix2 e c) 1 : Nat) < (C : Int)
        rw [s1, w1]; have := c.isLt; omega
    rw [dif_pos hall]
    congr 1
    funext a
    refine Fin.ext ?_
    match a with
    | ⟨0, _⟩ =>
      show ((scatterRows2 N E C wf).start (ix2 e c) idx 0 + ((scatterRows2 N E C wf).window (ix2 e c) 0 : Nat)).toNat = n.val
      rw [s0, w0, hi]; omega
    | ⟨1, _⟩ =>
      show ((scatterRows2 N E C wf).start (ix2 e c) idx 1 + ((scatterRows2 N E C wf).window (ix2 e c) 1 : Nat)).toNat = c.val
      rw [s1, w1]; omega

end ScatterRows2

/-! ## The scatter of entries into a vector: where update `e` lands

Operand `[N]`, row numbers `idx : [E, 1]`, updates `[E]`; update_window_dims `[]`, inserted_window_dims `[0]`,
scatter_dims_to_operand_dims `[0]`, index_vector_dim `1`. -/

section ScatterRows1
variable {N E w : Nat}

/-- Those dimension numbers; their conditions `wf` are decided on literal extents. -/
abbrev scatterRows1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window of update `e` starts at the row number `idx[e, 0]`, read signed … -/
theorem scatterRows1_start (idx : IVec ⟨2, ![E, 1]⟩ w) (e : Fin E) :
    (scatterRows1 N E wf).start (ix1 e) idx 0 = (idx (ix2 e ⟨0, Nat.one_pos⟩)).toInt := by
  unfold ScatterDims.start
  rw [dif_pos (show (0 : Fin 1) ∈ (scatterRows1 N E wf).scatterDimsToOperandDims from List.mem_singleton.mpr rfl)]
  have hsi : (scatterRows1 N E wf).siIdx (ix1 e) ⟨List.idxOf (0 : Fin 1) (scatterRows1 N E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- … and its window coordinate is `0` (the one operand axis is an inserted axis). -/
theorem scatterRows1_window (e : Fin E) : (scatterRows1 N E wf).window (ix1 e) 0 = 0 := rfl

/-- WHERE UPDATE `e` LANDS: at operand element `n` exactly when its row number `idx[e, 0]`, read signed, is `n`. -/
theorem scatterRows1_resultIdx?_eq_some_iff (idx : IVec ⟨2, ![E, 1]⟩ w) (e : Fin E) (n : Fin N) :
    (scatterRows1 N E wf).resultIdx? (ix1 e) idx = some (ix1 n)
      ↔ (idx (ix2 e ⟨0, Nat.one_pos⟩)).toInt = (n.val : Int) := by
  have s0 := scatterRows1_start wf idx e
  have w0 := scatterRows1_window wf e
  unfold ScatterDims.resultIdx?
  constructor
  · intro h
    split at h
    · rename_i hall
      have hfun := Option.some.inj h
      have h0 : ((scatterRows1 N E wf).start (ix1 e) idx 0 + ((scatterRows1 N E wf).window (ix1 e) 0 : Nat)).toNat = n.val :=
        congrArg Fin.val (congrFun hfun 0)
      have p0 := (hall 0).1
      rw [s0, w0] at h0 p0
      omega
    · exact absurd h (by simp)
  · intro hi
    have hall : ∀ a, 0 ≤ (scatterRows1 N E wf).start (ix1 e) idx a + ((scatterRows1 N E wf).window (ix1 e) a : Nat)
        ∧ (scatterRows1 N E wf).start (ix1 e) idx a + ((scatterRows1 N E wf).window (ix1 e) a : Nat)
          < ((⟨1, ![N]⟩ : Shape).size a : Nat) := by
      intro a
      match a with
      | ⟨0, _⟩ =>
        show 0 ≤ (scatterRows1 N E wf).start (ix1 e) idx 0 + ((scatterRows1 N E wf).window (ix1 e) 0 : Nat)
          ∧ (scatterRows1 N E wf).start (ix1 e) idx 0 + ((scatterRows1 N E wf).window (ix1 e) 0 : Nat) < (N : Int)
        rw [s0, w0, hi]; have := n.isLt; omega
    rw [dif_pos hall]
    congr 1
    funext a
    refine Fin.ext ?_
    match a with
    | ⟨0, _⟩ =>
      show ((scatterRows1 N E wf).start (ix1 e) idx 0 + ((scatterRows1 N E wf).window (ix1 e) 0 : Nat)).toNat = n.val
      rw [s0, w0, hi]; omega

end ScatterRows1

/-! ## The accumulating scatter over the extended reals: a sum over the entries whose row number is the row

At the ideal instance `stablehlo.scatter` with an addition body is, at each operand element, that element plus the sum
of the updates landing there. With the landing index above, and the sum over `[E, C]` split by coordinates, that sum
runs over the entries `e` with `idx[e, 0] = n`. -/

section ScatterAdd
variable {N E C w : Nat} {φ : FTy}

/-- THE ROW SCATTER-ADD AT `(n, c)`: `x[n, c] + ∑ {e | idx[e, 0] = n} upd[e, c]`. -/
theorem scatterAdd_rows2_apply (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (scatterRows2 N E C wf) x idx upd (ix2 n c)
      = x (ix2 n c) + ∑ e ∈ Finset.univ.filter (fun e : Fin E => (idx (ix2 e ⟨0, Nat.one_pos⟩)).toInt = (n.val : Int)),
          upd (ix2 e c) := by
  show x (ix2 n c) + ∑ j ∈ Finset.univ.filter (fun j => (scatterRows2 N E C wf).resultIdx? j idx = some (ix2 n c)), upd j = _
  congr 1
  rw [Finset.sum_filter, sum_idx2, Finset.sum_filter]
  refine Finset.sum_congr rfl fun e _ => ?_
  simp only [scatterRows2_resultIdx?_eq_some_iff]
  by_cases h : (idx (ix2 e ⟨0, Nat.one_pos⟩)).toInt = (n.val : Int)
  · rw [if_pos h]
    simp only [h, true_and, Finset.sum_ite_eq', Finset.mem_univ, if_true]
  · rw [if_neg h]
    simp only [h, false_and, if_false, Finset.sum_const_zero]

/-- THE ENTRY SCATTER-ADD AT `n`: `x[n] + ∑ {e | idx[e, 0] = n} upd[e]`. -/
theorem scatterAdd_rows1_apply (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterRows1 N E wf) x idx upd (ix1 n)
      = x (ix1 n) + ∑ e ∈ Finset.univ.filter (fun e : Fin E => (idx (ix2 e ⟨0, Nat.one_pos⟩)).toInt = (n.val : Int)),
          upd (ix1 e) := by
  show x (ix1 n) + ∑ j ∈ Finset.univ.filter (fun j => (scatterRows1 N E wf).resultIdx? j idx = some (ix1 n)), upd j = _
  congr 1
  rw [Finset.sum_filter, sum_idx1, Finset.sum_filter]
  refine Finset.sum_congr rfl fun e _ => ?_
  simp only [scatterRows1_resultIdx?_eq_some_iff]

end ScatterAdd

/-! ## The gather of whole rows of a matrix, read at `(e, c)`

Operand `[N, C]`, row numbers `idx : [E, 1]`, result `[E, C]`; offset_dims `[1]`, collapsed_slice_dims `[0]`,
start_index_map `[0]`, index_vector_dim `1`, slice sizes `[1, C]`: what `x[idx[:, 0], :]` lowers to. -/

section GatherRows2
variable {α : Type} {N E C w : Nat}

/-- Those dimension numbers; their conditions `wf` are decided on literal extents. -/
abbrev gatherRows2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]` (the
    slice is one row, so the largest start that fits is `N − 1`), and column `c` (the slice is the whole row, so its
    start on the column axis is `0` and the offset coordinate is `c`). -/
theorem gather_rows2_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRows2 N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (gatherRows2 N E C wf).start (ix2 e c) idx 0 + (gatherRows2 N E C wf).batchCoord (ix2 e c) 0
      + (gatherRows2 N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N E C wf).startIndexMap from List.mem_singleton.mpr rfl)]
    have hsi : (gatherRows2 N E C wf).siIdx (ix2 e c) ⟨List.idxOf (0 : Fin 2) (gatherRows2 N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (gatherRows2 N E C wf).start (ix2 e c) idx 1 + (gatherRows2 N E C wf).batchCoord (ix2 e c) 1
      + (gatherRows2 N E C wf).offCoord (ix2 e c) 1 = c.val
    have hs : (gatherRows2 N E C wf).start (ix2 e c) idx 1 = 0 := rfl
    have hb : (gatherRows2 N E C wf).batchCoord (ix2 e c) 1 = 0 := rfl
    have ho : (gatherRows2 N E C wf).offCoord (ix2 e c) 1 = c.val := rfl
    rw [hs, hb, ho]; omega

end GatherRows2

/-! ## The gather of entries of a vector, read at `e`

Operand `[N]`, row numbers `idx : [E, 1]`, result `[E]`; offset_dims `[]`, collapsed_slice_dims `[0]`,
start_index_map `[0]`, index_vector_dim `1`, slice sizes `[1]`: what `x[idx[:, 0]]` lowers to. -/

section GatherRows1
variable {α : Type} {N E w : Nat}

/-- Those dimension numbers; their conditions `wf` are decided on literal extents. -/
abbrev gatherRows1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at `idx[e, 0]`, read signed and clamped into `[0, N − 1]`. -/
theorem gather_rows1_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherRows1 N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (gatherRows1 N E wf).start (ix1 e) idx 0 + (gatherRows1 N E wf).batchCoord (ix1 e) 0
    + (gatherRows1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherRows1 N E wf).startIndexMap from List.mem_singleton.mpr rfl)]
  have hsi : (gatherRows1 N E wf).siIdx (ix1 e) ⟨List.idxOf (0 : Fin 1) (gatherRows1 N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherRows1

end Cert.RowTake

end
-- ==== Proof.Laws.lean ====
/-
  The two laws of extended-real arithmetic that join the kernel's arrangement of a graph convolution to the reference's.

  The extended reals are not a ring: a factor distributes over a sum only under a side condition.  A factor that is
  nonnegative and not +∞ does distribute (Mathlib's `EReal.right_distrib_of_nonneg_of_ne_top`), and that is all the
  two laws need — nothing is asked of the summands themselves.

  * Normalising each message by the target node's factor, or the aggregated sum once: for a factor D ≥ 0, D ≠ +∞,
      (Σ_j a_j · σ_j) · D = Σ_j a_j · (σ_j · δ_j)   whenever δ_j = D on the summation set.
  * Adding a bias to every row before a mean, or once after it: over a set of n entries,
      (Σ_j (a_j + b)) / max n 1 = (Σ_j a_j) / max n 1 + (b if n > 0, else 0).
-/
import Mathlib.Data.EReal.Operations
import Mathlib.Data.EReal.Inv
import Idealize.ShloMosaic.PureOps.Ideal.Laws

noncomputable section

open scoped BigOperators

namespace Cert.Laws

open Idealize.ShloMosaic

variable {ι : Type}

/-- A nonnegative factor other than +∞ distributes over a finite sum of extended reals. -/
theorem sum_mul_of_nonneg_of_ne_top (s : Finset ι) (f : ι → EReal) {x : EReal} (hx : 0 ≤ x) (hx' : x ≠ ⊤) :
    (∑ j ∈ s, f j) * x = ∑ j ∈ s, f j * x := by
  classical
  induction s using Finset.induction_on with
  | empty => simp
  | insert a s ha ih =>
    rw [Finset.sum_insert ha, Finset.sum_insert ha, EReal.right_distrib_of_nonneg_of_ne_top hx hx', ih]

/-- Scaling the aggregate by the target's factor is scaling every message by it. -/
theorem scale_after_eq_scale_each (s : Finset ι) (a σ δ : ι → EReal) {D : EReal} (hD : 0 ≤ D) (hD' : D ≠ ⊤)
    (hδ : ∀ j ∈ s, δ j = D) :
    (0 + ∑ j ∈ s, a j * σ j) * D = 0 + ∑ j ∈ s, a j * (σ j * δ j) := by
  rw [zero_add, zero_add, sum_mul_of_nonneg_of_ne_top s _ hD hD']
  refine Finset.sum_congr rfl fun j hj => ?_
  rw [hδ j hj, mul_assoc]

/-- A sum of ones over a finite set is its number of elements. -/
theorem sum_one (s : Finset ι) : (0 : EReal) + ∑ _j ∈ s, (1 : EReal) = ((s.card : ℝ) : EReal) := by
  rw [zero_add, Finset.sum_const, EReal.nsmul_eq_mul, mul_one]
  norm_cast

/-- The mean of rows with a bias added is the mean of the rows plus the bias, when there is a row at all. -/
theorem mean_add_bias (s : Finset ι) (a : ι → EReal) (b : EReal) :
    Ideal.div (0 + ∑ j ∈ s, (a j + b)) (max ((s.card : ℝ) : EReal) 1)
      = Ideal.div (0 + ∑ j ∈ s, a j) (max ((s.card : ℝ) : EReal) 1) + (if (0 : EReal) < ((s.card : ℝ) : EReal) then b else 0) := by
  have hmax : max ((s.card : ℝ) : EReal) 1 = ((max (s.card : ℝ) 1 : ℝ) : EReal) := by
    rw [← EReal.coe_one]; exact (EReal.coe_strictMono.monotone.map_max).symm
  have hpos : (0 : ℝ) < max (s.card : ℝ) 1 := lt_of_lt_of_le one_pos (le_max_right _ _)
  rw [hmax, Ideal.div_coe hpos.ne', Ideal.div_coe hpos.ne', zero_add, zero_add, Finset.sum_add_distrib,
    Finset.sum_const, EReal.nsmul_eq_mul]
  have hr : (0 : EReal) ≤ ((1 / max (s.card : ℝ) 1 : ℝ) : EReal) := by
    exact_mod_cast (one_div_pos.mpr hpos).le
  rw [EReal.right_distrib_of_nonneg_of_ne_top hr (EReal.coe_ne_top _)]
  congr 1
  by_cases hn : s.card = 0
  · simp [hn]
  · have h1 : (1 : ℝ) ≤ (s.card : ℝ) := by exact_mod_cast Nat.one_le_iff_ne_zero.mpr hn
    have hlt : (0 : EReal) < ((s.card : ℝ) : EReal) := by exact_mod_cast lt_of_lt_of_le one_pos h1
    rw [if_pos hlt, max_eq_left h1]
    have hne : (s.card : ℝ) ≠ 0 := by positivity
    calc ((s.card : ℕ) : EReal) * b * ((1 / (s.card : ℝ) : ℝ) : EReal)
        = b * (((s.card : ℝ) : EReal) * ((1 / (s.card : ℝ) : ℝ) : EReal)) := by
          rw [mul_comm ((s.card : ℕ) : EReal) b, mul_assoc]; norm_cast
      _ = b := by rw [← EReal.coe_mul, mul_one_div_cancel hne, EReal.coe_one, mul_one]

end Cert.Laws

end
-- ==== Proof.PropLaw.lean ====
/-
  One aggregation step of a graph convolution, in two arrangements, gives the same array.

  Nodes 0 … N−1 carry rows hw(n, ·) and a factor dinv(n) that is a nonnegative real.  Entry e of the edge list has a
  source index and a target index.  Both arrangements sum, into row n, over the entries whose target index is n:

    * the kernel's: the rows are scaled by dinv first, the scaled source rows are summed, and the sum is scaled by dinv(n):
          ( Σ_e hw(src e, c) · dinv(src e) ) · dinv(n);
    * the reference's: each source row is scaled by the entry's own normalisation dinv(src e) · dinv(dst e) and then summed:
          Σ_e hw(src e, c) · ( dinv(src e) · dinv(dst e) ).

  For an entry in the sum the target index is n, so the entry's second factor is dinv(n); a nonnegative real factor
  distributes over a sum of extended reals whatever the summands.  Source and target rows are read with the index
  clamped into range; an entry whose target index lies outside 0 … N−1 is in no row's sum.
-/
import proofs.«130910_j17454747091450_2_alg».proof.Proof.LibRowGatherScatter
import proofs.«130910_j17454747091450_2_alg».proof.Proof.Laws
import proofs.«130910_j17454747091450_2_alg».proof.Proof.Bcast

noncomputable section

open scoped BigOperators

namespace Cert.PropLaw

open Idealize.ShloMosaic Idealize.ShloMosaic.ValueIdx Cert.RowTake

variable {N E C : Nat}

/-- The two arrangements of one aggregation step agree, entry by entry. -/
theorem scale_rows_eq_scale_edges (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (b0 : (⟨0, ![]⟩ : Shape).BroadcastsInDim ⟨2, ![N, C]⟩ (![] : Fin 0 → Fin 2))
    (bN1 : (⟨1, ![N]⟩ : Shape).BroadcastsInDim ⟨2, ![N, 1]⟩ (![0] : Fin 1 → Fin 2))
    (bN2 : (⟨2, ![N, 1]⟩ : Shape).BroadcastsInDim ⟨2, ![N, C]⟩ (![0, 1] : Fin 2 → Fin 2))
    (bE1 : (⟨1, ![E]⟩ : Shape).BroadcastsInDim ⟨2, ![E, 1]⟩ (![0] : Fin 1 → Fin 2))
    (bE2 : (⟨2, ![E, 1]⟩ : Shape).BroadcastsInDim ⟨2, ![E, C]⟩ (![0, 1] : Fin 2 → Fin 2))
    (hw : FVec Ideal ⟨2, ![N, C]⟩ .f32) (dinv : FVec Ideal ⟨1, ![N]⟩ .f32)
    (srcI dstI dstN : IVec ⟨2, ![E, 1]⟩ 32)
    (hdinv : ∀ n : Fin N, ∃ r : ℝ, 0 ≤ r ∧ dinv (ix1 n) = (r : EReal))
    (hdst : ∀ (e : Fin E) (n : Fin N), (dstI (ix2 e ⟨0, Nat.one_pos⟩)).toInt = (n.val : Int) →
      min (dstN (ix2 e ⟨0, Nat.one_pos⟩)).toInt.toNat (N - 1) = n.val) :
    mulf (Host.scatterAdd (F := Ideal) (scatterRows2 N E C wfS)
          (broadcastInDim ⟨2, ![N, C]⟩ ![] b0 (constant (F := Ideal) ⟨0, ![]⟩ .f32 0x00000000#32)) dstI
          (Host.gather (gatherRows2 N E C wfG)
            (mulf hw (broadcastInDim ⟨2, ![N, C]⟩ ![0, 1] bN2 (broadcastInDim ⟨2, ![N, 1]⟩ ![0] bN1 dinv))) srcI))
        (broadcastInDim ⟨2, ![N, C]⟩ ![0, 1] bN2 (broadcastInDim ⟨2, ![N, 1]⟩ ![0] bN1 dinv))
      = Host.scatterAdd (F := Ideal) (scatterRows2 N E C wfS)
          (broadcastInDim ⟨2, ![N, C]⟩ ![] b0 (constant (F := Ideal) ⟨0, ![]⟩ .f32 0x00000000#32)) dstI
          (mulf (Host.gather (gatherRows2 N E C wfG) hw srcI)
            (broadcastInDim ⟨2, ![E, C]⟩ ![0, 1] bE2 (broadcastInDim ⟨2, ![E, 1]⟩ ![0] bE1
              (mulf (Host.gather (gatherRows1 N E wfG1) dinv srcI) (Host.gather (gatherRows1 N E wfG1) dinv dstN))))) := by
  funext i
  obtain ⟨n, c, rfl⟩ : ∃ (n : Fin N) (c : Fin C), i = ix2 n c := ⟨⟨(i 0).val, idx2_lt0 i⟩, ⟨(i 1).val, idx2_lt1 i⟩, eq_ix2 i⟩
  obtain ⟨r, hr0, hr⟩ := hdinv n
  -- the left side at (n, c)
  show Host.scatterAdd (F := Ideal) (scatterRows2 N E C wfS) _ dstI _ (ix2 n c)
      * broadcastInDim ⟨2, ![N, C]⟩ ![0, 1] bN2 (broadcastInDim ⟨2, ![N, 1]⟩ ![0] bN1 dinv) (ix2 n c) = _
  rw [scatterAdd_rows2_apply wfS, scatterAdd_rows2_apply wfS, Cert.Bcast.cols_apply, Cert.Bcast.scalar_apply]
  show (Ideal.ofBits .f32 0x00000000#32 + _) * _ = Ideal.ofBits .f32 0x00000000#32 + _
  rw [Ideal.ofBits_zero_f32, hr]
  have hL : ∀ e : Fin E, Host.gather (gatherRows2 N E C wfG)
        (mulf hw (broadcastInDim ⟨2, ![N, C]⟩ ![0, 1] bN2 (broadcastInDim ⟨2, ![N, 1]⟩ ![0] bN1 dinv))) srcI (ix2 e c)
      = hw (ix2 ⟨min (srcI (ix2 e ⟨0, Nat.one_pos⟩)).toInt.toNat (N - 1), by omega⟩ c)
        * dinv (ix1 ⟨min (srcI (ix2 e ⟨0, Nat.one_pos⟩)).toInt.toNat (N - 1), by omega⟩) := fun e => by
    rw [gather_rows2_apply hN wfG]
    show hw _ * broadcastInDim ⟨2, ![N, C]⟩ ![0, 1] bN2 (broadcastInDim ⟨2, ![N, 1]⟩ ![0] bN1 dinv) _ = _
    rw [Cert.Bcast.cols_apply]
  have hR : ∀ e : Fin E, mulf (Host.gather (gatherRows2 N E C wfG) hw srcI)
        (broadcastInDim ⟨2, ![E, C]⟩ ![0, 1] bE2 (broadcastInDim ⟨2, ![E, 1]⟩ ![0] bE1
          (mulf (Host.gather (gatherRows1 N E wfG1) dinv srcI) (Host.gather (gatherRows1 N E wfG1) dinv dstN)))) (ix2 e c)
      = hw (ix2 ⟨min (srcI (ix2 e ⟨0, Nat.one_pos⟩)).toInt.toNat (N - 1), by omega⟩ c)
        * (dinv (ix1 ⟨min (srcI (ix2 e ⟨0, Nat.one_pos⟩)).toInt.toNat (N - 1), by omega⟩)
          * dinv (ix1 ⟨min (dstN (ix2 e ⟨0, Nat.one_pos⟩)).toInt.toNat (N - 1), by omega⟩)) := fun e => by
    show Host.gather (gatherRows2 N E C wfG) hw srcI (ix2 e c)
      * broadcastInDim ⟨2, ![E, C]⟩ ![0, 1] bE2 (broadcastInDim ⟨2, ![E, 1]⟩ ![0] bE1
          (mulf (Host.gather (gatherRows1 N E wfG1) dinv srcI) (Host.gather (gatherRows1 N E wfG1) dinv dstN))) (ix2 e c) = _
    rw [gather_rows2_apply hN wfG, Cert.Bcast.cols_apply]
    show _ * (Host.gather (gatherRows1 N E wfG1) dinv srcI (ix1 e) * Host.gather (gatherRows1 N E wfG1) dinv dstN (ix1 e)) = _
    rw [gather_rows1_apply hN wfG1, gather_rows1_apply hN wfG1]
  rw [Finset.sum_congr rfl (fun e _ => hL e), Finset.sum_congr rfl (fun e _ => hR e)]
  refine Cert.Laws.scale_after_eq_scale_each _ _ _ _ (by exact_mod_cast hr0) (EReal.coe_ne_top r) (fun e he => ?_)
  have hn := hdst e n (Finset.mem_filter.mp he).2
  rw [show (⟨min (dstN (ix2 e ⟨0, Nat.one_pos⟩)).toInt.toNat (N - 1), by omega⟩ : Fin N) = n from Fin.ext hn]
  exact hr

end Cert.PropLaw

end
-- ==== Proof.DegreeFactor.lean ====
/-
  The node factor of a symmetric-normalised graph convolution, and the index normalisation in front of a gather.
  General statements, for every number N of nodes and E of edge entries.

  (A) The degree of node n is computed by scattering a one for every entry into an array of zeros, at the entry's
      target index: deg(n) = 0 + Σ_{e : idx(e) = n} 1 = k(n), the number of entries whose index is n — a natural number.
      The node factor is  deg(n)^(-1/2) where deg(n) > 0, and 0 elsewhere.  Where k(n) > 0 it is the real number
      (√k(n))⁻¹ > 0; where k(n) = 0 it is 0.  So the factor is a nonnegative real at every node: never ±∞.
      (The words 0x00000000 and 0x3F800000 are the floats 0 and 1.)

  (B) An index is normalised before a gather by adding the extent to it where it is negative.  An entry whose index,
      read as a signed integer, is a row number n ≥ 0 is not negative, so normalisation leaves it, and clamping it
      into [0, N − 1] leaves n < N as well.
-/
import Idealize.ShloMosaic.Lib.ValueIdx
import Idealize.ShloMosaic.PureOps.Ideal.Laws
import proofs.«130910_j17454747091450_2_alg».proof.Proof.LibRowGatherScatter
import proofs.«130910_j17454747091450_2_alg».proof.Proof.Bcast
import proofs.«130910_j17454747091450_2_alg».proof.Proof.Laws

noncomputable section

open scoped BigOperators

namespace Cert.DegreeFactor

open Idealize.ShloMosaic Idealize.ShloMosaic.ValueIdx Cert.RowTake

/-! ## The two float words -/

/-- The word 0x3F800000 is the float 1. -/
theorem ofBits_one_f32 : Ideal.ofBits .f32 0x3F800000#32 = 1 := by
  simp [Ideal.ofBits, Ideal.ieee, -EReal.coe_mul]; norm_num

/-! ## The factor of a node with k incident entries -/

/-- "(√x)⁻¹ where x > 0, else 0" at a natural number k is a nonnegative real: (√k)⁻¹ for k > 0, and 0 for k = 0. -/
theorem select_rsqrt_nat (k : Nat) :
    ∃ r : ℝ, 0 ≤ r ∧ Scalar.select (Ideal.cmp .ogt (((k : ℝ)) : EReal) 0) (Ideal.rsqrt (((k : ℝ)) : EReal)) (0 : EReal) = (r : EReal) := by
  by_cases hk : k = 0
  · subst hk
    refine ⟨0, le_refl _, ?_⟩
    have hc : Ideal.cmp .ogt ((((0 : Nat) : ℝ)) : EReal) 0 = 0#1 := by
      show BitVec.ofBool (decide ((0 : EReal) < ((((0 : Nat) : ℝ)) : EReal))) = 0#1
      rw [decide_eq_false (by simp)]; rfl
    rw [hc]
    show (if (0#1 : BitVec 1) = 1 then _ else (0 : EReal)) = ((0 : ℝ) : EReal)
    rw [if_neg (by decide)]; rfl
  · have hpos : (0 : ℝ) < (k : ℝ) := by exact_mod_cast Nat.pos_of_ne_zero hk
    refine ⟨(Real.sqrt (k : ℝ))⁻¹, inv_nonneg.mpr (Real.sqrt_nonneg _), ?_⟩
    have hc : Ideal.cmp .ogt (((k : ℝ)) : EReal) 0 = 1#1 := by
      show BitVec.ofBool (decide ((0 : EReal) < (((k : ℝ)) : EReal))) = 1#1
      rw [decide_eq_true (by exact_mod_cast hpos)]; rfl
    rw [hc]
    show (if (1#1 : BitVec 1) = 1 then Ideal.rsqrt (((k : ℝ)) : EReal) else (0 : EReal)) = _
    rw [if_pos (by decide), Ideal.rsqrt_coe, if_neg (not_lt.mpr hpos.le), if_neg hpos.ne']

/-! ## (A) The degree array and the node factor -/

section Degree
variable {N E : Nat}
  (wf : ScatterDims.WF ⟨1, ![N]⟩ ⟨2, ![E, 1]⟩ ⟨1, ![E]⟩ [] [0] [0] 1)
  (bN0 : (⟨0, ![]⟩ : Shape).BroadcastsInDim ⟨1, ![N]⟩ (![] : Fin 0 → Fin 1))
  (bE0 : (⟨0, ![]⟩ : Shape).BroadcastsInDim ⟨1, ![E]⟩ (![] : Fin 0 → Fin 1))
  (idx : IVec ⟨2, ![E, 1]⟩ 32)

/-- The number of entries whose index, read signed, is the node n. -/
def count (n : Fin N) : Nat :=
  (Finset.univ.filter (fun e : Fin E => (idx (ix2 e ⟨0, Nat.one_pos⟩)).toInt = (n.val : Int))).card

/-- The splat of the float 0 reads 0 at every node. -/
theorem zeros_apply (j : (⟨1, ![N]⟩ : Shape).Idx) :
    broadcastInDim ⟨1, ![N]⟩ ![] bN0 (constant (F := Ideal) ⟨0, ![]⟩ .f32 0x00000000#32) j = (0 : EReal) :=
  (Cert.Bcast.scalar_apply bN0 _ j).trans Ideal.ofBits_zero_f32

/-- The splat of the float 1 reads 1 at every entry. -/
theorem ones_apply (j : (⟨1, ![E]⟩ : Shape).Idx) :
    broadcastInDim ⟨1, ![E]⟩ ![] bE0 (constant (F := Ideal) ⟨0, ![]⟩ .f32 0x3F800000#32) j = (1 : EReal) :=
  (Cert.Bcast.scalar_apply bE0 _ j).trans ofBits_one_f32

/-- THE DEGREE of node n: ones scattered into zeros count the entries whose index is n. -/
theorem degree_apply (n : Fin N) :
    Host.scatterAdd (F := Ideal) (scatterRows1 N E wf)
        (broadcastInDim ⟨1, ![N]⟩ ![] bN0 (constant (F := Ideal) ⟨0, ![]⟩ .f32 0x00000000#32)) idx
        (broadcastInDim ⟨1, ![E]⟩ ![] bE0 (constant (F := Ideal) ⟨0, ![]⟩ .f32 0x3F800000#32)) (ix1 n)
      = (((count idx n : Nat) : ℝ) : EReal) := by
  rw [scatterAdd_rows1_apply (φ := .f32) wf, zeros_apply bN0]
  simp only [ones_apply bE0]
  exact Cert.Laws.sum_one _

/-- THE NODE FACTOR — "(√deg)⁻¹ where deg > 0, else 0" — is a nonnegative real at every node. -/
theorem factor_nonneg_real (n : Fin N) :
    ∃ r : ℝ, 0 ≤ r ∧
      select
        (cmpf (F := Ideal) .ogt
          (Host.scatterAdd (F := Ideal) (scatterRows1 N E wf)
            (broadcastInDim ⟨1, ![N]⟩ ![] bN0 (constant (F := Ideal) ⟨0, ![]⟩ .f32 0x00000000#32)) idx
            (broadcastInDim ⟨1, ![E]⟩ ![] bE0 (constant (F := Ideal) ⟨0, ![]⟩ .f32 0x3F800000#32)))
          (broadcastInDim ⟨1, ![N]⟩ ![] bN0 (constant (F := Ideal) ⟨0, ![]⟩ .f32 0x00000000#32)))
        (Host.rsqrt
          (Host.scatterAdd (F := Ideal) (scatterRows1 N E wf)
            (broadcastInDim ⟨1, ![N]⟩ ![] bN0 (constant (F := Ideal) ⟨0, ![]⟩ .f32 0x00000000#32)) idx
            (broadcastInDim ⟨1, ![E]⟩ ![] bE0 (constant (F := Ideal) ⟨0, ![]⟩ .f32 0x3F800000#32))))
        (broadcastInDim ⟨1, ![N]⟩ ![] bN0 (id (constant (F := Ideal) ⟨0, ![]⟩ .f32 0x00000000#32))) (ix1 n)
      = (r : EReal) := by
  show ∃ r : ℝ, 0 ≤ r ∧
      Scalar.select
        (Ideal.cmp .ogt
          (Host.scatterAdd (F := Ideal) (scatterRows1 N E wf)
            (broadcastInDim ⟨1, ![N]⟩ ![] bN0 (constant (F := Ideal) ⟨0, ![]⟩ .f32 0x00000000#32)) idx
            (broadcastInDim ⟨1, ![E]⟩ ![] bE0 (constant (F := Ideal) ⟨0, ![]⟩ .f32 0x3F800000#32)) (ix1 n))
          (broadcastInDim ⟨1, ![N]⟩ ![] bN0 (constant (F := Ideal) ⟨0, ![]⟩ .f32 0x00000000#32) (ix1 n)))
        (Ideal.rsqrt
          (Host.scatterAdd (F := Ideal) (scatterRows1 N E wf)
            (broadcastInDim ⟨1, ![N]⟩ ![] bN0 (constant (F := Ideal) ⟨0, ![]⟩ .f32 0x00000000#32)) idx
            (broadcastInDim ⟨1, ![E]⟩ ![] bE0 (constant (F := Ideal) ⟨0, ![]⟩ .f32 0x3F800000#32)) (ix1 n)))
        (broadcastInDim ⟨1, ![N]⟩ ![] bN0 (constant (F := Ideal) ⟨0, ![]⟩ .f32 0x00000000#32) (ix1 n))
      = (r : EReal)
  rw [degree_apply wf bN0 bE0 idx n, zeros_apply bN0]
  exact select_rsqrt_nat (count idx n)

end Degree

/-! ## (B) The normalised index of an entry whose index is a row number -/

section Normalise
variable {N E : Nat}
  (bE1 : (⟨1, ![E]⟩ : Shape).BroadcastsInDim ⟨2, ![E, 1]⟩ (![0] : Fin 1 → Fin 2))
  (bE0i : (⟨0, ![]⟩ : Shape).BroadcastsInDim ⟨1, ![E]⟩ (![] : Fin 0 → Fin 1))
  (d : IVec ⟨1, ![E]⟩ 32) (Nw : BitVec 32)

/-- "Add the extent where negative" leaves an entry that is not negative. -/
theorem normalise_apply_of_nonneg (e : Fin E) (h : 0 ≤ (d (ix1 e)).toInt) :
    select (cmpi .slt d (broadcastInDim ⟨1, ![E]⟩ ![] bE0i (constantI ⟨0, ![]⟩ 32 0#32)))
        (addi d (broadcastInDim ⟨1, ![E]⟩ ![] bE0i (constantI ⟨0, ![]⟩ 32 Nw))) d (ix1 e)
      = d (ix1 e) := by
  show Scalar.select (IntOp.cmpi .slt (d (ix1 e)) (broadcastInDim ⟨1, ![E]⟩ ![] bE0i (constantI ⟨0, ![]⟩ 32 0#32) (ix1 e)))
      (IntOp.addi (d (ix1 e)) (broadcastInDim ⟨1, ![E]⟩ ![] bE0i (constantI ⟨0, ![]⟩ 32 Nw) (ix1 e))) (d (ix1 e)) = d (ix1 e)
  rw [Cert.Bcast.scalar_apply bE0i (constantI ⟨0, ![]⟩ 32 0#32) (ix1 e)]
  show (if BitVec.ofBool ((d (ix1 e)).slt 0#32) = 1 then _ else d (ix1 e)) = d (ix1 e)
  have hs : (d (ix1 e)).slt 0#32 = false := by
    show decide ((d (ix1 e)).toInt < (0#32 : BitVec 32).toInt) = false
    rw [decide_eq_false]
    rw [show (0#32 : BitVec 32).toInt = 0 from rfl]
    omega
  rw [hs, if_neg (by decide)]

/-- THE NORMALISED INDEX, CLAMPED, of an entry whose index is the row number n is n. -/
theorem normalised_clamped_eq (e : Fin E) (n : Fin N)
    (h : (broadcastInDim ⟨2, ![E, 1]⟩ ![0] bE1 d (ix2 e ⟨0, Nat.one_pos⟩)).toInt = (n.val : Int)) :
    min (broadcastInDim ⟨2, ![E, 1]⟩ ![0] bE1
          (select (cmpi .slt d (broadcastInDim ⟨1, ![E]⟩ ![] bE0i (constantI ⟨0, ![]⟩ 32 0#32)))
            (addi d (broadcastInDim ⟨1, ![E]⟩ ![] bE0i (constantI ⟨0, ![]⟩ 32 Nw))) d)
          (ix2 e ⟨0, Nat.one_pos⟩)).toInt.toNat (N - 1) = n.val := by
  rw [Cert.Bcast.col_apply bE1] at h
  rw [Cert.Bcast.col_apply bE1, normalise_apply_of_nonneg bE0i d Nw e (by rw [h]; exact Int.natCast_nonneg _), h,
    Int.toNat_natCast]
  have := n.isLt
  exact Nat.min_eq_left (by omega)

end Normalise

end Cert.DegreeFactor

end
-- ==== Proof.PoolLaw.lean ====
/-
  The mean pool over the nodes of each graph, with the last layer's bias added before the mean or after it.

  Node n belongs to graph x2(n).  For a graph g let s be the set of its nodes and k their number.  The number of
  nodes is computed as a sum of ones, 0 + Σ_{n∈s} 1 = k.  With the bias added to every row first, entry (g, c) of
  the pool is

      (0 + Σ_{n∈s} (a(n,c) + b(c))) / max k 1 ;

  with the bias added afterwards, and only where the graph has a node, it is

      (0 + Σ_{n∈s} a(n,c)) / max k 1 + (b(c) if 0 < k, else 0) .

  The two agree: over a set of k entries the mean of rows with a bias added is the mean of the rows plus the bias
  when k > 0, and both are 0 when k = 0 (an empty sum divided by 1).  Everything else is reading broadcasts, a
  comparison mask and a select at an index.
-/
import proofs.«130910_j17454747091450_2_alg».proof.Proof.Gen.KernelIdeal
import proofs.«130910_j17454747091450_2_alg».proof.Proof.KDefs
import proofs.«130910_j17454747091450_2_alg».proof.Proof.LibRowGatherScatter
import proofs.«130910_j17454747091450_2_alg».proof.Proof.Laws
import proofs.«130910_j17454747091450_2_alg».proof.Proof.Bcast
import proofs.«130910_j17454747091450_2_alg».proof.Proof.Spec
import Idealize.ShloMosaic.Lib.Pipeline.Value
import Idealize.ShloMosaic.Lib.ValueIdx
import Idealize.ShloMosaic.PureOps.Ideal.Laws

noncomputable section

open scoped BigOperators

namespace Cert.PoolLaw

open Cert.KernelIdeal Cert.KernelIdeal.Facts₀ Cert.KernelIdeal.Net Idealize.ShloMosaic Idealize.ShloMosaic.ValueIdx

/-- The word 0x3F800000 encodes the number one. -/
theorem ofBits_one_f32 : Ideal.ofBits .f32 0x3F800000#32 = 1 := by
  simp [Ideal.ofBits, Ideal.ieee]
  rw [← EReal.coe_mul]
  norm_num

/-- The zero constant broadcast to any shape reads 0 everywhere. -/
theorem zero_splat {t : Shape} (h : S_.BroadcastsInDim t (![] : Fin 0 → Fin t.rank)) (j : t.Idx) :
    broadcastInDim t ![] h (constant (F := Ideal) S_ .f32 0x00000000#32) j = (0 : EReal) :=
  (Cert.Bcast.scalar_apply h _ j).trans Ideal.ofBits_zero_f32

/-- The one constant broadcast to any shape reads 1 everywhere. -/
theorem one_splat {t : Shape} (h : S_.BroadcastsInDim t (![] : Fin 0 → Fin t.rank)) (j : t.Idx) :
    broadcastInDim t ![] h (constant (F := Ideal) S_ .f32 0x3F800000#32) j = (1 : EReal) :=
  (Cert.Bcast.scalar_apply h _ j).trans ofBits_one_f32

/-- A select on a decided comparison bit is the `if` on the comparison. -/
theorem select_ofBool {α : Type} (p : Prop) [Decidable p] (x y : α) :
    Scalar.select (BitVec.ofBool (decide p)) x y = if p then x else y := by
  by_cases hp : p
  · rw [if_pos hp, decide_eq_true hp]; exact select_one x y
  · rw [if_neg hp, decide_eq_false hp]; exact select_zero x y

/-- The nodes of graph g: the n whose graph index, read as a signed integer, is g. -/
def nodes (x2 : (⟨S50000, .i32⟩ : BufTy).Contents (Elt Ideal)) (g : Fin 64) : Finset (Fin 50000) :=
  Finset.univ.filter (fun e : Fin 50000 =>
    ((broadcastInDim S50000x1 ![0] bcast_S50000_S50000x1_0 x2 : IVec S50000x1 32) (ix2 e ⟨0, Nat.one_pos⟩)).toInt = (g.val : Int))

/-- The number of nodes of graph g, computed as a sum of ones. -/
theorem cnt_apply (x2 : (⟨S50000, .i32⟩ : BufTy).Contents (Elt Ideal)) (g : Fin 64) :
    cntK x2 (ix1 g) = (((nodes x2 g).card : ℝ) : EReal) := by
  unfold cntK
  rw [show Host.scatterAdd (F := Ideal) scatter_S64_S50000x1_S50000_n_0_0_1
        (broadcastInDim S64 ![] bcast_S_S64 (constant (F := Ideal) S_ .f32 0x00000000#32))
        (broadcastInDim S50000x1 ![0] bcast_S50000_S50000x1_0 x2)
        (broadcastInDim S50000 ![] bcast_S_S50000 (constant (F := Ideal) S_ .f32 0x3F800000#32)) (ix1 g) = _ from
      Cert.RowTake.scatterAdd_rows1_apply scatter_S64_S50000x1_S50000_n_0_0_1_wf _ _ _ g]
  rw [zero_splat]
  exact (congrArg (fun z : EReal => 0 + z) (Finset.sum_congr rfl fun e _ => one_splat bcast_S_S50000 (ix1 e))).trans
    (Cert.Laws.sum_one (nodes x2 g))

/-- A summed scatter of rows into zeros, at (g, c): the sum of the rows of graph g's nodes. -/
theorem pooled_apply (x2 : (⟨S50000, .i32⟩ : BufTy).Contents (Elt Ideal)) (u : (⟨S50000x128, .f32⟩ : BufTy).Contents (Elt Ideal))
    (g : Fin 64) (c : Fin 128) :
    Host.scatterAdd (F := Ideal) scatter_S64x128_S50000x1_S50000x128_1_0_0_1
        (broadcastInDim S64x128 ![] bcast_S_S64x128 (constant (F := Ideal) S_ .f32 0x00000000#32))
        (broadcastInDim S50000x1 ![0] bcast_S50000_S50000x1_0 x2) u (ix2 g c)
      = 0 + ∑ e ∈ nodes x2 g, (u : S50000x128.Idx → EReal) (ix2 e c) := by
  rw [show Host.scatterAdd (F := Ideal) scatter_S64x128_S50000x1_S50000x128_1_0_0_1
        (broadcastInDim S64x128 ![] bcast_S_S64x128 (constant (F := Ideal) S_ .f32 0x00000000#32))
        (broadcastInDim S50000x1 ![0] bcast_S50000_S50000x1_0 x2) u (ix2 g c) = _ from
      Cert.RowTake.scatterAdd_rows2_apply scatter_S64x128_S50000x1_S50000x128_1_0_0_1_wf _ _ _ g c]
  rw [zero_splat]
  rfl

/-- The divisor at (g, c): the number of nodes of graph g, or 1 if it has none. -/
theorem den_apply (x2 : (⟨S50000, .i32⟩ : BufTy).Contents (Elt Ideal)) (g : Fin 64) (c : Fin 128) :
    broadcastInDim S64x128 ![0, 1] bcast_S64x1_S64x128_0_1 (broadcastInDim S64x1 ![0] bcast_S64_S64x1_0
        (maximumf (cntK x2) (broadcastInDim S64 ![] bcast_S_S64 (constant (F := Ideal) S_ .f32 0x3F800000#32)))) (ix2 g c)
      = max (((nodes x2 g).card : ℝ) : EReal) 1 := by
  rw [Cert.Bcast.cols_apply bcast_S64_S64x1_0 bcast_S64x1_S64x128_0_1 _ g c, maximumf_apply, cnt_apply, one_splat]

/-- The "has a node" mask at (g, c): the bit of 0 < (number of nodes of graph g). -/
theorem mask_apply (x2 : (⟨S50000, .i32⟩ : BufTy).Contents (Elt Ideal)) (g : Fin 64) (c : Fin 128) :
    broadcastInDim S64x128 ![0, 1] bcast_S64x1_S64x128_0_1
        (cmpf (F := Ideal) .ogt (broadcastInDim S64x1 ![0] bcast_S64_S64x1_0 (cntK x2))
          (broadcastInDim S64x1 ![] bcast_S_S64x1 (constant (F := Ideal) S_ .f32 0x00000000#32))) (ix2 g c)
      = BitVec.ofBool (decide ((0 : EReal) < (((nodes x2 g).card : ℝ) : EReal))) := by
  rw [broadcastInDim_apply _ bcast_S64x1_S64x128_0_1 _ (ix2 g c) (ix2 g (⟨0, Nat.one_pos⟩ : Fin 1)) (fun a => match a with
      | ⟨0, _⟩ => Cert.Bcast.coord_rule g
      | ⟨1, _⟩ => by show (0 : Nat) = if (1 : Nat) = 1 then 0 else c.val; rw [if_pos rfl]),
    cmpf_apply, Cert.Bcast.col_apply bcast_S64_S64x1_0 _ g _, zero_splat, cnt_apply]
  rfl

/-- The host's quotient at an index is the quotient of the elements. -/
theorem hostDivf_apply {s : Shape} {φ : FTy} (x y : FVec Ideal s φ) (i : s.Idx) : Host.divf x y i = Ideal.div (x i) (y i) := rfl

/-- THE POOL: adding the bias after the mean (where the graph has a node) is the mean of the rows with the bias
    added. -/
theorem poolK_eq (x2 : (⟨S50000, .i32⟩ : BufTy).Contents (Elt Ideal)) (b : (⟨S128, .f32⟩ : BufTy).Contents (Elt Ideal))
    (a : (⟨S50000x128, .f32⟩ : BufTy).Contents (Elt Ideal)) :
    poolK x2 b a
      = Host.divf (Host.scatterAdd scatter_S64x128_S50000x1_S50000x128_1_0_0_1
            (broadcastInDim S64x128 ![] bcast_S_S64x128 (constant (F := Ideal) S_ .f32 0x00000000#32))
            (broadcastInDim S50000x1 ![0] bcast_S50000_S50000x1_0 x2) (Spec.addBias a b))
          (broadcastInDim S64x128 ![0, 1] bcast_S64x1_S64x128_0_1 (broadcastInDim S64x1 ![0] bcast_S64_S64x1_0
            (maximumf (cntK x2) (broadcastInDim S64 ![] bcast_S_S64 (constant (F := Ideal) S_ .f32 0x3F800000#32))))) := by
  refine Spec.ext2 (M := 64) (N := 128) (α := EReal) fun g c => ?_
  unfold poolK
  have hz : broadcastInDim S64x128 ![] bcast_S_S64x128 (id (constant (F := Ideal) S_ .f32 0x00000000#32)) (ix2 g c) = (0 : EReal) :=
    zero_splat bcast_S_S64x128 (ix2 g c)
  rw [addf_apply, hostDivf_apply, select_apply, hostDivf_apply, pooled_apply, pooled_apply, den_apply, mask_apply,
    Cert.Bcast.rows_apply bcast_S128_S1x128_1 bcast_S1x128_S64x128_0_1 b g c, hz, select_ofBool]
  exact (Cert.Laws.mean_add_bias (nodes x2 g) (fun e => (a : S50000x128.Idx → EReal) (ix2 e c)) ((b : S128.Idx → EReal) (ix1 c))).symm

end Cert.PoolLaw

end
-- ==== Proof.Bridge.lean ====
/-
  THE KERNEL'S HOST STAGES EQUAL THE REFERENCE'S, AS FUNCTIONS.

  Two stages of the graph network are arranged differently in the two programs.

  • One aggregation over the edge list (with a self-loop per node). Every node n has the factor dinv(n) = deg(n)^(-1/2)
    where its in-degree is positive, else 0. The kernel scales the rows by dinv, gathers the source rows, sums them into
    the target rows and scales row n by dinv(n) again; the reference gathers the source rows, scales the row of entry e
    by dinv(src e) · dinv(dst e) and sums into the target rows. They agree because dinv(n) is a nonnegative real — it
    distributes over a sum of extended reals — and an entry summed into row n has target n, so its second factor is
    dinv(n). Both programs build the edge list, the degree, the factor and the index columns by the same operations
    on the same argument, so the node factor, the source column and the target column of the one are those of the other.
  • The mean pool over the nodes of each graph. The kernel adds the last layer's bias after the mean, where the graph
    has a node; the reference adds it to every row before the mean. The mean of rows with a bias added is the mean of
    the rows plus the bias when the graph has a node, and both are 0 when it has none.
-/
import proofs.«130910_j17454747091450_2_alg».proof.Proof.KDefs
import proofs.«130910_j17454747091450_2_alg».proof.Proof.RefValue
import proofs.«130910_j17454747091450_2_alg».proof.Proof.PropLaw
import proofs.«130910_j17454747091450_2_alg».proof.Proof.DegreeFactor
import proofs.«130910_j17454747091450_2_alg».proof.Proof.PoolLaw

noncomputable section

namespace Cert.Bridge

open Cert.ReferenceIdeal Cert.ReferenceIdeal.Facts₀ Cert.ReferenceIdeal.ReadP Idealize.ShloMosaic Idealize.ShloMosaic.ValueIdx

/-- ONE AGGREGATION: the kernel's arrangement — scale the rows by the node factor, gather the source rows, sum them into
    the target rows, scale by the node factor again — gives the array of the reference's — gather the source rows, scale
    each entry's row by the product of its two endpoint factors, sum into the target rows. The node factor is a
    nonnegative real at every node, and an entry summed into row n has target n, so its second endpoint factor is row n's. -/
theorem propK_eq_propR (x1 : (⟨S2x800000, .i32⟩ : BufTy).Contents (Elt Ideal)) (hw : (⟨S50000x128, .f32⟩ : BufTy).Contents (Elt Ideal)) :
    Cert.KernelIdeal.Net.propK (Cert.KernelIdeal.Net.dinvK x1) (Cert.KernelIdeal.Net.srcRawK x1) (Cert.KernelIdeal.Net.dstRawK x1) hw
      = Cert.RefValue.propR x1 hw :=
  Cert.PropLaw.scale_rows_eq_scale_edges (N := 50000) (E := 850000) (C := 128) (by decide)
    scatter_S50000x128_S850000x1_S850000x128_1_0_0_1_wf
    gather_S50000x128_S850000x1_S850000x128_1_0_n_n_0_1_1128_wf
    gather_S50000_S850000x1_S850000_n_0_n_n_0_1_1_wf
    bcast_S_S50000x128 bcast_S50000_S50000x1_0 Cert.KernelIdeal.Facts₀.bcast_S50000x1_S50000x128_0_1
    bcast_S850000_S850000x1_0 bcast_S850000x1_S850000x128_0_1
    hw (val_main_v14 (F := Ideal) x1) (val_main_v36 (F := Ideal) x1) (val_main_v42 (F := Ideal) x1) (val_main_v27 (F := Ideal) x1)
    (fun n => Cert.DegreeFactor.factor_nonneg_real scatter_S50000_S850000x1_S850000_n_0_0_1_wf bcast_S_S50000 bcast_S_S850000
      (val_main_v9 (F := Ideal) x1) n)
    (fun e n h => Cert.DegreeFactor.normalised_clamped_eq bcast_S850000_S850000x1_0 bcast_S_S850000
      (val_main_v6 (F := Ideal) x1) 50000#32 e n h)

/-- THE MEAN POOL: the kernel's — the mean of the rows of each graph, the bias added after the mean where the graph has
    a node — is the reference's mean pool of the rows with the bias added. -/
theorem poolK_eq_poolR (x2 : (⟨S50000, .i32⟩ : BufTy).Contents (Elt Ideal)) (b : (⟨S128, .f32⟩ : BufTy).Contents (Elt Ideal))
    (a : (⟨S50000x128, .f32⟩ : BufTy).Contents (Elt Ideal)) :
    Cert.KernelIdeal.Net.poolK x2 b a = Cert.RefValue.poolR x2 (Cert.Spec.addBias a b) :=
  Cert.PoolLaw.poolK_eq x2 b a

end Cert.Bridge

end
-- ==== Proof.Results.lean ====
/-
  The two programs' results are the same functions of the nineteen arguments.

  Written over the arguments x0 … x18 (node features, edge list, graph of each node, then the weights and biases), the
  kernel program's first result is

      poolK x2 x8 (A (mm (reluBias (A (mm (reluBias (A (mm x0 x3)) x4) x5)) x6) x7)),   A h = propK (dinvK x1) (srcRawK x1) (dstRawK x1) h,

  three aggregations of dense products with the last layer's bias added after the mean pool, and the reference's is

      poolR x2 (addBias (propR x1 (mm (reluBias (propR x1 (mm (reluBias (propR x1 (mm x0 x3)) x4) x5)) x6) x7)) x8),

  the same with the bias added before the pool.  One aggregation is the same array in either arrangement
  (`propK … = propR …`: the node factor is a nonnegative real, so it distributes over the sum of messages), and the mean
  of rows with the bias added is the mean plus the bias where the graph has a node (`poolK x2 b a = poolR x2 (addBias a b)`).
  The second result is the same five-layer head applied to the first on both sides.
-/
import proofs.«130910_j17454747091450_2_alg».proof.Proof.KDefs
import proofs.«130910_j17454747091450_2_alg».proof.Proof.Spec
import proofs.«130910_j17454747091450_2_alg».proof.Proof.RefValue
import proofs.«130910_j17454747091450_2_alg».proof.Proof.Bridge

noncomputable section

namespace Cert.ResultsEq

open Cert.ReferenceIdeal Cert.KernelIdeal.Net Cert.Spec Idealize.ShloMosaic

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1024, .f32⟩ : BufTy).Contents (Elt Ideal)) (x10 : (⟨S1024, .f32⟩ : BufTy).Contents (Elt Ideal)) (x11 : (⟨S1024x512, .f32⟩ : BufTy).Contents (Elt Ideal)) (x12 : (⟨S512, .f32⟩ : BufTy).Contents (Elt Ideal)) (x13 : (⟨S512x256, .f32⟩ : BufTy).Contents (Elt Ideal)) (x14 : (⟨S256, .f32⟩ : BufTy).Contents (Elt Ideal)) (x15 : (⟨S256x128, .f32⟩ : BufTy).Contents (Elt Ideal)) (x16 : (⟨S128, .f32⟩ : BufTy).Contents (Elt Ideal)) (x17 : (⟨S128x10, .f32⟩ : BufTy).Contents (Elt Ideal)) (x18 : (⟨S10, .f32⟩ : BufTy).Contents (Elt Ideal))

/-- THE FIRST RESULT: the kernel program's pooled array is the reference's. -/
theorem f_eq :
    poolK x2 x8 (propK (dinvK x1) (srcRawK x1) (dstRawK x1) (mm (reluBias (propK (dinvK x1) (srcRawK x1) (dstRawK x1) (mm (reluBias (propK (dinvK x1) (srcRawK x1) (dstRawK x1) (mm x0 x3)) x4) x5)) x6) x7))
      = Cert.ReferenceIdeal.ReadP.val_main_v94 (F := Ideal) x0 x1 x2 x3 x4 x5 x6 x7 x8 := by
  rw [Cert.Bridge.propK_eq_propR, Cert.Bridge.propK_eq_propR, Cert.Bridge.propK_eq_propR, Cert.Bridge.poolK_eq_poolR]
  exact (Cert.RefValue.ref_f x0 x1 x2 x3 x4 x5 x6 x7 x8).symm

/-- THE SECOND RESULT: the five-layer head of the first, on both sides. -/
theorem y_eq :
    addBias (mm (reluBias (mm (reluBias (mm (reluBias (mm (reluBias (mm (poolK x2 x8 (propK (dinvK x1) (srcRawK x1) (dstRawK x1) (mm (reluBias (propK (dinvK x1) (srcRawK x1) (dstRawK x1) (mm (reluBias (propK (dinvK x1) (srcRawK x1) (dstRawK x1) (mm x0 x3)) x4) x5)) x6) x7))) x9) x10) x11) x12) x13) x14) x15) x16) x17) x18
      = Cert.ReferenceIdeal.ReadP.val_main_v118 (F := Ideal) x0 x1 x2 x3 x4 x5 x6 x7 x8 x9 x10 x11 x12 x13 x14 x15 x16 x17 x18 := by
  rw [f_eq x0 x1 x2 x3 x4 x5 x6 x7 x8]
  exact (Cert.RefValue.ref_y x0 x1 x2 x3 x4 x5 x6 x7 x8 x9 x10 x11 x12 x13 x14 x15 x16 x17 x18).symm

end Cert.ResultsEq

end
-- ==== Proof.lean ====
/-
  Both programs compute a three-layer graph convolution with symmetric normalisation, a mean pool over the graphs and a
  five-layer dense head, from the same nineteen arrays.  The kernel program takes each layer's dense product on the
  TensorCore and aggregates on the host by scaling the rows with the node factor before the gather and again after the
  sum, and adds the last layer's bias after the pool; the reference scales every gathered row by the product of its two
  endpoint factors and adds the bias before the pool.  Over the extended reals the results are equal: the node factor is
  a nonnegative real whatever the inputs (the reciprocal square root of a positive count, or zero), so it distributes
  over the sum of messages; the mean of rows with a bias added is the mean plus the bias where the graph has a node; and
  the head is the same composition of products, biases and positive parts on both sides.  The frames are the generated
  ones for the two kernel programs and the reference's run read at its arguments.
-/
import proofs.«130910_j17454747091450_2_alg».proof.Defs
import proofs.«130910_j17454747091450_2_alg».proof.Proof.Gen.Kernel
import proofs.«130910_j17454747091450_2_alg».proof.Proof.Gen.Kernel.Skeleton
import proofs.«130910_j17454747091450_2_alg».proof.Proof.Gen.Kernel.Launch
import proofs.«130910_j17454747091450_2_alg».proof.Proof.Gen.Kernel.Points
import proofs.«130910_j17454747091450_2_alg».proof.Proof.Gen.Kernel.Frame
import proofs.«130910_j17454747091450_2_alg».proof.Proof.Gen.KernelIdeal
import proofs.«130910_j17454747091450_2_alg».proof.Proof.Gen.KernelIdeal.Skeleton
import proofs.«130910_j17454747091450_2_alg».proof.Proof.Gen.KernelIdeal.Launch
import proofs.«130910_j17454747091450_2_alg».proof.Proof.Gen.KernelIdeal.Points
import proofs.«130910_j17454747091450_2_alg».proof.Proof.Gen.KernelIdeal.Frame
import proofs.«130910_j17454747091450_2_alg».proof.Proof.Gen.ReferenceIdeal
import proofs.«130910_j17454747091450_2_alg».proof.Proof.Gen.Pre_finite_inputs
import Idealize.ShloMosaic.Adequacy
import Idealize.ShloMosaic.Init
import proofs.«130910_j17454747091450_2_alg».proof.Proof.KRun
import proofs.«130910_j17454747091450_2_alg».proof.Proof.KValue
import proofs.«130910_j17454747091450_2_alg».proof.Proof.RunP
import proofs.«130910_j17454747091450_2_alg».proof.Proof.ReadP
import proofs.«130910_j17454747091450_2_alg».proof.Proof.Results

noncomputable section

namespace Cert.Proof

open Idealize.ShloMosaic Idealize.SL.Sem

/-- The kernel program as compiled runs and leaves its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments: its run, read at the argument arrays. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories that agree on the arguments both programs end with the same two result arrays: the kernel program's
    results are the functions `kernel_f`, `kernel_y` of its arguments, the reference's are `val_main_v94`, `val_main_v118`
    of its own, and those functions are equal (`ResultsEq.f_eq`, `ResultsEq.y_eq`). -/
theorem algebraic : Cert.algebraic_KernelIdeal_ReferenceIdeal := by
  intro m ρ m' ρ' _ hagree
  refine ⟨fun c => Cert.KernelIdeal.Gen.W11 m ρ c (Proc.devRef .tc Cert.KernelIdeal.main_v83),
    fun c => Cert.KernelIdeal.Gen.W11 m ρ c (Proc.devRef .tc Cert.KernelIdeal.main_v84),
    Cert.KernelIdeal.Results.run (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, -⟩ := hagree c
    rw [Cert.ReferenceIdeal.ReadP.val_main_v94_eq, h0, h1, h2, h3, h4, h5, h6, h7, h8]
    exact (Cert.ResultsEq.f_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm.trans
      (Cert.KernelIdeal.HostValue.kernel_f m ρ c).symm
  · obtain ⟨h0, h1, h2, h3, h4, h5, h6, h7, h8, h9, h10, h11, h12, h13, h14, h15, h16, h17, h18⟩ := hagree c
    rw [Cert.ReferenceIdeal.ReadP.val_main_v118_eq, h0, h1, h2, h3, h4, h5, h6, h7, h8, h9, h10, h11, h12, h13, h14, h15, h16, h17, h18]
    exact (Cert.ResultsEq.y_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).symm.trans
      (Cert.KernelIdeal.HostValue.kernel_y m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
